-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S8192 : Shape := ⟨1, ![8192]⟩
abbrev S8x2048x1376 : Shape := ⟨3, ![8, 2048, 1376]⟩
abbrev S8x1376x2048 : Shape := ⟨3, ![8, 1376, 2048]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192 : S_.BroadcastsInDim S8192 (![] : Fin 0 → Fin S8192.rank)
  reducesTo_S8192_S_d0 : S8192.ReducesTo [0] S_
  bcast_S_S8x2048x1376 : S_.BroadcastsInDim S8x2048x1376 (![] : Fin 0 → Fin S8x2048x1376.rank)
  reducesTo_S8x2048x1376_S_d0_1_2 : S8x2048x1376.ReducesTo [0, 1, 2] S_
  bcast_S_S8x1376x2048 : S_.BroadcastsInDim S8x1376x2048 (![] : Fin 0 → Fin S8x1376x2048.rank)
  reducesTo_S8x1376x2048_S_d0_1_2 : S8x1376x2048.ReducesTo [0, 1, 2] S_

variable [Facts]

def fn_part1 {F : FTy → Type} [FloatOps F] (main_arg1 : IVec S8192 32) (main_arg5 : FVec F S8x1376x2048 .f32) (main_v13 : IVec S_ 1) (main_v16 : IVec S8x2048x1376 1) : IVec S_ 1 :=
  let main_c_5 : IVec S_ 1 := constantI S_ 1 1#1
  let main_v17 : IVec S_ 1 := (fun x v => Host.reduce IntOp.andi x v reducesTo_S8x2048x1376_S_d0_1_2 h_S_) main_v16 main_c_5
  let main_v18 : IVec S_ 1 := andi main_v13 main_v17
  let main_v19 : FVec F S8x1376x2048 .f32 := Host.absf main_arg5
  let main_cst_6 : FVec F S_ .f32 := constant S_ .f32 0x7F800000#32
  let main_v20 : FVec F S8x1376x2048 .f32 := broadcastInDim S8x1376x2048 ![] bcast_S_S8x1376x2048 main_cst_6
  let main_v21 : IVec S8x1376x2048 1 := cmpf .olt main_v19 main_v20
  let main_c_7 : IVec S_ 1 := constantI S_ 1 1#1
  let main_v22 : IVec S_ 1 := (fun x v => Host.reduce IntOp.andi x v reducesTo_S8x1376x2048_S_d0_1_2 h_S_) main_v21 main_c_7
  let main_v23 : IVec S_ 1 := andi main_v18 main_v22
  let main_c_8 : IVec S_ 32 := constantI S_ 32 0#32
  let main_v24 : IVec S8192 32 := broadcastInDim S8192 ![] bcast_S_S8192 main_c_8
  let main_v25 : IVec S8192 1 := cmpi .sge main_arg1 main_v24
  let main_c_9 : IVec S_ 32 := constantI S_ 32 8#32
  let main_v26 : IVec S8192 32 := broadcastInDim S8192 ![] bcast_S_S8192 main_c_9
  let main_v27 : IVec S8192 1 := cmpi .slt main_arg1 main_v26
  let main_v28 : IVec S8192 1 := andi main_v25 main_v27
  let main_c_10 : IVec S_ 1 := constantI S_ 1 1#1
  let main_v29 : IVec S_ 1 := (fun x v => Host.reduce IntOp.andi x v reducesTo_S8192_S_d0 h_S_) main_v28 main_c_10
  let main_v30 : IVec S_ 1 := andi main_v23 main_v29
  main_v30

def fn {F : FTy → Type} [FloatOps F] (main_arg0 : FVec F S8192x2048 .f32) (main_arg1 : IVec S8192 32) (main_arg2 : FVec F S8192 .f32) (main_arg3 : FVec F S8x2048x1376 .f32) (main_arg4 : FVec F S8x2048x1376 .f32) (main_arg5 : FVec F S8x1376x2048 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192 .f32 := Host.absf main_arg2
  let main_cst_0 : FVec F S_ .f32 := constant S_ .f32 0x7F800000#32
  let main_v5 : FVec F S8192 .f32 := broadcastInDim S8192 ![] bcast_S_S8192 main_cst_0
  let main_v6 : IVec S8192 1 := cmpf .olt main_v4 main_v5
  let main_c_1 : IVec S_ 1 := constantI S_ 1 1#1
  let main_v7 : IVec S_ 1 := (fun x v => Host.reduce IntOp.andi x v reducesTo_S8192_S_d0 h_S_) main_v6 main_c_1
  let main_v8 : IVec S_ 1 := andi main_v3 main_v7
  let main_v9 : FVec F S8x2048x1376 .f32 := Host.absf main_arg3
  let main_cst_2 : FVec F S_ .f32 := constant S_ .f32 0x7F800000#32
  let main_v10 : FVec F S8x2048x1376 .f32 := broadcastInDim S8x2048x1376 ![] bcast_S_S8x2048x1376 main_cst_2
  let main_v11 : IVec S8x2048x1376 1 := cmpf .olt main_v9 main_v10
  let main_c_3 : IVec S_ 1 := constantI S_ 1 1#1
  let main_v12 : IVec S_ 1 := (fun x v => Host.reduce IntOp.andi x v reducesTo_S8x2048x1376_S_d0_1_2 h_S_) main_v11 main_c_3
  let main_v13 : IVec S_ 1 := andi main_v8 main_v12
  let main_v14 : FVec F S8x2048x1376 .f32 := Host.absf main_arg4
  let main_cst_4 : FVec F S_ .f32 := constant S_ .f32 0x7F800000#32
  let main_v15 : FVec F S8x2048x1376 .f32 := broadcastInDim S8x2048x1376 ![] bcast_S_S8x2048x1376 main_cst_4
  let main_v16 : IVec S8x2048x1376 1 := cmpf .olt main_v14 main_v15
  fn_part1 (F := F) main_arg1 main_arg5 main_v13 main_v16
-- ==== Kernel.lean ====
abbrev S8192x2048 : Shape := ⟨2, ![8192, 2048]⟩
abbrev S8192 : Shape := ⟨1, ![8192]⟩
abbrev S8x2048x1376 : Shape := ⟨3, ![8, 2048, 1376]⟩
abbrev S8x1376x2048 : Shape := ⟨3, ![8, 1376, 2048]⟩
abbrev S8192x1 : Shape := ⟨2, ![8192, 1]⟩
abbrev S1x8 : Shape := ⟨2, ![1, 8]⟩
abbrev S8192x8 : Shape := ⟨2, ![8192, 8]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S10241x2048 : Shape := ⟨2, ![10241, 2048]⟩
abbrev S10240x2048 : Shape := ⟨2, ![10240, 2048]⟩
abbrev S8x1280x2048 : Shape := ⟨3, ![8, 1280, 2048]⟩
abbrev S1x128x2048 : Shape := ⟨3, ![1, 128, 2048]⟩
abbrev S1x2048x1376 : Shape := ⟨3, ![1, 2048, 1376]⟩
abbrev S1x1376x2048 : Shape := ⟨3, ![1, 1376, 2048]⟩
abbrev S128x2048 : Shape := ⟨2, ![128, 2048]⟩
abbrev S2048x1376 : Shape := ⟨2, ![2048, 1376]⟩
abbrev S1376x2048 : Shape := ⟨2, ![1376, 2048]⟩
abbrev S128x1376 : Shape := ⟨2, ![128, 1376]⟩

abbrev nBuf : Space → Nat
  | .hbm => 100
  | .vmem => 10
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8192, .f32⟩
  | .hbm, ⟨3, _⟩ => ⟨S8x2048x1376, .f32⟩
  | .hbm, ⟨4, _⟩ => ⟨S8x2048x1376, .f32⟩
  | .hbm, ⟨5, _⟩ => ⟨S8x1376x2048, .f32⟩
  | .hbm, ⟨6, _⟩ => ⟨S8192x1, .i32⟩
  | .hbm, ⟨7, _⟩ => ⟨S1x8, .i32⟩
  | .hbm, ⟨8, _⟩ => ⟨S8192x8, .i32⟩
  | .hbm, ⟨9, _⟩ => ⟨S8192x8, .i32⟩
  | .hbm, ⟨10, _⟩ => ⟨S8192x8, .i1⟩
  | .hbm, ⟨11, _⟩ => ⟨S8192x8, .i32⟩
  | .hbm, ⟨12, _⟩ => ⟨S_, .i32⟩
  | .hbm, ⟨13, _⟩ => ⟨S_, .i32⟩
  | .hbm, ⟨14, _⟩ => ⟨S8192x8, .i32⟩
  | .hbm, ⟨15, _⟩ => ⟨S_, .i32⟩
  | .hbm, ⟨16, _⟩ => ⟨S8192x8, .i32⟩
  | .hbm, ⟨17, _⟩ => ⟨S8192x8, .i32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S1, .i32⟩
  | .hbm, ⟨28, _⟩ => ⟨S_, .i32⟩
  | .hbm, ⟨29, _⟩ => ⟨S8192x1x1, .i32⟩
  | .hbm, ⟨30, _⟩ => ⟨S8192x1x1, .i1⟩
  | .hbm, ⟨31, _⟩ => ⟨S1x1x1, .i32⟩
  | .hbm, ⟨32, _⟩ => ⟨S8192x1x1, .i32⟩
  | .hbm, ⟨33, _⟩ => ⟨S8192x1x1, .i1⟩
  | .hbm, ⟨34, _⟩ => ⟨S8192x1x1, .i1⟩
  | .hbm, ⟨35, _⟩ => ⟨S_, .i1⟩
  | .hbm, ⟨36, _⟩ => ⟨S8192x1, .i1⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S_, .i32⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S8192x2048, .bf16⟩
  | .hbm, ⟨54, _⟩ => ⟨S_, .bf16⟩
  | .hbm, ⟨55, _⟩ => ⟨S10241x2048, .bf16⟩
  | .hbm, ⟨56, _⟩ => ⟨S8192x1, .i1⟩
  | .hbm, ⟨57, _⟩ => ⟨S_, .bf16⟩
  | .hbm, ⟨58, _⟩ => ⟨S8192x2048, .bf16⟩
  | .hbm, ⟨59, _⟩ => ⟨S8192x2048, .i1⟩
  | .hbm, ⟨60, _⟩ => ⟨S8192x2048, .bf16⟩
  | .hbm, ⟨61, _⟩ => ⟨S_, .i32⟩
  | .hbm, ⟨62, _⟩ => ⟨S8192, .i32⟩
  | .hbm, ⟨63, _⟩ => ⟨S8192, .i1⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S8192, .i32⟩
  | .hbm, ⟨68, _⟩ => ⟨S8192x1, .i32⟩
  | .hbm, ⟨69, _⟩ => ⟨S10241x2048, .bf16⟩
  | .hbm, ⟨70, _⟩ => ⟨S10240x2048, .bf16⟩
  | .hbm, ⟨71, _⟩ => ⟨S8x1280x2048, .bf16⟩
  | .hbm, ⟨72, _⟩ => ⟨S8x2048x1376, .bf16⟩
  | .hbm, ⟨73, _⟩ => ⟨S8x2048x1376, .bf16⟩
  | .hbm, ⟨74, _⟩ => ⟨S8x1376x2048, .bf16⟩
  | .hbm, ⟨75, _⟩ => ⟨S8x1280x2048, .f32⟩
  | .hbm, ⟨76, _⟩ => ⟨S10240x2048, .f32⟩
  | .hbm, ⟨77, _⟩ => ⟨S_, .i32⟩
  | .hbm, ⟨78, _⟩ => ⟨S_, .i32⟩
  | .hbm, ⟨79, _⟩ => ⟨S8192, .i32⟩
  | .hbm, ⟨80, _⟩ => ⟨S8192, .i32⟩
  | .hbm, ⟨81, _⟩ => ⟨S_, .i32⟩
  | .hbm, ⟨82, _⟩ => ⟨S8192, .i32⟩
  | .hbm, ⟨83, _⟩ => ⟨S8192, .i1⟩
  | .hbm, ⟨84, _⟩ => ⟨S_, .i32⟩
  | .hbm, ⟨85, _⟩ => ⟨S8192, .i32⟩
  | .hbm, ⟨86, _⟩ => ⟨S8192, .i32⟩
  | .hbm, ⟨87, _⟩ => ⟨S8192, .i32⟩
  | .hbm, ⟨88, _⟩ => ⟨S8192x1, .i32⟩
  | .hbm, ⟨89, _⟩ => ⟨S8192x2048, .f32⟩
  | .hbm, ⟨90, _⟩ => ⟨S8192x1, .i1⟩
  | .hbm, ⟨91, _⟩ => ⟨S8192x1, .f32⟩
  | .hbm, ⟨92, _⟩ => ⟨S8192x2048, .f32⟩
  | .hbm, ⟨93, _⟩ => ⟨S8192x2048, .f32⟩
  | .hbm, ⟨94, _⟩ => ⟨S8192x1, .f32⟩
  | .hbm, ⟨95, _⟩ => ⟨S_, .f32⟩
  | .hbm, ⟨96, _⟩ => ⟨S8192x1, .f32⟩
  | .hbm, ⟨97, _⟩ => ⟨S8192x1, .f32⟩
  | .hbm, ⟨98, _⟩ => ⟨S8192x2048, .f32⟩
  | .hbm, ⟨99, _⟩ => ⟨S8192x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x2048x1376, .bf16⟩
  | .local _ .vmem, ⟨3, _⟩ => ⟨S1x2048x1376, .bf16⟩
  | .local _ .vmem, ⟨4, _⟩ => ⟨S1x2048x1376, .bf16⟩
  | .local _ .vmem, ⟨5, _⟩ => ⟨S1x2048x1376, .bf16⟩
  | .local _ .vmem, ⟨6, _⟩ => ⟨S1x1376x2048, .bf16⟩
  | .local _ .vmem, ⟨7, _⟩ => ⟨S1x1376x2048, .bf16⟩
  | .local _ .vmem, ⟨8, _⟩ => ⟨S1x128x2048, .f32⟩
  | .local _ .vmem, ⟨9, _⟩ => ⟨S1x128x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_call0_c : Ref sig .tc := ⟨.hbm, 12, rfl⟩
abbrev main_call1_call0_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_c_4 : Ref sig .tc := ⟨.hbm, 38, rfl⟩
abbrev main_call2_v14 : Ref sig .tc := ⟨.hbm, 39, rfl⟩
abbrev main_v5 : Ref sig .tc := ⟨.hbm, 40, rfl⟩
abbrev main_v6 : Ref sig .tc := ⟨.hbm, 41, rfl⟩
abbrev main_c_0 : Ref sig .tc := ⟨.hbm, 42, rfl⟩
abbrev main_v7 : Ref sig .tc := ⟨.hbm, 43, rfl⟩
abbrev main_v8 : Ref sig .tc := ⟨.hbm, 44, rfl⟩
abbrev main_c_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_c_2 : Ref sig .tc := ⟨.hbm, 49, rfl⟩
abbrev main_call3_v0 : Ref sig .tc := ⟨.hbm, 50, rfl⟩
abbrev main_call3_v1 : Ref sig .tc := ⟨.hbm, 51, rfl⟩
abbrev main_v12 : Ref sig .tc := ⟨.hbm, 52, rfl⟩
abbrev main_v13 : Ref sig .tc := ⟨.hbm, 53, rfl⟩
abbrev main_cst : Ref sig .tc := ⟨.hbm, 54, rfl⟩
abbrev main_v14 : Ref sig .tc := ⟨.hbm, 55, rfl⟩
abbrev main_v15 : Ref sig .tc := ⟨.hbm, 56, rfl⟩
abbrev main_cst_3 : Ref sig .tc := ⟨.hbm, 57, rfl⟩
abbrev main_v16 : Ref sig .tc := ⟨.hbm, 58, rfl⟩
abbrev main_call4_v0 : Ref sig .tc := ⟨.hbm, 59, rfl⟩
abbrev main_v17 : Ref sig .tc := ⟨.hbm, 60, rfl⟩
abbrev main_c_4 : Ref sig .tc := ⟨.hbm, 61, rfl⟩
abbrev main_v18 : Ref sig .tc := ⟨.hbm, 62, rfl⟩
abbrev main_v19 : Ref sig .tc := ⟨.hbm, 63, rfl⟩
abbrev main_c_5 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_v28 : Ref sig .tc := ⟨.hbm, 73, rfl⟩
abbrev main_v29 : Ref sig .tc := ⟨.hbm, 74, rfl⟩
abbrev main_v30 : Ref sig .tc := ⟨.hbm, 75, rfl⟩
abbrev main_v31 : Ref sig .tc := ⟨.hbm, 76, rfl⟩
abbrev main_c_6 : Ref sig .tc := ⟨.hbm, 77, rfl⟩
abbrev main_call5_v0 : Ref sig .tc := ⟨.hbm, 78, rfl⟩
abbrev main_call5_v1 : Ref sig .tc := ⟨.hbm, 79, rfl⟩
abbrev main_v32 : Ref sig .tc := ⟨.hbm, 80, rfl⟩
abbrev main_c_7 : Ref sig .tc := ⟨.hbm, 81, rfl⟩
abbrev main_v33 : Ref sig .tc := ⟨.hbm, 82, rfl⟩
abbrev main_v34 : Ref sig .tc := ⟨.hbm, 83, rfl⟩
abbrev main_c_8 : Ref sig .tc := ⟨.hbm, 84, rfl⟩
abbrev main_v35 : Ref sig .tc := ⟨.hbm, 85, rfl⟩
abbrev main_v36 : Ref sig .tc := ⟨.hbm, 86, rfl⟩
abbrev main_v37 : Ref sig .tc := ⟨.hbm, 87, rfl⟩
abbrev main_v38 : Ref sig .tc := ⟨.hbm, 88, rfl⟩
abbrev main_v39 : Ref sig .tc := ⟨.hbm, 89, rfl⟩
abbrev main_v40 : Ref sig .tc := ⟨.hbm, 90, rfl⟩
abbrev main_v41 : Ref sig .tc := ⟨.hbm, 91, rfl⟩
abbrev main_v42 : Ref sig .tc := ⟨.hbm, 92, rfl⟩
abbrev main_v43 : Ref sig .tc := ⟨.hbm, 93, rfl⟩
abbrev main_v44 : Ref sig .tc := ⟨.hbm, 94, rfl⟩
abbrev main_cst_9 : Ref sig .tc := ⟨.hbm, 95, rfl⟩
abbrev main_v45 : Ref sig .tc := ⟨.hbm, 96, rfl⟩
abbrev main_v46 : Ref sig .tc := ⟨.hbm, 97, rfl⟩
abbrev main_v47 : Ref sig .tc := ⟨.hbm, 98, rfl⟩
abbrev main_v48 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![8, 10], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1376 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x2048x1376 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1376x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S1x8_S8192x8_0_1 : S1x8.BroadcastsInDim S8192x8 (![0, 1] : Fin 2 → Fin S8192x8.rank)
  natLt_1_32 : 1 < 32
  bcast_S_S_ : S_.BroadcastsInDim S_ (![] : Fin 0 → Fin S_.rank)
  reduceWindows_S8192x8_S8192x8_w8192s1p8191_0_w1s1p0_0 : S8192x8.ReduceWindows (![8192, 1] : Fin 2 → Nat) ![1, 1] ![8191, 0] ![0, 0] S8192x8
  h_S_ : 0 < S_.numel
  bcast_S_S8192x8 : S_.BroadcastsInDim S8192x8 (![] : Fin 0 → Fin S8192x8.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S8192 : S_.BroadcastsInDim S8192 (![] : Fin 0 → Fin S8192.rank)
  bitsLt_bf16_f32 : FTy.bits .bf16 < FTy.bits .f32
  bcast_S_S10241x2048 : S_.BroadcastsInDim S10241x2048 (![] : Fin 0 → Fin S10241x2048.rank)
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  slices_S10241x2048_S10240x2048_0_0 : S10241x2048.Slices ![0, 0] S10240x2048
  shapeCasts_S10240x2048_S8x1280x2048 : S10240x2048.ShapeCasts S8x1280x2048
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  inb_S1x2048x1376_S1x2048x1376_0_0_0 : ∀ a, (![0, 0, 0] : Fin 3 → Nat) a + S1x2048x1376.size a ≤ S1x2048x1376.size a
  h_S1x2048x1376 : 0 < S1x2048x1376.numel
  shapeCasts_S1x2048x1376_S2048x1376 : S1x2048x1376.ShapeCasts S2048x1376
  inb_S1x1376x2048_S1x1376x2048_0_0_0 : ∀ a, (![0, 0, 0] : Fin 3 → Nat) a + S1x1376x2048.size a ≤ S1x1376x2048.size a
  h_S1x1376x2048 : 0 < S1x1376x2048.numel
  shapeCasts_S1x1376x2048_S1376x2048 : S1x1376x2048.ShapeCasts S1376x2048
  shapeCasts_S128x2048_S1x128x2048 : S128x2048.ShapeCasts S1x128x2048
  shapeCasts_S8x1280x2048_S10240x2048 : S8x1280x2048.ShapeCasts S10240x2048
  gather_S8192x8_S8192x1x1_S8192x1_n_1_0_0_1_2_11_wf : GatherDims.WF S8192x8 S8192x1x1 S8192x1 [] [1] [0] [1] [0] 2 ![1, 1]
  scatter_S10241x2048_S8192x1_S8192x2048_1_0_0_1_wf : ScatterDims.WF S10241x2048 S8192x1 S8192x2048 [1] [0] [0] 1
  dot_S128x2048_S2048x1376_S128x1376_1_0_0_1_n_n_wf : DotDims.WF S128x2048 S2048x1376 S128x1376 [1] [0] [0] [1] [] []
  dot_S128x1376_S1376x2048_S128x2048_1_0_0_1_n_n_wf : DotDims.WF S128x1376 S1376x2048 S128x2048 [1] [0] [0] [1] [] []
  gather_S10240x2048_S8192x1_S8192x2048_1_0_n_n_0_1_12048_wf : GatherDims.WF S10240x2048 S8192x1 S8192x2048 [1] [0] [] [0] [] 1 ![1, 2048]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x2048.size a ≤ S8x1280x2048.size a
  hwx0_0 : ∀ i : grid0.Coords, EltTy.bits .bf16 = 32 ∨ (Rect.block (s := S8x1280x2048) S1x128x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1376.size a ≤ S8x2048x1376.size a
  hwx0_1 : ∀ i : grid0.Coords, EltTy.bits .bf16 = 32 ∨ (Rect.block (s := S8x2048x1376) S1x2048x1376.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048x1376.size a ≤ S8x2048x1376.size a
  hwx0_2 : ∀ i : grid0.Coords, EltTy.bits .bf16 = 32 ∨ (Rect.block (s := S8x2048x1376) S1x2048x1376.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1376x2048.size a ≤ S8x1376x2048.size a
  hwx0_3 : ∀ i : grid0.Coords, EltTy.bits .bf16 = 32 ∨ (Rect.block (s := S8x1376x2048) S1x1376x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128x2048.size a ≤ S8x1280x2048.size a
  hwx0_4 : ∀ i : grid0.Coords, EltTy.bits .f32 = 32 ∨ (Rect.block (s := S8x1280x2048) S1x128x2048.size (cc0_transform_4 i) (hinb0_4 i)).WholeWords (EltTy.packing .f32)

variable [Facts₀]

def gather_S8192x8_S8192x1x1_S8192x1_n_1_0_0_1_2_11 : GatherDims S8192x8 S8192x1x1 S8192x1 where
  offsetDims := []
  collapsedSliceDims := [1]
  operandBatchingDims := [0]
  startIndicesBatchingDims := [0]
  startIndexMap := [1]
  indexVectorDim := 2
  sliceSizes := ![1, 1]
  wf := gather_S8192x8_S8192x1x1_S8192x1_n_1_0_0_1_2_11_wf
def scatter_S10241x2048_S8192x1_S8192x2048_1_0_0_1 : ScatterDims S10241x2048 S8192x1 S8192x2048 where
  updateWindowDims := [1]
  insertedWindowDims := [0]
  scatterDimsToOperandDims := [0]
  indexVectorDim := 1
  wf := scatter_S10241x2048_S8192x1_S8192x2048_1_0_0_1_wf
def dot_S128x2048_S2048x1376_S128x1376_1_0_0_1_n_n : DotDims S128x2048 S2048x1376 S128x1376 where
  lhsContracting := [1]
  rhsContracting := [0]
  lhsNonContracting := [0]
  rhsNonContracting := [1]
  lhsBatch := []
  rhsBatch := []
  wf := dot_S128x2048_S2048x1376_S128x1376_1_0_0_1_n_n_wf
def dot_S128x1376_S1376x2048_S128x2048_1_0_0_1_n_n : DotDims S128x1376 S1376x2048 S128x2048 where
  lhsContracting := [1]
  rhsContracting := [0]
  lhsNonContracting := [0]
  rhsNonContracting := [1]
  lhsBatch := []
  rhsBatch := []
  wf := dot_S128x1376_S1376x2048_S128x2048_1_0_0_1_n_n_wf
def gather_S10240x2048_S8192x1_S8192x2048_1_0_n_n_0_1_12048 : GatherDims S10240x2048 S8192x1 S8192x2048 where
  offsetDims := [1]
  collapsedSliceDims := [0]
  operandBatchingDims := []
  startIndicesBatchingDims := []
  startIndexMap := [0]
  indexVectorDim := 1
  sliceSizes := ![1, 2048]
  wf := gather_S10240x2048_S8192x1_S8192x2048_1_0_n_n_0_1_12048_wf

abbrev win0_0 : Pipeline.Window sig grid0 :=
  Pipeline.Window.ofSpec (Memref.whole main_v26) S1x128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x2048x1376.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v28) S1x2048x1376.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29) S1x1376x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v30) S1x128x2048.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x2048 : Shape := ⟨2, ![8192, 2048]⟩
abbrev S8192 : Shape := ⟨1, ![8192]⟩
abbrev S8x2048x1376 : Shape := ⟨3, ![8, 2048, 1376]⟩
abbrev S8x1376x2048 : Shape := ⟨3, ![8, 1376, 2048]⟩
abbrev S8192x1 : Shape := ⟨2, ![8192, 1]⟩
abbrev S1x8 : Shape := ⟨2, ![1, 8]⟩
abbrev S8192x8 : Shape := ⟨2, ![8192, 8]⟩
abbrev S_ : Shape := ⟨0, ![]⟩
abbrev S8192x1x1 : Shape := ⟨3, ![8192, 1, 1]⟩
abbrev S1 : Shape := ⟨1, ![1]⟩
abbrev S1x1x1 : Shape := ⟨3, ![1, 1, 1]⟩
abbrev S10241x2048 : Shape := ⟨2, ![10241, 2048]⟩
abbrev S10240x2048 : Shape := ⟨2, ![10240, 2048]⟩
abbrev S8x1280x2048 : Shape := ⟨3, ![8, 1280, 2048]⟩
abbrev S8x1280x1376 : Shape := ⟨3, ![8, 1280, 1376]⟩
abbrev S1x2048 : Shape := ⟨2, ![1, 2048]⟩

abbrev nBuf : Space → Nat
  | .hbm => 107
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192, .i32⟩
  | .hbm, ⟨2, _⟩ => ⟨S8192, .f32⟩
  | .hbm, ⟨3, _⟩ => ⟨S8x2048x1376, .f32⟩
  | .hbm, ⟨4, _⟩ => ⟨S8x2048x1376, .f32⟩
  | .hbm, ⟨5, _⟩ => ⟨S8x1376x2048, .f32⟩
  | .hbm, ⟨6, _⟩ => ⟨S8192x1, .i32⟩
  | .hbm, ⟨7, _⟩ => ⟨S1x8, .i32⟩
  | .hbm, ⟨8, _⟩ => ⟨S8192x8, .i32⟩
  | .hbm, ⟨9, _⟩ => ⟨S8192x8, .i32⟩
  | .hbm, ⟨10, _⟩ => ⟨S8192x8, .i1⟩
  | .hbm, ⟨11, _⟩ => ⟨S8192x8, .i32⟩
  | .hbm, ⟨12, _⟩ => ⟨S_, .i32⟩
  | .hbm, ⟨13, _⟩ => ⟨S_, .i32⟩
  | .hbm, ⟨14, _⟩ => ⟨S8192x8, .i32⟩
  | .hbm, ⟨15, _⟩ => ⟨S_, .i32⟩
  | .hbm, ⟨16, _⟩ => ⟨S8192x8, .i32⟩
  | .hbm, ⟨17, _⟩ => ⟨S8192x8, .i32⟩
  | .hbm, ⟨18, _⟩ => ⟨S8192x1, .i32⟩
  | .hbm, ⟨19, _⟩ => ⟨S_, .i32⟩
  | .hbm, ⟨20, _⟩ => ⟨S8192x1, .i32⟩
  | .hbm, ⟨21, _⟩ => ⟨S8192x1, .i1⟩
  | .hbm, ⟨22, _⟩ => ⟨S_, .i32⟩
  | .hbm, ⟨23, _⟩ => ⟨S8192x1, .i32⟩
  | .hbm, ⟨24, _⟩ => ⟨S8192x1, .i32⟩
  | .hbm, ⟨25, _⟩ => ⟨S8192x1, .i32⟩
  | .hbm, ⟨26, _⟩ => ⟨S8192x1x1, .i32⟩
  | .hbm, ⟨27, _⟩ => ⟨S1, .i32⟩
  | .hbm, ⟨28, _⟩ => ⟨S_, .i32⟩
  | .hbm, ⟨29, _⟩ => ⟨S8192x1x1, .i32⟩
  | .hbm, ⟨30, _⟩ => ⟨S8192x1x1, .i1⟩
  | .hbm, ⟨31, _⟩ => ⟨S1x1x1, .i32⟩
  | .hbm, ⟨32, _⟩ => ⟨S8192x1x1, .i32⟩
  | .hbm, ⟨33, _⟩ => ⟨S8192x1x1, .i1⟩
  | .hbm, ⟨34, _⟩ => ⟨S8192x1x1, .i1⟩
  | .hbm, ⟨35, _⟩ => ⟨S_, .i1⟩
  | .hbm, ⟨36, _⟩ => ⟨S8192x1, .i1⟩
  | .hbm, ⟨37, _⟩ => ⟨S8192x1, .i32⟩
  | .hbm, ⟨38, _⟩ => ⟨S_, .i32⟩
  | .hbm, ⟨39, _⟩ => ⟨S8192x1, .i32⟩
  | .hbm, ⟨40, _⟩ => ⟨S8192x1, .i32⟩
  | .hbm, ⟨41, _⟩ => ⟨S8192, .i32⟩
  | .hbm, ⟨42, _⟩ => ⟨S_, .i32⟩
  | .hbm, ⟨43, _⟩ => ⟨S8192, .i32⟩
  | .hbm, ⟨44, _⟩ => ⟨S8192, .i1⟩
  | .hbm, ⟨45, _⟩ => ⟨S_, .i32⟩
  | .hbm, ⟨46, _⟩ => ⟨S8192, .i32⟩
  | .hbm, ⟨47, _⟩ => ⟨S8192, .i32⟩
  | .hbm, ⟨48, _⟩ => ⟨S8192, .i32⟩
  | .hbm, ⟨49, _⟩ => ⟨S_, .i32⟩
  | .hbm, ⟨50, _⟩ => ⟨S_, .i32⟩
  | .hbm, ⟨51, _⟩ => ⟨S8192, .i32⟩
  | .hbm, ⟨52, _⟩ => ⟨S8192, .i32⟩
  | .hbm, ⟨53, _⟩ => ⟨S_, .f32⟩
  | .hbm, ⟨54, _⟩ => ⟨S10241x2048, .f32⟩
  | .hbm, ⟨55, _⟩ => ⟨S8192x1, .i1⟩
  | .hbm, ⟨56, _⟩ => ⟨S_, .f32⟩
  | .hbm, ⟨57, _⟩ => ⟨S8192x2048, .f32⟩
  | .hbm, ⟨58, _⟩ => ⟨S8192x2048, .i1⟩
  | .hbm, ⟨59, _⟩ => ⟨S8192x2048, .f32⟩
  | .hbm, ⟨60, _⟩ => ⟨S_, .i32⟩
  | .hbm, ⟨61, _⟩ => ⟨S8192, .i32⟩
  | .hbm, ⟨62, _⟩ => ⟨S8192, .i1⟩
  | .hbm, ⟨63, _⟩ => ⟨S_, .i32⟩
  | .hbm, ⟨64, _⟩ => ⟨S8192, .i32⟩
  | .hbm, ⟨65, _⟩ => ⟨S8192, .i32⟩
  | .hbm, ⟨66, _⟩ => ⟨S8192, .i32⟩
  | .hbm, ⟨67, _⟩ => ⟨S8192x1, .i32⟩
  | .hbm, ⟨68, _⟩ => ⟨S10241x2048, .f32⟩
  | .hbm, ⟨69, _⟩ => ⟨S10240x2048, .f32⟩
  | .hbm, ⟨70, _⟩ => ⟨S8x1280x2048, .f32⟩
  | .hbm, ⟨71, _⟩ => ⟨S8x1280x1376, .f32⟩
  | .hbm, ⟨72, _⟩ => ⟨S8x1280x1376, .f32⟩
  | .hbm, ⟨73, _⟩ => ⟨S8x1280x1376, .f32⟩
  | .hbm, ⟨74, _⟩ => ⟨S_, .f32⟩
  | .hbm, ⟨75, _⟩ => ⟨S8x1280x1376, .f32⟩
  | .hbm, ⟨76, _⟩ => ⟨S8x1280x1376, .f32⟩
  | .hbm, ⟨77, _⟩ => ⟨S_, .f32⟩
  | .hbm, ⟨78, _⟩ => ⟨S8x1280x1376, .f32⟩
  | .hbm, ⟨79, _⟩ => ⟨S8x1280x1376, .f32⟩
  | .hbm, ⟨80, _⟩ => ⟨S8x1280x1376, .f32⟩
  | .hbm, ⟨81, _⟩ => ⟨S8x1280x1376, .f32⟩
  | .hbm, ⟨82, _⟩ => ⟨S8x1280x1376, .f32⟩
  | .hbm, ⟨83, _⟩ => ⟨S8x1280x2048, .f32⟩
  | .hbm, ⟨84, _⟩ => ⟨S10240x2048, .f32⟩
  | .hbm, ⟨85, _⟩ => ⟨S_, .f32⟩
  | .hbm, ⟨86, _⟩ => ⟨S1x2048, .f32⟩
  | .hbm, ⟨87, _⟩ => ⟨S10241x2048, .f32⟩
  | .hbm, ⟨88, _⟩ => ⟨S_, .i32⟩
  | .hbm, ⟨89, _⟩ => ⟨S8192, .i32⟩
  | .hbm, ⟨90, _⟩ => ⟨S8192, .i1⟩
  | .hbm, ⟨91, _⟩ => ⟨S_, .i32⟩
  | .hbm, ⟨92, _⟩ => ⟨S8192, .i32⟩
  | .hbm, ⟨93, _⟩ => ⟨S8192, .i32⟩
  | .hbm, ⟨94, _⟩ => ⟨S8192, .i32⟩
  | .hbm, ⟨95, _⟩ => ⟨S8192x1, .i32⟩
  | .hbm, ⟨96, _⟩ => ⟨S8192x2048, .f32⟩
  | .hbm, ⟨97, _⟩ => ⟨S8192x1, .i1⟩
  | .hbm, ⟨98, _⟩ => ⟨S8192x1, .f32⟩
  | .hbm, ⟨99, _⟩ => ⟨S8192x2048, .f32⟩
  | .hbm, ⟨100, _⟩ => ⟨S8192x2048, .f32⟩
  | .hbm, ⟨101, _⟩ => ⟨S8192x1, .f32⟩
  | .hbm, ⟨102, _⟩ => ⟨S_, .f32⟩
  | .hbm, ⟨103, _⟩ => ⟨S8192x1, .f32⟩
  | .hbm, ⟨104, _⟩ => ⟨S8192x1, .f32⟩
  | .hbm, ⟨105, _⟩ => ⟨S8192x2048, .f32⟩
  | .hbm, ⟨106, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v0 : Ref sig .tc := ⟨.hbm, 11, rfl⟩
abbrev main_call1_call0_c : Ref sig .tc := ⟨.hbm, 12, rfl⟩
abbrev main_call1_call0_v0 : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_call2_c : Ref sig .tc := ⟨.hbm, 19, rfl⟩
abbrev main_call2_v0 : Ref sig .tc := ⟨.hbm, 20, rfl⟩
abbrev main_call2_v1 : Ref sig .tc := ⟨.hbm, 21, rfl⟩
abbrev main_call2_c_0 : Ref sig .tc := ⟨.hbm, 22, rfl⟩
abbrev main_call2_v2 : Ref sig .tc := ⟨.hbm, 23, rfl⟩
abbrev main_call2_v3 : Ref sig .tc := ⟨.hbm, 24, rfl⟩
abbrev main_call2_v4 : Ref sig .tc := ⟨.hbm, 25, rfl⟩
abbrev main_call2_v5 : Ref sig .tc := ⟨.hbm, 26, rfl⟩
abbrev main_call2_c_1 : Ref sig .tc := ⟨.hbm, 27, rfl⟩
abbrev main_call2_c_2 : Ref sig .tc := ⟨.hbm, 28, rfl⟩
abbrev main_call2_v6 : Ref sig .tc := ⟨.hbm, 29, rfl⟩
abbrev main_call2_v7 : Ref sig .tc := ⟨.hbm, 30, rfl⟩
abbrev main_call2_v8 : Ref sig .tc := ⟨.hbm, 31, rfl⟩
abbrev main_call2_v9 : Ref sig .tc := ⟨.hbm, 32, rfl⟩
abbrev main_call2_v10 : Ref sig .tc := ⟨.hbm, 33, rfl⟩
abbrev main_call2_v11 : Ref sig .tc := ⟨.hbm, 34, rfl⟩
abbrev main_call2_c_3 : Ref sig .tc := ⟨.hbm, 35, rfl⟩
abbrev main_call2_v12 : Ref sig .tc := ⟨.hbm, 36, rfl⟩
abbrev main_call2_v13 : Ref sig .tc := ⟨.hbm, 37, rfl⟩
abbrev main_call2_c_4 : Ref sig .tc := ⟨.hbm, 38, rfl⟩
abbrev main_call2_v14 : Ref sig .tc := ⟨.hbm, 39, rfl⟩
abbrev main_v5 : Ref sig .tc := ⟨.hbm, 40, rfl⟩
abbrev main_v6 : Ref sig .tc := ⟨.hbm, 41, rfl⟩
abbrev main_c_0 : Ref sig .tc := ⟨.hbm, 42, rfl⟩
abbrev main_v7 : Ref sig .tc := ⟨.hbm, 43, rfl⟩
abbrev main_v8 : Ref sig .tc := ⟨.hbm, 44, rfl⟩
abbrev main_c_1 : Ref sig .tc := ⟨.hbm, 45, rfl⟩
abbrev main_v9 : Ref sig .tc := ⟨.hbm, 46, rfl⟩
abbrev main_v10 : Ref sig .tc := ⟨.hbm, 47, rfl⟩
abbrev main_v11 : Ref sig .tc := ⟨.hbm, 48, rfl⟩
abbrev main_c_2 : Ref sig .tc := ⟨.hbm, 49, rfl⟩
abbrev main_call3_v0 : Ref sig .tc := ⟨.hbm, 50, rfl⟩
abbrev main_call3_v1 : Ref sig .tc := ⟨.hbm, 51, rfl⟩
abbrev main_v12 : Ref sig .tc := ⟨.hbm, 52, rfl⟩
abbrev main_cst : Ref sig .tc := ⟨.hbm, 53, rfl⟩
abbrev main_v13 : Ref sig .tc := ⟨.hbm, 54, rfl⟩
abbrev main_v14 : Ref sig .tc := ⟨.hbm, 55, rfl⟩
abbrev main_cst_3 : Ref sig .tc := ⟨.hbm, 56, rfl⟩
abbrev main_v15 : Ref sig .tc := ⟨.hbm, 57, rfl⟩
abbrev main_call4_v0 : Ref sig .tc := ⟨.hbm, 58, rfl⟩
abbrev main_v16 : Ref sig .tc := ⟨.hbm, 59, rfl⟩
abbrev main_c_4 : Ref sig .tc := ⟨.hbm, 60, rfl⟩
abbrev main_v17 : Ref sig .tc := ⟨.hbm, 61, rfl⟩
abbrev main_v18 : Ref sig .tc := ⟨.hbm, 62, rfl⟩
abbrev main_c_5 : Ref sig .tc := ⟨.hbm, 63, rfl⟩
abbrev main_v19 : Ref sig .tc := ⟨.hbm, 64, rfl⟩
abbrev main_v20 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_call5_v0 : Ref sig .tc := ⟨.hbm, 72, rfl⟩
abbrev main_call5_v1 : Ref sig .tc := ⟨.hbm, 73, rfl⟩
abbrev main_call5_cst : Ref sig .tc := ⟨.hbm, 74, rfl⟩
abbrev main_call5_v2 : Ref sig .tc := ⟨.hbm, 75, rfl⟩
abbrev main_call5_v3 : Ref sig .tc := ⟨.hbm, 76, rfl⟩
abbrev main_call5_cst_0 : Ref sig .tc := ⟨.hbm, 77, rfl⟩
abbrev main_call5_v4 : Ref sig .tc := ⟨.hbm, 78, rfl⟩
abbrev main_call5_v5 : Ref sig .tc := ⟨.hbm, 79, rfl⟩
abbrev main_v27 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_v31 : Ref sig .tc := ⟨.hbm, 84, rfl⟩
abbrev main_cst_6 : Ref sig .tc := ⟨.hbm, 85, rfl⟩
abbrev main_v32 : Ref sig .tc := ⟨.hbm, 86, rfl⟩
abbrev main_v33 : Ref sig .tc := ⟨.hbm, 87, rfl⟩
abbrev main_c_7 : Ref sig .tc := ⟨.hbm, 88, rfl⟩
abbrev main_v34 : Ref sig .tc := ⟨.hbm, 89, rfl⟩
abbrev main_v35 : Ref sig .tc := ⟨.hbm, 90, rfl⟩
abbrev main_c_8 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_cst_9 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x8_0_1 : S8192x1.BroadcastsInDim S8192x8 (![0, 1] : Fin 2 → Fin S8192x8.rank)
  bcast_S1x8_S8192x8_0_1 : S1x8.BroadcastsInDim S8192x8 (![0, 1] : Fin 2 → Fin S8192x8.rank)
  natLt_1_32 : 1 < 32
  bcast_S_S_ : S_.BroadcastsInDim S_ (![] : Fin 0 → Fin S_.rank)
  reduceWindows_S8192x8_S8192x8_w8192s1p8191_0_w1s1p0_0 : S8192x8.ReduceWindows (![8192, 1] : Fin 2 → Nat) ![1, 1] ![8191, 0] ![0, 0] S8192x8
  h_S_ : 0 < S_.numel
  bcast_S_S8192x8 : S_.BroadcastsInDim S8192x8 (![] : Fin 0 → Fin S8192x8.rank)
  bcast_S_S8192x1 : S_.BroadcastsInDim S8192x1 (![] : Fin 0 → Fin S8192x1.rank)
  shapeCasts_S8192x1_S8192x1x1 : S8192x1.ShapeCasts S8192x1x1
  bcast_S_S8192x1x1 : S_.BroadcastsInDim S8192x1x1 (![] : Fin 0 → Fin S8192x1x1.rank)
  bcast_S1_S1x1x1_2 : S1.BroadcastsInDim S1x1x1 (![2] : Fin 1 → Fin S1x1x1.rank)
  bcast_S1x1x1_S8192x1x1_0_1_2 : S1x1x1.BroadcastsInDim S8192x1x1 (![0, 1, 2] : Fin 3 → Fin S8192x1x1.rank)
  reducesTo_S8192x1x1_S8192x1_d2 : S8192x1x1.ReducesTo [2] S8192x1
  shapeCasts_S8192x1_S8192 : S8192x1.ShapeCasts S8192
  bcast_S_S8192 : S_.BroadcastsInDim S8192 (![] : Fin 0 → Fin S8192.rank)
  bcast_S_S10241x2048 : S_.BroadcastsInDim S10241x2048 (![] : Fin 0 → Fin S10241x2048.rank)
  bcast_S_S8192x2048 : S_.BroadcastsInDim S8192x2048 (![] : Fin 0 → Fin S8192x2048.rank)
  bcast_S8192x1_S8192x2048_0_1 : S8192x1.BroadcastsInDim S8192x2048 (![0, 1] : Fin 2 → Fin S8192x2048.rank)
  slices_S10241x2048_S10240x2048_0_0 : S10241x2048.Slices ![0, 0] S10240x2048
  shapeCasts_S10240x2048_S8x1280x2048 : S10240x2048.ShapeCasts S8x1280x2048
  bcast_S_S8x1280x1376 : S_.BroadcastsInDim S8x1280x1376 (![] : Fin 0 → Fin S8x1280x1376.rank)
  shapeCasts_S8x1280x2048_S10240x2048 : S8x1280x2048.ShapeCasts S10240x2048
  bcast_S_S1x2048 : S_.BroadcastsInDim S1x2048 (![] : Fin 0 → Fin S1x2048.rank)
  concatenates_S10240x2048_S1x2048_S10241x2048_d0 : Shape.Concatenates [S10240x2048, S1x2048] S10241x2048 0
  gather_S8192x8_S8192x1x1_S8192x1_n_1_0_0_1_2_11_wf : GatherDims.WF S8192x8 S8192x1x1 S8192x1 [] [1] [0] [1] [0] 2 ![1, 1]
  scatter_S10241x2048_S8192x1_S8192x2048_1_0_0_1_wf : ScatterDims.WF S10241x2048 S8192x1 S8192x2048 [1] [0] [0] 1
  dot_S8x1280x2048_S8x2048x1376_S8x1280x1376_2_1_1_2_0_0_wf : DotDims.WF S8x1280x2048 S8x2048x1376 S8x1280x1376 [2] [1] [1] [2] [0] [0]
  dot_S8x1280x1376_S8x1376x2048_S8x1280x2048_2_1_1_2_0_0_wf : DotDims.WF S8x1280x1376 S8x1376x2048 S8x1280x2048 [2] [1] [1] [2] [0] [0]
  gather_S10241x2048_S8192x1_S8192x2048_1_0_n_n_0_1_12048_wf : GatherDims.WF S10241x2048 S8192x1 S8192x2048 [1] [0] [] [0] [] 1 ![1, 2048]

variable [Facts₀]

def gather_S8192x8_S8192x1x1_S8192x1_n_1_0_0_1_2_11 : GatherDims S8192x8 S8192x1x1 S8192x1 where
  offsetDims := []
  collapsedSliceDims := [1]
  operandBatchingDims := [0]
  startIndicesBatchingDims := [0]
  startIndexMap := [1]
  indexVectorDim := 2
  sliceSizes := ![1, 1]
  wf := gather_S8192x8_S8192x1x1_S8192x1_n_1_0_0_1_2_11_wf
def scatter_S10241x2048_S8192x1_S8192x2048_1_0_0_1 : ScatterDims S10241x2048 S8192x1 S8192x2048 where
  updateWindowDims := [1]
  insertedWindowDims := [0]
  scatterDimsToOperandDims := [0]
  indexVectorDim := 1
  wf := scatter_S10241x2048_S8192x1_S8192x2048_1_0_0_1_wf
def dot_S8x1280x2048_S8x2048x1376_S8x1280x1376_2_1_1_2_0_0 : DotDims S8x1280x2048 S8x2048x1376 S8x1280x1376 where
  lhsContracting := [2]
  rhsContracting := [1]
  lhsNonContracting := [1]
  rhsNonContracting := [2]
  lhsBatch := [0]
  rhsBatch := [0]
  wf := dot_S8x1280x2048_S8x2048x1376_S8x1280x1376_2_1_1_2_0_0_wf
def dot_S8x1280x1376_S8x1376x2048_S8x1280x2048_2_1_1_2_0_0 : DotDims S8x1280x1376 S8x1376x2048 S8x1280x2048 where
  lhsContracting := [2]
  rhsContracting := [1]
  lhsNonContracting := [1]
  rhsNonContracting := [2]
  lhsBatch := [0]
  rhsBatch := [0]
  wf := dot_S8x1280x1376_S8x1376x2048_S8x1280x2048_2_1_1_2_0_0_wf
def gather_S10241x2048_S8192x1_S8192x2048_1_0_n_n_0_1_12048 : GatherDims S10241x2048 S8192x1 S8192x2048 where
  offsetDims := [1]
  collapsedSliceDims := [0]
  operandBatchingDims := []
  startIndicesBatchingDims := []
  startIndexMap := [0]
  indexVectorDim := 1
  sliceSizes := ![1, 2048]
  wf := gather_S10241x2048_S8192x1_S8192x2048_1_0_n_n_0_1_12048_wf

class Facts : Prop extends Facts₀ where

variable [Facts]
-- ==== Proof.Stages.lean ====
/-
  The mixture-of-experts layer as pure array functions, one per stage, shared by both programs.

  Routing (the same in both programs).  A token `t` names an expert `idx t`.  `oneHot` is the 0/1 table
  `(t, e) ↦ [idx t = e]`; `cumsum` its running column sums; `rank t` = (number of tokens `s ≤ t` with the same
  expert) − 1, read off the table at column `idx t` (a column outside `0 … 7` reads the least integer);
  `keep t = [rank t < 1280]` (the expert still has room); `slot t = idx t · 1280 + rank t` for a kept token and the
  spare row `10240` otherwise.

  Dispatch.  `dispatch` scatters the kept tokens' rows into a zero array of `10241` rows at row `slot t` (a negative
  row counted from the end), drops the spare row and cuts the rest into `8` experts × `1280` places.

  Expert layer (reference form).  `mlp xe wg wu wd` is, per expert, `((g · σ(g)) · u) · w_down` with
  `g = xe · w_gate`, `u = xe · w_up` and `σ(g) = 1 / (1 + e^(−g))`, flattened back to `10240` rows.

  Combine.  Each token reads its row of the flattened result back, times `keep` (as 0 or 1), times its score.
  The kernel's program reads row `slot t` (row `0` for a dropped token) of the `10240` rows; the reference reads row
  `slot t` of those rows followed by one zero row.
-/
import proofs.«105716_j74380243632186_2_alg».proof.KernelIdeal
import proofs.«105716_j74380243632186_2_alg».proof.ReferenceIdeal

noncomputable section

namespace Cert.Moe

open Idealize.ShloMosaic

variable {F : FTy → Type} [FloatOps F]

/-! ## Routing -/

section Routing
open Cert.KernelIdeal Cert.KernelIdeal.Facts₀
variable [Cert.KernelIdeal.Facts]

/-- `(t, e) ↦ [idx t = e]` as a 32-bit 0 or 1. -/
def oneHot (idx : IVec S8192 32) : IVec S8192x8 32 :=
  extui 32 (cmpi .eq
    (broadcastInDim S8192x8 ![0, 1] bcast_S8192x1_S8192x8_0_1 (broadcastInDim S8192x1 ![0] bcast_S8192_S8192x1_0 idx))
    (broadcastInDim S8192x8 ![0, 1] bcast_S1x8_S8192x8_0_1 (iotaInDim S1x8 32 1))) natLt_1_32

/-- Running sums down each column: `(t, e) ↦ ∑ s ≤ t, x (s, e)` (a window of 8192 rows ending at `t`, zero above). -/
def cumsum (x : IVec S8192x8 32) : IVec S8192x8 32 :=
  Host.reduceWindow IntOp.addi ![8192, 1] ![1, 1] ![8191, 0] ![0, 0] x
    (broadcastInDim S_ ![] bcast_S_S_ (constantI S_ 32 0#32)) reduceWindows_S8192x8_S8192x8_w8192s1p8191_0_w1s1p0_0 h_S_

/-- `(t, e) ↦` (tokens `s ≤ t` of expert `e`) − 1. -/
def rankTable (idx : IVec S8192 32) : IVec S8192x8 32 :=
  subi (cumsum (oneHot idx)) (broadcastInDim S8192x8 ![] bcast_S_S8192x8 (constantI S_ 32 1#32))

/-- The column each token reads: its expert, a negative one counted from the end. -/
def takeCol (col : IVec S8192x1 32) : IVec S8192x1x1 32 :=
  shapeCast S8192x1x1
    (select (cmpi .slt col (broadcastInDim S8192x1 ![] bcast_S_S8192x1 (constantI S_ 32 0#32)))
      (addi col (broadcastInDim S8192x1 ![] bcast_S_S8192x1 (constantI S_ 32 8#32))) col)
    shapeCasts_S8192x1_S8192x1x1

/-- Whether that column is one of `0 … 7`. -/
def takeOk (c : IVec S8192x1x1 32) : IVec S8192x1 1 :=
  Host.reduce IntOp.andi
    (andi (cmpi .sge c (broadcastInDim S8192x1x1 ![] bcast_S_S8192x1x1 (constantI S_ 32 0#32)))
      (cmpi .sle c (broadcastInDim S8192x1x1 ![0, 1, 2] bcast_S1x1x1_S8192x1x1_0_1_2
        (broadcastInDim S1x1x1 ![2] bcast_S1_S1x1x1_2 (constantI S1 32 7#32)))))
    (constantI S_ 1 1#1) reducesTo_S8192x1x1_S8192x1_d2 h_S_

/-- Row `t` of `tbl` read at its column; the least integer where the column is out of range. -/
def takeAlong (tbl : IVec S8192x8 32) (col : IVec S8192x1 32) : IVec S8192x1 32 :=
  select (takeOk (takeCol col)) (Host.gather gather_S8192x8_S8192x1x1_S8192x1_n_1_0_0_1_2_11 tbl (takeCol col))
    (broadcastInDim S8192x1 ![] bcast_S_S8192x1 (constantI S_ 32 2147483648#32))

/-- A token's place within its expert's queue. -/
def rank (idx : IVec S8192 32) : IVec S8192 32 :=
  shapeCast S8192 (takeAlong (rankTable idx) (broadcastInDim S8192x1 ![0] bcast_S8192_S8192x1_0 idx)) shapeCasts_S8192x1_S8192

/-- The expert still has room for the token. -/
def keep (idx : IVec S8192 32) : IVec S8192 1 :=
  cmpi .slt (rank idx) (broadcastInDim S8192 ![] bcast_S_S8192 (constantI S_ 32 1280#32))

/-- The token's row among the `8 · 1280` places; the spare row `10240` for a dropped token. -/
def slot (idx : IVec S8192 32) : IVec S8192 32 :=
  select (keep idx)
    (addi (muli idx (broadcastInDim S8192 ![] bcast_S_S8192 (constantI S_ 32 1280#32))) (rank idx))
    (broadcastInDim S8192 ![] bcast_S_S8192 (id (constantI S_ 32 10240#32)))

/-- A row index counted from the end of `n` rows when negative, as a column of indices. -/
def wrapRows (n : BitVec 32) (sl : IVec S8192 32) : IVec S8192x1 32 :=
  broadcastInDim S8192x1 ![0] bcast_S8192_S8192x1_0
    (select (cmpi .slt sl (broadcastInDim S8192 ![] bcast_S_S8192 (constantI S_ 32 0#32)))
      (addi sl (broadcastInDim S8192 ![] bcast_S_S8192 (constantI S_ 32 n))) sl)

/-- `keep` as a 0/1 factor on every entry of the token's row. -/
def keepFactor (kp : IVec S8192 1) : FVec F S8192x2048 .f32 :=
  broadcastInDim S8192x2048 ![0, 1] bcast_S8192x1_S8192x2048_0_1
    (uitofp .f32 (broadcastInDim S8192x1 ![0] bcast_S8192_S8192x1_0 kp))

/-- The token's score (times one) on every entry of its row. -/
def scoreFactor (s : FVec F S8192 .f32) : FVec F S8192x2048 .f32 :=
  broadcastInDim S8192x2048 ![0, 1] bcast_S8192x1_S8192x2048_0_1
    (mulf (broadcastInDim S8192x1 ![0] bcast_S8192_S8192x1_0 s)
      (broadcastInDim S8192x1 ![] bcast_S_S8192x1 (constant S_ .f32 0x3F800000#32)))

/-! ## The kernel's program around its region -/

/-- Dispatch, in the kernel's program: rows narrowed to bf16 before they are scattered. -/
def dispatchK (x : FVec F S8192x2048 .f32) (kp : IVec S8192 1) (sl : IVec S8192 32) : FVec F S8x1280x2048 .bf16 :=
  shapeCast S8x1280x2048
    (extractStridedSlice S10240x2048 ![0, 0]
      (Host.scatter scatter_S10241x2048_S8192x1_S8192x2048_1_0_0_1 (fun _ b => b)
        (broadcastInDim S10241x2048 ![] bcast_S_S10241x2048 (constant S_ .bf16 0x0000#16))
        (wrapRows 10241#32 sl)
        (select (broadcastInDim S8192x2048 ![0, 1] bcast_S8192x1_S8192x2048_0_1 (broadcastInDim S8192x1 ![0] bcast_S8192_S8192x1_0 kp))
          (truncf .bf16 x bitsLt_bf16_f32)
          (broadcastInDim S8192x2048 ![] bcast_S_S8192x2048 (constant S_ .bf16 0x0000#16))))
      slices_S10241x2048_S10240x2048_0_0)
    shapeCasts_S10240x2048_S8x1280x2048

/-- Combine, in the kernel's program: row `slot t` (row 0 for a dropped token) of the `10240` result rows. -/
def combineK (oe : FVec F S8x1280x2048 .f32) (kp : IVec S8192 1) (sl : IVec S8192 32) (s : FVec F S8192 .f32) :
    FVec F S8192x2048 .f32 :=
  mulf
    (mulf
      (Host.gather gather_S10240x2048_S8192x1_S8192x2048_1_0_n_n_0_1_12048
        (shapeCast S10240x2048 oe shapeCasts_S8x1280x2048_S10240x2048)
        (wrapRows 10240#32 (select kp sl (broadcastInDim S8192 ![] bcast_S_S8192 (id (constantI S_ 32 0#32))))))
      (keepFactor kp))
    (scoreFactor s)

end Routing

/-! ## The reference -/

section Reference
open Cert.ReferenceIdeal Cert.ReferenceIdeal.Facts₀
variable [Cert.KernelIdeal.Facts] [Cert.ReferenceIdeal.Facts]

/-- Dispatch, in the reference: the rows scattered as they are. -/
def dispatchR (x : FVec F S8192x2048 .f32) (kp : IVec S8192 1) (sl : IVec S8192 32) : FVec F S8x1280x2048 .f32 :=
  shapeCast S8x1280x2048
    (extractStridedSlice S10240x2048 ![0, 0]
      (Host.scatter scatter_S10241x2048_S8192x1_S8192x2048_1_0_0_1 (fun _ b => b)
        (broadcastInDim S10241x2048 ![] bcast_S_S10241x2048 (constant S_ .f32 0x00000000#32))
        (wrapRows 10241#32 sl)
        (select (broadcastInDim S8192x2048 ![0, 1] bcast_S8192x1_S8192x2048_0_1 (broadcastInDim S8192x1 ![0] bcast_S8192_S8192x1_0 kp))
          x
          (broadcastInDim S8192x2048 ![] bcast_S_S8192x2048 (constant S_ .f32 0x00000000#32))))
      slices_S10241x2048_S10240x2048_0_0)
    shapeCasts_S10240x2048_S8x1280x2048

/-- `g · (1 / (1 + e^(−g)))`, entry by entry. -/
def silu (g : FVec F S8x1280x1376 .f32) : FVec F S8x1280x1376 .f32 :=
  mulf g (Host.divf (broadcastInDim S8x1280x1376 ![] bcast_S_S8x1280x1376 (constant S_ .f32 0x3F800000#32))
    (addf (broadcastInDim S8x1280x1376 ![] bcast_S_S8x1280x1376 (constant S_ .f32 0x3F800000#32)) (Host.exp (Host.negf g))))

/-- The expert layer, per expert: `((g · σ(g)) · u) · w_down` with `g = xe · w_gate`, `u = xe · w_up`. -/
def mlp (xe : FVec F S8x1280x2048 .f32) (wg wu : FVec F S8x2048x1376 .f32) (wd : FVec F S8x1376x2048 .f32) :
    FVec F S8x1280x2048 .f32 :=
  Host.dotGeneral dot_S8x1280x1376_S8x1376x2048_S8x1280x2048_2_1_1_2_0_0 none
    (mulf (silu (Host.dotGeneral dot_S8x1280x2048_S8x2048x1376_S8x1280x1376_2_1_1_2_0_0 none xe wg))
      (Host.dotGeneral dot_S8x1280x2048_S8x2048x1376_S8x1280x1376_2_1_1_2_0_0 none xe wu))
    wd

/-- Combine, in the reference: row `slot t` of the `10240` result rows followed by one zero row. -/
def combineR (oe : FVec F S8x1280x2048 .f32) (kp : IVec S8192 1) (sl : IVec S8192 32) (s : FVec F S8192 .f32) :
    FVec F S8192x2048 .f32 :=
  mulf
    (mulf
      (Host.gather gather_S10241x2048_S8192x1_S8192x2048_1_0_n_n_0_1_12048
        (concatenate S10241x2048 0
          [⟨S10240x2048, shapeCast S10240x2048 oe shapeCasts_S8x1280x2048_S10240x2048⟩,
           ⟨S1x2048, broadcastInDim S1x2048 ![] bcast_S_S1x2048 (constant S_ .f32 0x00000000#32)⟩]
          concatenates_S10240x2048_S1x2048_S10241x2048_d0)
        (wrapRows 10241#32 sl))
      (keepFactor kp))
    (scoreFactor s)

/-- The reference's result, as one function of its six arguments. -/
def refOut (x : FVec F S8192x2048 .f32) (idx : IVec S8192 32) (s : FVec F S8192 .f32)
    (wg wu : FVec F S8x2048x1376 .f32) (wd : FVec F S8x1376x2048 .f32) : FVec F S8192x2048 .f32 :=
  combineR (mlp (dispatchR x (keep idx) (slot idx)) wg wu wd) (keep idx) (slot idx) s

end Reference

end Cert.Moe

end
-- ==== Proof.LibDot.lean ====
/-
  A matrix product with one contracted axis, read at an index as a sum over the contracted extent.
  For dimension numbers that contract the left operand's axis 1 with the right operand's axis 0, with no batch
  axes — the plain product of an [M, K] matrix with a [K, N] matrix — the operand indices at result index (p, q) and
  contraction index k are (p, k) and (k, q); so the sum over the contraction shape is the sum over k < K of
  lhs (p, k) · rhs (k, q). Both a kernel's accumulating product into a zero accumulator and the host's product
  without an accumulator are that sum at the extended reals.
-/
import Idealize.ShloMosaic.Lib.ValueIdx
import Idealize.ShloMosaic.PureOps.Ideal.Laws
import Idealize.ShloMosaic.Lib.KernelVsHost

noncomputable section

namespace Idealize.ShloMosaic.LibDot

open Idealize.ShloMosaic Idealize.ShloMosaic.ValueIdx

variable {sl sr so : Shape} (d : DotDims sl sr so)

/-- A non-contracting, non-batch axis of the left operand reads the result index at its position. -/
theorem lhsIdx_val_of_non {a : Fin sl.rank} (hb : a ∉ d.lhsBatch) (hn : a ∈ d.lhsNonContracting)
    (j : so.Idx) (k : d.contr.Idx) (p : Nat) (hp : p < so.rank) (hpe : d.lhsBatch.length + d.lhsNonContracting.idxOf a = p) :
    (d.lhsIdx j k a).val = (j ⟨p, hp⟩).val := by
  subst hpe
  unfold DotDims.lhsIdx
  rw [dif_neg hb, dif_pos hn]
  rfl

/-- A non-contracting, non-batch axis of the right operand reads the result index at its position. -/
theorem rhsIdx_val_of_non {a : Fin sr.rank} (hb : a ∉ d.rhsBatch) (hn : a ∈ d.rhsNonContracting)
    (j : so.Idx) (k : d.contr.Idx) (p : Nat) (hp : p < so.rank)
    (hpe : d.lhsBatch.length + d.lhsNonContracting.length + d.rhsNonContracting.idxOf a = p) :
    (d.rhsIdx j k a).val = (j ⟨p, hp⟩).val := by
  subst hpe
  unfold DotDims.rhsIdx
  rw [dif_neg hb, dif_pos hn]
  rfl

/-- The plain product's sum over the contraction shape is the sum over the contracted extent. -/
theorem sum_plain {M K N : ℕ} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix2 p q) ((contrEquiv1 d K hr hs).symm k) = ix2 p k := by
    funext a; apply Fin.ext
    match a with
    | ⟨0, _⟩ =>
      exact lhsIdx_val_of_non d (a := 0) (by rw [hlb]; exact List.not_mem_nil) (by rw [hln]; exact List.mem_singleton.mpr rfl) _ _ 0 (Nat.zero_lt_two)
        (by rw [hlb, hln]; rfl)
    | ⟨1, _⟩ =>
      exact (d.lhsIdx_val_of_single (cl := 1) hlc _ _).trans (contrEquiv1_symm_val d K hr hs k)
  have hrr : d.rhsIdx (ix2 p q) ((contrEquiv1 d K hr hs).symm k) = ix2 k q := by
    funext a; apply Fin.ext
    match a with
    | ⟨0, _⟩ =>
      exact (d.rhsIdx_val_of_single (cr := 0) hrc _ _).trans (contrEquiv1_symm_val d K hr hs k)
    | ⟨1, _⟩ =>
      exact rhsIdx_val_of_non d (a := 1) (by rw [hrb]; exact List.not_mem_nil) (by rw [hrn]; exact List.mem_singleton.mpr rfl) _ _ 1 (Nat.one_lt_two)
        (by rw [hlb, hln, hrn]; rfl)
  rw [hl, hrr]

/-- A kernel's product accumulated into the zero splat, read at (p, q). -/
theorem matmul_zero_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) :=
  (Ideal.matmul_constant_zero_apply d prec lhs rhs (ix2 p q)).trans (sum_plain d hlc hrc hlb hrb hln hrn lhs rhs p q)

/-- The host's product, read at (p, q). -/
theorem dotGeneral_plain {M K N : ℕ} {φ₁ φ₂ : FTy} (d : DotDims ⟨2, ![M, K]⟩ ⟨2, ![K, N]⟩ ⟨2, ![M, N]⟩)
    (hlc : d.lhsContracting = [1]) (hrc : d.rhsContracting = [0])
    (hlb : d.lhsBatch = []) (hrb : d.rhsBatch = []) (hln : d.lhsNonContracting = [0]) (hrn : d.rhsNonContracting = [1])
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  rw [← matmul_zero_eq_dotGeneral]
  exact matmul_zero_plain d hlc hrc hlb hrb hln hrn prec lhs rhs p q

end Idealize.ShloMosaic.LibDot

end
-- ==== Proof.LibDotBatch.lean ====
/-
  A batched matrix product with one contracted axis, read at an index as a sum over the contracted extent.
  For dimension numbers with one batch axis (axis 0 of both operands), contracting the left operand's axis 2 with the
  right operand's axis 1 — per batch entry b the product of an [M, K] matrix with a [K, N] matrix — the operand indices
  at result index (b, p, q) and contraction index k are (b, p, k) and (b, k, q); so the sum over the contraction shape is
  the sum over k < K of lhs (b, p, k) · rhs (b, k, q).  The host's product without an accumulator is that sum at the
  extended reals.
-/
import Idealize.ShloMosaic.Lib.ValueIdx
import Idealize.ShloMosaic.PureOps.Ideal.Laws
import Idealize.ShloMosaic.Lib.KernelVsHost
import proofs.«105716_j74380243632186_2_alg».proof.Proof.LibDot

noncomputable section

namespace Idealize.ShloMosaic.LibDotBatch

open Idealize.ShloMosaic Idealize.ShloMosaic.ValueIdx

variable {sl sr so : Shape} (d : DotDims sl sr so)

/-- A batch axis of the left operand reads the result index at its position among the batch axes. -/
theorem lhsIdx_val_of_batch {a : Fin sl.rank} (hb : a ∈ d.lhsBatch)
    (j : so.Idx) (k : d.contr.Idx) (p : Nat) (hp : p < so.rank) (hpe : d.lhsBatch.idxOf a = p) :
    (d.lhsIdx j k a).val = (j ⟨p, hp⟩).val := by
  subst hpe
  unfold DotDims.lhsIdx
  rw [dif_pos hb]
  rfl

/-- A batch axis of the right operand reads the result index at its position among the batch axes. -/
theorem rhsIdx_val_of_batch {a : Fin sr.rank} (hb : a ∈ d.rhsBatch)
    (j : so.Idx) (k : d.contr.Idx) (p : Nat) (hp : p < so.rank) (hpe : d.rhsBatch.idxOf a = p) :
    (d.rhsIdx j k a).val = (j ⟨p, hp⟩).val := by
  subst hpe
  unfold DotDims.rhsIdx
  rw [dif_pos hb]
  rfl

/-- The batched product's sum over the contraction shape is the sum over the contracted extent. -/
theorem sum_batched {B M K N : ℕ} (d : DotDims ⟨3, ![B, M, K]⟩ ⟨3, ![B, K, N]⟩ ⟨3, ![B, M, N]⟩)
    (hlc : d.lhsContracting = [2]) (hrc : d.rhsContracting = [1])
    (hlb : d.lhsBatch = [0]) (hrb : d.rhsBatch = [0]) (hln : d.lhsNonContracting = [1]) (hrn : d.rhsNonContracting = [2])
    (lhs : (⟨3, ![B, M, K]⟩ : Shape).Idx → EReal) (rhs : (⟨3, ![B, K, N]⟩ : Shape).Idx → EReal)
    (b : Fin B) (p : Fin M) (q : Fin N) :
    ∑ k : d.contr.Idx, lhs (d.lhsIdx (ix3 b p q) k) * rhs (d.rhsIdx (ix3 b p q) k)
      = ∑ k : Fin K, lhs (ix3 b p k) * rhs (ix3 b k q) := by
  have hr : d.contr.rank = 1 := by rw [d.rank_contr, hlc]; rfl
  have hs : d.contr.size ⟨0, by omega⟩ = K := by
    have h := d.size_contr 0 (by rw [hlc]; exact Nat.one_pos)
    simp only [hlc, List.getElem_cons_zero] at h
    exact h
  refine ((Equiv.sum_comp (contrEquiv1 d K hr hs).symm _).symm).trans ?_
  refine Finset.sum_congr rfl fun k _ => ?_
  have hl : d.lhsIdx (ix3 b p q) ((contrEquiv1 d K hr hs).symm k) = ix3 b p k := by
    funext a; apply Fin.ext
    match a with
    | ⟨0, _⟩ =>
      exact lhsIdx_val_of_batch d (a := 0) (by rw [hlb]; exact List.mem_singleton.mpr rfl) _ _ 0 (by show (0 : ℕ) < 3; omega) (by rw [hlb]; rfl)
    | ⟨1, _⟩ =>
      exact LibDot.lhsIdx_val_of_non d (a := 1) (by rw [hlb]; exact fun h => absurd (congrArg Fin.val (List.mem_singleton.mp h)) (by show ¬ ((1 : ℕ) = 0); omega)) (by rw [hln]; exact List.mem_singleton.mpr rfl) _ _ 1 (by show (1 : ℕ) < 3; omega)
        (by rw [hlb, hln]; rfl)
    | ⟨2, _⟩ =>
      exact (d.lhsIdx_val_of_single (cl := 2) hlc _ _).trans (contrEquiv1_symm_val d K hr hs k)
  have hrr : d.rhsIdx (ix3 b p q) ((contrEquiv1 d K hr hs).symm k) = ix3 b k q := by
    funext a; apply Fin.ext
    match a with
    | ⟨0, _⟩ =>
      exact rhsIdx_val_of_batch d (a := 0) (by rw [hrb]; exact List.mem_singleton.mpr rfl) _ _ 0 (by show (0 : ℕ) < 3; omega) (by rw [hrb]; rfl)
    | ⟨1, _⟩ =>
      exact (d.rhsIdx_val_of_single (cr := 1) hrc _ _).trans (contrEquiv1_symm_val d K hr hs k)
    | ⟨2, _⟩ =>
      exact LibDot.rhsIdx_val_of_non d (a := 2) (by rw [hrb]; exact fun h => absurd (congrArg Fin.val (List.mem_singleton.mp h)) (by show ¬ ((2 : ℕ) = 0); omega)) (by rw [hrn]; exact List.mem_singleton.mpr rfl) _ _ 2 (by show (2 : ℕ) < 3; omega)
        (by rw [hlb, hln, hrn]; rfl)
  rw [hl, hrr]

/-- The host's batched product, read at (b, p, q). -/
theorem dotGeneral_batched {B M K N : ℕ} {φ₁ φ₂ : FTy} (d : DotDims ⟨3, ![B, M, K]⟩ ⟨3, ![B, K, N]⟩ ⟨3, ![B, M, N]⟩)
    (hlc : d.lhsContracting = [2]) (hrc : d.rhsContracting = [1])
    (hlb : d.lhsBatch = [0]) (hrb : d.rhsBatch = [0]) (hln : d.lhsNonContracting = [1]) (hrn : d.rhsNonContracting = [2])
    (prec : Option ContractPrecision) (lhs : FVec Ideal ⟨3, ![B, M, K]⟩ φ₁) (rhs : FVec Ideal ⟨3, ![B, K, N]⟩ φ₂)
    (b : Fin B) (p : Fin M) (q : Fin N) :
    Host.dotGeneral d prec lhs rhs (ix3 b p q) = ∑ k : Fin K, lhs (ix3 b p k) * rhs (ix3 b k q) := by
  rw [← matmul_zero_eq_dotGeneral]
  exact (Ideal.matmul_constant_zero_apply d prec lhs rhs (ix3 b p q)).trans (sum_batched d hlc hrc hlb hrb hln hrn lhs rhs b p q)

end Idealize.ShloMosaic.LibDotBatch

end
-- ==== Proof.Expert.lean ====
/-
  The expert layer at one entry, over the extended reals.

  For expert `e`, place `c` and output column `d`:
    gateAt xe w e c f = ∑ k < 2048, xe (e, c, k) · w (e, k, f)                       (one entry of xe · w)
    expertAt … e c d  = ∑ f < 1376, ((g f · σ(g f)) · u f) · w_down (e, f, d),       g = gateAt … w_gate, u = gateAt … w_up,
  with σ the logistic function.  Both programs compute this entry: the reference by three batched products over all
  experts with σ spelled `1 / (1 + e^(−g))` (the same function of an extended real), the kernel's body on one block of 128
  places of one expert by three plain products with the logistic operation.  A change of float format is the identity, and
  a sum over the contracted axis does not depend on how the product is laid out, so the two agree entry by entry with no
  finiteness assumption.
-/
import proofs.«105716_j74380243632186_2_alg».proof.Proof.Stages
import proofs.«105716_j74380243632186_2_alg».proof.Proof.LibDot
import proofs.«105716_j74380243632186_2_alg».proof.Proof.LibDotBatch
import proofs.«105716_j74380243632186_2_alg».proof.Proof.Gen.KernelIdeal.Skeleton
import Idealize.ShloMosaic.Lib.ValueIdx
import Idealize.ShloMosaic.Lib.ValueLayout
import Idealize.ShloMosaic.Lib.Pipeline.Value

noncomputable section

namespace Cert.Moe

open Idealize.ShloMosaic Idealize.ShloMosaic.ValueIdx

/-- One entry of the product of expert `e`'s tokens with one of its [2048, 1376] weight matrices. -/
def gateAt (xe : (⟨3, ![8, 1280, 2048]⟩ : Shape).Idx → EReal) (w : (⟨3, ![8, 2048, 1376]⟩ : Shape).Idx → EReal)
    (e : Fin 8) (c : Fin 1280) (f : Fin 1376) : EReal :=
  ∑ k : Fin 2048, xe (ix3 e c k) * w (ix3 e k f)

/-- One entry of the expert layer's result. -/
def expertAt (xe : (⟨3, ![8, 1280, 2048]⟩ : Shape).Idx → EReal) (wg wu : (⟨3, ![8, 2048, 1376]⟩ : Shape).Idx → EReal)
    (wd : (⟨3, ![8, 1376, 2048]⟩ : Shape).Idx → EReal) (e : Fin 8) (c : Fin 1280) (d : Fin 2048) : EReal :=
  ∑ f : Fin 1376, ((gateAt xe wg e c f * Ideal.logistic (gateAt xe wg e c f)) * gateAt xe wu e c f) * wd (ix3 e f d)

/-- The expert layer's result as one array. -/
def expertOut (xe : (⟨3, ![8, 1280, 2048]⟩ : Shape).Idx → EReal) (wg wu : (⟨3, ![8, 2048, 1376]⟩ : Shape).Idx → EReal)
    (wd : (⟨3, ![8, 1376, 2048]⟩ : Shape).Idx → EReal) : (⟨3, ![8, 1280, 2048]⟩ : Shape).Idx → EReal :=
  fun i => expertAt xe wg wu wd (i 0) (i 1) (i 2)

theorem expertOut_apply (xe : (⟨3, ![8, 1280, 2048]⟩ : Shape).Idx → EReal) (wg wu : (⟨3, ![8, 2048, 1376]⟩ : Shape).Idx → EReal)
    (wd : (⟨3, ![8, 1376, 2048]⟩ : Shape).Idx → EReal) (e : Fin 8) (c : Fin 1280) (d : Fin 2048) :
    expertOut xe wg wu wd (ix3 e c d) = expertAt xe wg wu wd e c d := rfl

/-- The word 0x3F800000 is the number one. -/
theorem ofBits_one_f32 : Ideal.ofBits .f32 0x3F800000#32 = 1 := by
  simp [Ideal.ofBits, Ideal.ieee, -EReal.coe_mul]; norm_num

section Reference
variable [Cert.KernelIdeal.Facts] [Cert.ReferenceIdeal.Facts]

/-- `g · (1 / (1 + e^(−g)))` is `g · σ(g)`. -/
theorem silu_apply (g : FVec Ideal Cert.ReferenceIdeal.S8x1280x1376 .f32) (i : Cert.ReferenceIdeal.S8x1280x1376.Idx) :
    silu (F := Ideal) g i = g i * Ideal.logistic (g i) := by
  show g i * FloatOps.hostDivf (Ideal.ofBits .f32 0x3F800000#32)
      (FloatOps.addf (Ideal.ofBits .f32 0x3F800000#32) (FloatOps.hostUnary .exp (FloatOps.hostNegf (g i)))) = _
  rw [ofBits_one_f32]
  rfl

/-- The reference's three batched products, read at an entry. -/
theorem mlp_apply (xe : FVec Ideal Cert.ReferenceIdeal.S8x1280x2048 .f32) (wg wu : FVec Ideal Cert.ReferenceIdeal.S8x2048x1376 .f32)
    (wd : FVec Ideal Cert.ReferenceIdeal.S8x1376x2048 .f32) (e : Fin 8) (c : Fin 1280) (d : Fin 2048) :
    mlp (F := Ideal) xe wg wu wd (ix3 e c d) = expertAt xe wg wu wd e c d := by
  unfold mlp expertAt gateAt
  rw [LibDotBatch.dotGeneral_batched _ rfl rfl rfl rfl rfl rfl]
  refine Finset.sum_congr rfl fun f _ => ?_
  rw [mulf_apply, silu_apply, LibDotBatch.dotGeneral_batched _ rfl rfl rfl rfl rfl rfl,
    LibDotBatch.dotGeneral_batched _ rfl rfl rfl rfl rfl rfl]

end Reference

section Kernel
variable [Cert.KernelIdeal.Facts]
open Cert.KernelIdeal Cert.KernelIdeal.Gen

/-- The kernel body's stored value on one block, read at place `r` and column `d` of the block. -/
theorem payload_apply (x0 : Vec Ideal S1x128x2048 .bf16) (x1 x2 : Vec Ideal S1x2048x1376 .bf16) (x3 : Vec Ideal S1x1376x2048 .bf16)
    (r : Fin 128) (d : Fin 2048) :
    k0_pay1 x0 x1 x2 x3 (ix3 (0 : Fin 1) r d)
      = ∑ f : Fin 1376, (((∑ k : Fin 2048, x0 (ix3 (0 : Fin 1) r k) * x1 (ix3 (0 : Fin 1) k f))
            * Ideal.logistic (∑ k : Fin 2048, x0 (ix3 (0 : Fin 1) r k) * x1 (ix3 (0 : Fin 1) k f)))
          * (∑ k : Fin 2048, x0 (ix3 (0 : Fin 1) r k) * x2 (ix3 (0 : Fin 1) k f))) * x3 (ix3 (0 : Fin 1) f d) := by
  unfold k0_pay1
  rw [shapeCast_ab_1ab_apply, LibDot.matmul_zero_plain _ rfl rfl rfl rfl rfl rfl]
  refine Finset.sum_congr rfl fun f _ => ?_
  have hl : ∀ v : FVec Ideal S128x1376 .f32, logistic v (ix2 r f) = Ideal.logistic (v (ix2 r f)) := fun _ => rfl
  rw [truncf_apply, mulf_apply, mulf_apply, hl, LibDot.matmul_zero_plain _ rfl rfl rfl rfl rfl rfl,
    LibDot.matmul_zero_plain _ rfl rfl rfl rfl rfl rfl]
  simp only [shapeCast_1ab_ab_apply]

end Kernel

end Cert.Moe

end
-- ==== Proof.KerEntry.lean ====
/-
  What the kernel's program has computed when its region is entered, as the stage functions of the arguments:
  the routing bits `keep` and rows `slot` of the expert indices, the dispatched tokens (narrowed to bf16) as the
  region's first operand, and the three weight arrays narrowed to bf16 as its other operands.  Each is the composition
  of the host operations before the region, read off the program's operation list.
-/
import proofs.«105716_j74380243632186_2_alg».proof.Proof.Stages
import proofs.«105716_j74380243632186_2_alg».proof.Proof.Gen.KernelIdeal.Frame
import Idealize.ShloMosaic.Lib.StableHlo.Run

set_option maxRecDepth 16384

noncomputable section

namespace Cert.KernelIdeal.KerValue

open Cert.KernelIdeal Cert.KernelIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

-- the equations below never look inside these folds
attribute [local irreducible] Host.reduce Host.reduceWindow Host.gather Host.scatter

set_option maxHeartbeats 4000000 in
/-- The keep bits at the region's entry. -/
theorem entry_keep (c : Dev nD) :
    (V m c main_v8 : S8192.Idx → BitVec 1) = Cert.Moe.keep (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  all_goals rfl

set_option maxHeartbeats 4000000 in
/-- The rows at the region's entry. -/
theorem entry_slot (c : Dev nD) :
    (V m c main_v12 : S8192.Idx → BitVec 32) = Cert.Moe.slot (m ((c : Thread nD τ).loc main_arg1)) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  all_goals rfl

set_option maxHeartbeats 4000000 in
/-- The region's first operand: the dispatched tokens. -/
theorem entry_tokens (c : Dev nD) :
    (V m c main_v26 : S8x1280x2048.Idx → F .bf16)
      = Cert.Moe.dispatchK (m ((c : Thread nD τ).loc main_arg0)) (Cert.Moe.keep (m ((c : Thread nD τ).loc main_arg1)))
          (Cert.Moe.slot (m ((c : Thread nD τ).loc main_arg1))) := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  all_goals rfl

/-- The region's second operand: the gate weights narrowed. -/
theorem entry_gate (c : Dev nD) :
    (V m c main_v27 : S8x2048x1376.Idx → F .bf16) = truncf .bf16 (m ((c : Thread nD τ).loc main_arg3)) Facts₀.bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  all_goals rfl

/-- The region's third operand: the up weights narrowed. -/
theorem entry_up (c : Dev nD) :
    (V m c main_v28 : S8x2048x1376.Idx → F .bf16) = truncf .bf16 (m ((c : Thread nD τ).loc main_arg4)) Facts₀.bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  all_goals rfl

/-- The region's fourth operand: the down weights narrowed. -/
theorem entry_down (c : Dev nD) :
    (V m c main_v29 : S8x1376x2048.Idx → F .bf16) = truncf .bf16 (m ((c : Thread nD τ).loc main_arg5)) Facts₀.bitsLt_bf16_f32 := by
  dsimp only [Gen.V, Gen.V0]
  simp only [Gen.hostOps0, Gen.hostOps0_1, Gen.hostOps0_2, Gen.hostOps0_3, Gen.hostOps0_4, Gen.hostOps0_5, Gen.hostOps0_6,
    Gen.hostOps0_7, Gen.hostOps0_8, List.flatten_cons, List.flatten_nil, List.append_nil, List.cons_append, List.nil_append]
  after_results_simp
  all_goals rfl

end Cert.KernelIdeal.KerValue

end
-- ==== Proof.KerBlocks.lean ====
/-
  The kernel's grid and blocks, over the extended reals.

  The region runs on a grid of 8 experts × 10 tiles.  At point (e, ci) it reads block (e, ci, 0) of the dispatched tokens
  (128 places of expert e), the whole [2048, 1376] gate and up matrices and the whole [1376, 2048] down matrix of expert e,
  and writes block (e, ci, 0) of the result.  Entry (r, d) of what it writes is the expert layer's entry at
  (e, 128·ci + r, d); the 80 blocks tile the [8, 1280, 2048] result, so after the run the whole array is `expertOut` of the
  four operand arrays as the region finds them.
-/
import proofs.«105716_j74380243632186_2_alg».proof.Proof.Stages
import proofs.«105716_j74380243632186_2_alg».proof.Proof.Expert
import proofs.«105716_j74380243632186_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen

variable (m : (ℓ : Loc nD τ sig) → Buf (Elt Ideal) ℓ)

theorem hz3 : (![0, 0, 0] : Fin 3 → Nat) = fun _ => 0 := funext fun a => by fin_cases a <;> rfl

/-- The printed index maps over the grid: every operand's block moves with the result's expert coordinate, the tokens'
    also with its tile coordinate; the weights' other block coordinates, and every last one, are zero. -/
theorem idx_facts : ∀ t : Fin cfg0.N,
    win0_0.index t (0 : Fin 3) = win0_4.index t (0 : Fin 3) ∧ win0_0.index t (1 : Fin 3) = win0_4.index t (1 : Fin 3)
    ∧ win0_0.index t (2 : Fin 3) = 0
    ∧ win0_1.index t (0 : Fin 3) = win0_4.index t (0 : Fin 3) ∧ win0_1.index t (1 : Fin 3) = 0 ∧ win0_1.index t (2 : Fin 3) = 0
    ∧ win0_2.index t (0 : Fin 3) = win0_4.index t (0 : Fin 3) ∧ win0_2.index t (1 : Fin 3) = 0 ∧ win0_2.index t (2 : Fin 3) = 0
    ∧ win0_3.index t (0 : Fin 3) = win0_4.index t (0 : Fin 3) ∧ win0_3.index t (1 : Fin 3) = 0 ∧ win0_3.index t (2 : Fin 3) = 0
    ∧ win0_4.index t (0 : Fin 3) ≤ 7 ∧ win0_4.index t (1 : Fin 3) ≤ 9 ∧ win0_4.index t (2 : Fin 3) = 0 :=
  (by decide +kernel : ∀ t : Fin grid0.N, _)

/-- Every (expert, tile) pair is some point's result block. -/
theorem idx_onto : ∀ (q0 : Fin 8) (q1 : Fin 10), ∃ t : Fin cfg0.N, win0_4.index t = ![q0.val, q1.val, 0] :=
  (by decide +kernel : ∀ (q0 : Fin 8) (q1 : Fin 10), ∃ t : Fin grid0.N, win0_4.index t = ![q0.val, q1.val, 0])

/-- One block's stored value is the expert layer on the rows the block holds: stated for blocks given by what they read. -/
theorem point_eq [Cert.KernelIdeal.Facts]
    (xe : (⟨3, ![8, 1280, 2048]⟩ : Shape).Idx → EReal) (wg wu : (⟨3, ![8, 2048, 1376]⟩ : Shape).Idx → EReal)
    (wd : (⟨3, ![8, 1376, 2048]⟩ : Shape).Idx → EReal)
    (B0 : Vec Ideal S1x128x2048 .bf16) (B1 B2 : Vec Ideal S1x2048x1376 .bf16) (B3 : Vec Ideal S1x1376x2048 .bf16)
    (E : Fin 8) (row0 : ℕ) (hrow : row0 + 128 ≤ 1280)
    (h0 : ∀ (r : Fin 128) (k : Fin 2048), B0 (ix3 (0 : Fin 1) r k) = xe (ix3 E ⟨row0 + r.val, by omega⟩ k))
    (h1 : ∀ (k : Fin 2048) (f : Fin 1376), B1 (ix3 (0 : Fin 1) k f) = wg (ix3 E k f))
    (h2 : ∀ (k : Fin 2048) (f : Fin 1376), B2 (ix3 (0 : Fin 1) k f) = wu (ix3 E k f))
    (h3 : ∀ (f : Fin 1376) (d : Fin 2048), B3 (ix3 (0 : Fin 1) f d) = wd (ix3 E f d))
    (y : (⟨3, ![1, 128, 2048]⟩ : Shape).Idx) :
    k0_pay1 B0 B1 B2 B3 y
      = Cert.Moe.expertOut xe wg wu wd (ix3 E ⟨row0 + (y 1).val, by have h : (y 1).val < 128 := (y 1).isLt; omega⟩ (y 2)) := by
  obtain ⟨u, r, d, rfl⟩ : ∃ (u : Fin 1) (r : Fin 128) (d : Fin 2048), y = ix3 u r d := ⟨y 0, y 1, y 2, eq_ix3 y⟩
  obtain rfl : u = 0 := Subsingleton.elim _ _
  show k0_pay1 B0 B1 B2 B3 (ix3 (0 : Fin 1) r d) = Cert.Moe.expertOut xe wg wu wd (ix3 E ⟨row0 + r.val, by omega⟩ d)
  rw [Cert.Moe.payload_apply, Cert.Moe.expertOut_apply]
  unfold Cert.Moe.expertAt Cert.Moe.gateAt
  simp only [h0, h1, h2, h3]

/-- The tokens' block at point `t`, read at place `r` and column `k`: the array at (expert, 128 · tile + r, k). -/
theorem read_tokens (t : Fin cfg0.N) (A : S8x1280x2048.Idx → Elt Ideal .bf16) (r : Fin 128) (k : Fin 2048)
    (E : Fin 8) (row : Fin 1280) (hE : E.val = win0_0.index t (0 : Fin 3))
    (hrow : row.val = win0_0.index t (1 : Fin 3) * 128 + r.val) (h2 : win0_0.index t (2 : Fin 3) = 0) :
    ((cfg0.win 0).blk t).view.read (Elt Ideal) A (ix3 (0 : Fin 1) r k) = A (ix3 E row k) := by
  show A (((cfg0.win 0).blk t).view.emb (ix3 (0 : Fin 1) r k)) = A (ix3 E row k)
  refine congrArg A ?_
  funext a; apply Fin.ext
  match a with
  | ⟨0, _⟩ => show win0_0.index t (0 : Fin 3) * 1 + 1 * 0 = E.val; omega
  | ⟨1, _⟩ => show win0_0.index t (1 : Fin 3) * 128 + 1 * r.val = row.val; omega
  | ⟨2, _⟩ => show win0_0.index t (2 : Fin 3) * 2048 + 1 * k.val = k.val; omega

/-- The gate weights' block at point `t` is the whole matrix of the point's expert. -/
theorem read_gate (t : Fin cfg0.N) (A : S8x2048x1376.Idx → Elt Ideal .bf16) (k : Fin 2048) (f : Fin 1376)
    (E : Fin 8) (hE : E.val = win0_1.index t (0 : Fin 3)) (h1 : win0_1.index t (1 : Fin 3) = 0) (h2 : win0_1.index t (2 : Fin 3) = 0) :
    ((cfg0.win 1).blk t).view.read (Elt Ideal) A (ix3 (0 : Fin 1) k f) = A (ix3 E k f) := by
  show A (((cfg0.win 1).blk t).view.emb (ix3 (0 : Fin 1) k f)) = A (ix3 E k f)
  refine congrArg A ?_
  funext a; apply Fin.ext
  match a with
  | ⟨0, _⟩ => show win0_1.index t (0 : Fin 3) * 1 + 1 * 0 = E.val; omega
  | ⟨1, _⟩ => show win0_1.index t (1 : Fin 3) * 2048 + 1 * k.val = k.val; omega
  | ⟨2, _⟩ => show win0_1.index t (2 : Fin 3) * 1376 + 1 * f.val = f.val; omega

/-- The up weights' block at point `t` is the whole matrix of the point's expert. -/
theorem read_up (t : Fin cfg0.N) (A : S8x2048x1376.Idx → Elt Ideal .bf16) (k : Fin 2048) (f : Fin 1376)
    (E : Fin 8) (hE : E.val = win0_2.index t (0 : Fin 3)) (h1 : win0_2.index t (1 : Fin 3) = 0) (h2 : win0_2.index t (2 : Fin 3) = 0) :
    ((cfg0.win 2).blk t).view.read (Elt Ideal) A (ix3 (0 : Fin 1) k f) = A (ix3 E k f) := by
  show A (((cfg0.win 2).blk t).view.emb (ix3 (0 : Fin 1) k f)) = A (ix3 E k f)
  refine congrArg A ?_
  funext a; apply Fin.ext
  match a with
  | ⟨0, _⟩ => show win0_2.index t (0 : Fin 3) * 1 + 1 * 0 = E.val; omega
  | ⟨1, _⟩ => show win0_2.index t (1 : Fin 3) * 2048 + 1 * k.val = k.val; omega
  | ⟨2, _⟩ => show win0_2.index t (2 : Fin 3) * 1376 + 1 * f.val = f.val; omega

/-- The down weights' block at point `t` is the whole matrix of the point's expert. -/
theorem read_down (t : Fin cfg0.N) (A : S8x1376x2048.Idx → Elt Ideal .bf16) (f : Fin 1376) (d : Fin 2048)
    (E : Fin 8) (hE : E.val = win0_3.index t (0 : Fin 3)) (h1 : win0_3.index t (1 : Fin 3) = 0) (h2 : win0_3.index t (2 : Fin 3) = 0) :
    ((cfg0.win 3).blk t).view.read (Elt Ideal) A (ix3 (0 : Fin 1) f d) = A (ix3 E f d) := by
  show A (((cfg0.win 3).blk t).view.emb (ix3 (0 : Fin 1) f d)) = A (ix3 E f d)
  refine congrArg A ?_
  funext a; apply Fin.ext
  match a with
  | ⟨0, _⟩ => show win0_3.index t (0 : Fin 3) * 1 + 1 * 0 = E.val; omega
  | ⟨1, _⟩ => show win0_3.index t (1 : Fin 3) * 1376 + 1 * f.val = f.val; omega
  | ⟨2, _⟩ => show win0_3.index t (2 : Fin 3) * 2048 + 1 * d.val = d.val; omega

/-- An index of the result array is in point `t`'s block iff each coordinate is in the block's range on its axis. -/
theorem mem_blk (t : Fin cfg0.N) (i : S8x1280x2048.Idx) :
    i ∈ ((cfg0.win 4).blk t).view.set ↔ ∀ a : Fin 3, win0_4.index t a * S1x128x2048.size a ≤ (i a).val
      ∧ (i a).val < win0_4.index t a * S1x128x2048.size a + S1x128x2048.size a := by
  show i ∈ ((View.whole main_v30).slice (win0_4.rect t)).set ↔ _
  rw [View.set_slice_whole, Rect.mem_set_unit]
  exact Iff.rfl

/-- The blocks tile the result: the point covering place `p` of expert `e` is (e, p / 128). -/
theorem covered (i : S8x1280x2048.Idx) : ∃ t : Fin cfg0.N, (cfg0.win 4).flush t = true ∧ i ∈ ((cfg0.win 4).blk t).view.set := by
  have hi0 : (i 0).val < 8 := (i 0).isLt
  have hi1 : (i 1).val < 1280 := (i 1).isLt
  have hi2 : (i 2).val < 2048 := (i 2).isLt
  obtain ⟨t, ht⟩ := idx_onto ⟨(i 0).val, hi0⟩ ⟨(i 1).val / 128, by omega⟩
  have q0 : win0_4.index t (0 : Fin 3) = (i 0).val := congrFun ht 0
  have q1 : win0_4.index t (1 : Fin 3) = (i 1).val / 128 := congrFun ht 1
  have q2 : win0_4.index t (2 : Fin 3) = 0 := congrFun ht 2
  refine ⟨t, flush0_4 t, ?_⟩
  rw [mem_blk]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 128 ≤ (i 1).val ∧ (i 1).val < win0_4.index t (1 : Fin 3) * 128 + 128; omega
  | ⟨2, _⟩ => show win0_4.index t (2 : Fin 3) * 2048 ≤ (i 2).val ∧ (i 2).val < win0_4.index t (2 : Fin 3) * 2048 + 2048; omega

end Cert.KernelIdeal.KerValue

end
-- ==== Proof.KerFinal.lean ====
/-
  From the kernel's blocks to its result array, over the extended reals: what each grid point writes back is its block of
  the expert layer of the operand arrays, and the 80 blocks tile the result, so the whole array is `expertOut` of the
  four operand arrays as the region finds them.
-/
import proofs.«105716_j74380243632186_2_alg».proof.Proof.KerBlocks

set_option maxRecDepth 16384

noncomputable section

open Idealize.ShloMosaic Idealize.ShloMosaic.TcCoe Idealize.SL.Sem Idealize.ShloMosaic.ValueIdx
open Idealize.ShloMosaic.Pipeline (Dat)

namespace Cert.KernelIdeal.KerValue

open Cert.KernelIdeal Cert.KernelIdeal.Gen

variable (m : (ℓ : Loc nD τ sig) → Buf (Elt Ideal) ℓ)

-- the arrays as the region finds them are never opened here: only read at an index
set_option allowUnsafeReducibility true in
attribute [local irreducible] Gen.V Gen.V0

/-- A write-back of a block holding `P` is block `t` of an array `G` as soon as `P` is `G` read through the block, entry by entry. -/
theorem flushed_of_point (t : Fin cfg0.N) (P : Vec Ideal S1x128x2048 .f32) (G : S8x1280x2048.Idx → EReal)
    (h : ∀ j : S1x128x2048.Idx, P j = G (((cfg0.win 4).blk t).view.emb j)) :
    (win0 4).cut (grid0.coords t) P = View.read (Elt Ideal) ((View.whole main_v30).slice ((win0 4).rect t)) G := by
  funext j
  exact h j

set_option maxHeartbeats 2000000 in
/-- WHAT POINT `t` WRITES BACK is block `t` of the expert layer of the operand arrays as the region finds them. -/
theorem flushed_eq (c : Dev nD) (t : Fin cfg0.N) :
    (dats m 0 c).flushed 4 t = ((cfg0.win 4).blk t).view.read (Elt Ideal)
      (Cert.Moe.expertOut (V m c main_v26) (V m c main_v27) (V m c main_v28) (V m c main_v29)) := by
  show (cfg0.win 4).cut (grid0.coords t) ((dats m 0 c).after 4 t) = _
  rw [after0_4]
  unfold out0_4
  rw [View.canon_unit_zero hz3]
  simp only [View.ld_unit_zero (S := S1x128x2048) hz3, View.ld_unit_zero (S := S1x2048x1376) hz3,
    View.ld_unit_zero (S := S1x1376x2048) hz3]
  obtain ⟨e0, e1, e2, e3, e4, e5, e6, e7, e8, e9, e10, e11, e12, e13, e14⟩ := idx_facts t
  refine flushed_of_point t (k0_pay1 (iblk m c 0 t) (iblk m c 1 t) (iblk m c 2 t) (iblk m c 3 t))
    (Cert.Moe.expertOut (V m c main_v26) (V m c main_v27) (V m c main_v28) (V m c main_v29)) (fun j => ?_)
  refine (point_eq (V m c main_v26) (V m c main_v27) (V m c main_v28) (V m c main_v29)
    (iblk m c 0 t) (iblk m c 1 t) (iblk m c 2 t) (iblk m c 3 t)
    ⟨win0_4.index t (0 : Fin 3), by omega⟩ (win0_4.index t (1 : Fin 3) * 128) (by omega) ?_ ?_ ?_ ?_ j).trans ?_
  · intro r k
    unfold iblk
    exact read_tokens t (V m c main_v26) r k _ _ (by show win0_4.index t (0 : Fin 3) = _; omega)
      (by show win0_4.index t (1 : Fin 3) * 128 + r.val = _; omega) e2
  · intro k f
    unfold iblk
    exact read_gate t (V m c main_v27) k f _ (by show win0_4.index t (0 : Fin 3) = _; omega) e4 e5
  · intro k f
    unfold iblk
    exact read_up t (V m c main_v28) k f _ (by show win0_4.index t (0 : Fin 3) = _; omega) e7 e8
  · intro f d
    unfold iblk
    exact read_down t (V m c main_v29) f d _ (by show win0_4.index t (0 : Fin 3) = _; omega) e10 e11
  · refine congrArg (Cert.Moe.expertOut (V m c main_v26) (V m c main_v27) (V m c main_v28) (V m c main_v29)) ?_
    funext a; apply Fin.ext
    match a with
    | ⟨0, _⟩ =>
      show win0_4.index t (0 : Fin 3) = win0_4.index t (0 : Fin 3) * 1 + 1 * (j 0).val
      have hj : (j 0).val < 1 := (j 0).isLt
      omega
    | ⟨1, _⟩ => show win0_4.index t (1 : Fin 3) * 128 + (j 1).val = win0_4.index t (1 : Fin 3) * 128 + 1 * (j 1).val; omega
    | ⟨2, _⟩ => show (j 2).val = win0_4.index t (2 : Fin 3) * 2048 + 1 * (j 2).val; omega

/-- THE RESULT ARRAY after the run: the expert layer of the operand arrays as the region finds them. -/
theorem final (c : Dev nD) :
    (dats m 0 c).arrAt 4 cfg0.N = Cert.Moe.expertOut (V m c main_v26) (V m c main_v27) (V m c main_v28) (V m c main_v29) :=
  (dats m 0 c).arrAt_eq_of_cover 4 _ (fun t _ => flushed_eq m c t) covered

end Cert.KernelIdeal.KerValue

end
-- ==== Proof.KerRun.lean ====
/-
  The kernel's program after its region, and its whole run.

  After the region the program flattens the [8, 1280, 2048] result to 10240 rows and combines: each token reads its row,
  times its keep bit, times its score — the stage function `combineK` of the region's result array and of the routing
  bits, rows and scores as they stood when the region was entered.  With the region's result array known as one function
  of its operands, every weakly fair execution of the program ends with its result at that composed function of the
  six arguments, and the arguments unchanged.
-/
import proofs.«105716_j74380243632186_2_alg».proof.Proof.Stages
import proofs.«105716_j74380243632186_2_alg».proof.Proof.Expert
import proofs.«105716_j74380243632186_2_alg».proof.Proof.KerEntry
import proofs.«105716_j74380243632186_2_alg».proof.Proof.KerFinal
import proofs.«105716_j74380243632186_2_alg».proof.Proof.Gen.KernelIdeal.Frame
import Idealize.ShloMosaic.Lib.StableHlo.Run
import Idealize.ShloMosaic.Lib.Pipeline.Value

set_option maxRecDepth 16384

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KerValue

open Cert.KernelIdeal Cert.KernelIdeal.Gen

variable (m : (ℓ : Loc nD τ sig) → Buf (Elt Ideal) ℓ) (ρ : Dev nD → PrngReg)

-- the contents at the region's entry are never opened here
set_option allowUnsafeReducibility true in
attribute [local irreducible] Gen.V0

attribute [local irreducible] Host.gather in
set_option maxHeartbeats 4000000 in
/-- The program's result after the host operations that follow the region. -/
theorem tail_eq (c : Dev nD) :
    Pipeline.afterTail₀ cfgs (dats m) 0 (V0 m) [hostOps1, hostOps1_1, hostOps1_2] c main_v48
      = Cert.Moe.combineK (F := Ideal) ((dats m 0 c).arrAt 4 cfg0.N) (V m c main_v8) (V m c main_v12) (V m c main_arg2) := by
  have hA : Pipeline.withArrays (cfgs 0).spec c (V0 m c) (fun w => (dats m 0 c).arrAt w (cfgs 0).N) (Proc.devRef .tc main_v30)
      = (dats m 0 c).arrAt 4 cfg0.N :=
    Pipeline.withArrays_arr (cfgs 0).spec launch0.win.arr_inj c (V0 m c) (fun w => (dats m 0 c).arrAt w (cfgs 0).N) 4
  have h8 : Pipeline.withArrays (cfgs 0).spec c (V0 m c) (fun w => (dats m 0 c).arrAt w (cfgs 0).N) (Proc.devRef .tc main_v8)
      = V0 m c (Proc.devRef .tc main_v8) :=
    Pipeline.withArrays_of_ne (cfgs 0).spec c (V0 m c) (fun w => (dats m 0 c).arrAt w (cfgs 0).N) main_v8
      (by exact (by decide : ∀ w, Pipeline.arrRef spec0 w ≠ main_v8))
  have h12 : Pipeline.withArrays (cfgs 0).spec c (V0 m c) (fun w => (dats m 0 c).arrAt w (cfgs 0).N) (Proc.devRef .tc main_v12)
      = V0 m c (Proc.devRef .tc main_v12) :=
    Pipeline.withArrays_of_ne (cfgs 0).spec c (V0 m c) (fun w => (dats m 0 c).arrAt w (cfgs 0).N) main_v12
      (by exact (by decide : ∀ w, Pipeline.arrRef spec0 w ≠ main_v12))
  have h2 : Pipeline.withArrays (cfgs 0).spec c (V0 m c) (fun w => (dats m 0 c).arrAt w (cfgs 0).N) (Proc.devRef .tc main_arg2)
      = V0 m c (Proc.devRef .tc main_arg2) :=
    Pipeline.withArrays_of_ne (cfgs 0).spec c (V0 m c) (fun w => (dats m 0 c).arrAt w (cfgs 0).N) main_arg2
      (by exact (by decide : ∀ w, Pipeline.arrRef spec0 w ≠ main_arg2))
  unfold Pipeline.afterTail₀
  simp only [Gen.hostOps1, Gen.hostOps1_1, Gen.hostOps1_2, List.flatten_cons, List.flatten_nil, List.append_nil,
    List.cons_append, List.nil_append]
  after_results_simp
  rw [hA, h8, h12, h2]
  rfl

/-- The kernel's program, run: its result is the combine of the expert layer of the dispatched tokens. -/
theorem run :
    θ_run defs (onTc (τ := τ) (main (F := Ideal))) ⟨m, fun _ => 0, ρ⟩ fun r => ∀ c : Dev nD,
      r.2.mem ((c.tc : Thread nD τ).loc main_v48)
        = Cert.Moe.combineK (F := Ideal)
            (Cert.Moe.expertOut
              (Cert.Moe.dispatchK (F := Ideal) (m ((c.tc : Thread nD τ).loc main_arg0)) (Cert.Moe.keep (m ((c.tc : Thread nD τ).loc main_arg1)))
                (Cert.Moe.slot (m ((c.tc : Thread nD τ).loc main_arg1))))
              (truncf (F := Ideal) .bf16 (m ((c.tc : Thread nD τ).loc main_arg3)) Facts₀.bitsLt_bf16_f32)
              (truncf (F := Ideal) .bf16 (m ((c.tc : Thread nD τ).loc main_arg4)) Facts₀.bitsLt_bf16_f32)
              (truncf (F := Ideal) .bf16 (m ((c.tc : Thread nD τ).loc main_arg5)) Facts₀.bitsLt_bf16_f32))
            (Cert.Moe.keep (m ((c.tc : Thread nD τ).loc main_arg1))) (Cert.Moe.slot (m ((c.tc : Thread nD τ).loc main_arg1)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c =>
    ⟨((h c).2 main_v48 (Pipeline.mem_restRefs_of main_v48 (by decide) (by decide))).trans (by
        rw [tail_eq m c, final m c, entry_tokens m c, entry_gate m c, entry_up m c, entry_down m c, entry_keep m c, entry_slot m c,
          V_main_arg2 m c]),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c))⟩)
    (run_main m ρ)

end Cert.KernelIdeal.KerValue

end
-- ==== Proof.RefRun.lean ====
/-
  The reference program's run, read back as one pure function of its arguments.

  @main is a straight line of 101 array operations once its six calls of module-local functions are replaced by
  the callees' bodies (the one-hot table, the running column sums — itself one call of an inner function —, the
  read along the axis, the two selects and the gate's sigmoid-weighted unit), each callee's values held in the
  buffers of that call's record.  The
  line is listed below in program order; running it leaves every buffer at the fold of the operations over the
  launch contents, and at the result buffer that fold is the composition
  combine (mlp (dispatch x (keep idx) (slot idx)) w_gate w_up w_down) (keep idx) (slot idx) score
  of the stage functions: each stage is the same chain of operations, written once as a function.
-/
import proofs.«105716_j74380243632186_2_alg».proof.Proof.Stages
import proofs.«105716_j74380243632186_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 101 operations in order, every call replaced by the callee's lines over that call's buffers: the
    one-hot table (6), the running sums (3), the table minus one and the expert as a column (4), the read along
    the axis (22), the place, the capacity test and the row (9), the select of the spare row (3), the scatter's
    operands and the scatter (17), its first 10240 rows cut per expert and the gate product (3), the sigmoid
    unit (9), the up product, the product of the two, the down product, the rows flattened and the zero row
    appended (7), the wrapped row read back (9), and the two factors (10). -/
abbrev ops [Cert.ReferenceIdeal.Facts] : List (HloOp τ sig (Elt F)) :=
  [ TRef.unary (.of main_arg1 : TRef sig ⟨S8192, .i32⟩) main_call0.v0 (broadcastInDim S8192x1 ![0] bcast_S8192_S8192x1_0),
    TRef.nullary main_call0.v1 (iotaInDim S1x8 32 1),
    TRef.unary main_call0.v0 main_call0.v2 (broadcastInDim S8192x8 ![0, 1] bcast_S8192x1_S8192x8_0_1),
    TRef.unary main_call0.v1 main_call0.v3 (broadcastInDim S8192x8 ![0, 1] bcast_S1x8_S8192x8_0_1),
    TRef.binary main_call0.v2 main_call0.v3 main_call0.v4 (cmpi .eq),
    TRef.unary main_call0.v4 main_call0.v5 (extui 32 · natLt_1_32),
    TRef.nullary main_call1.call0.c (constantI S_ 32 0#32),
    TRef.unary main_call1.call0.c main_call1.call0.v0 (broadcastInDim S_ ![] bcast_S_S_),
    TRef.binary (.of main_v0 : TRef sig ⟨S8192x8, .i32⟩) main_call1.call0.v0 main_call1.call0.v1 (fun x v => Host.reduceWindow IntOp.addi ![8192, 1] ![1, 1] ![8191, 0] ![0, 0] x v reduceWindows_S8192x8_S8192x8_w8192s1p8191_0_w1s1p0_0 h_S_),
    nullary main_c (constantI S_ 32 1#32),
    unary main_c main_v2 (broadcastInDim S8192x8 ![] bcast_S_S8192x8 : (⟨S_, .i32⟩ : BufTy).Contents (Elt F) → (⟨S8192x8, .i32⟩ : BufTy).Contents (Elt F)),
    binary main_v1 main_v2 main_v3 (subi : (⟨S8192x8, .i32⟩ : BufTy).Contents (Elt F) → (⟨S8192x8, .i32⟩ : BufTy).Contents (Elt F) → (⟨S8192x8, .i32⟩ : BufTy).Contents (Elt F)),
    unary main_arg1 main_v4 (broadcastInDim S8192x1 ![0] bcast_S8192_S8192x1_0 : (⟨S8192, .i32⟩ : BufTy).Contents (Elt F) → (⟨S8192x1, .i32⟩ : BufTy).Contents (Elt F)),
    TRef.nullary main_call2.c (constantI S_ 32 0#32),
    TRef.unary main_call2.c main_call2.v0 (broadcastInDim S8192x1 ![] bcast_S_S8192x1),
    TRef.binary (.of main_v4 : TRef sig ⟨S8192x1, .i32⟩) main_call2.v0 main_call2.v1 (cmpi .slt),
    TRef.nullary main_call2.c_0 (constantI S_ 32 8#32),
    TRef.unary main_call2.c_0 main_call2.v2 (broadcastInDim S8192x1 ![] bcast_S_S8192x1),
    TRef.binary (.of main_v4 : TRef sig ⟨S8192x1, .i32⟩) main_call2.v2 main_call2.v3 addi,
    TRef.ternary main_call2.v1 main_call2.v3 (.of main_v4 : TRef sig ⟨S8192x1, .i32⟩) main_call2.v4 select,
    TRef.reshape main_call2.v4 main_call2.v5 rfl shapeCasts_S8192x1_S8192x1x1,
    TRef.nullary main_call2.c_1 (constantI S1 32 7#32),
    TRef.nullary main_call2.c_2 (constantI S_ 32 0#32),
    TRef.unary main_call2.c_2 main_call2.v6 (broadcastInDim S8192x1x1 ![] bcast_S_S8192x1x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S8192x1x1 ![0, 1, 2] bcast_S1x1x1_S8192x1x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S8192x1x1_S8192x1_d2 h_S_),
    TRef.binary (.of main_v3 : TRef sig ⟨S8192x8, .i32⟩) main_call2.v5 main_call2.v13 (fun x i => Host.gather gather_S8192x8_S8192x1x1_S8192x1_n_1_0_0_1_2_11 x i),
    TRef.nullary main_call2.c_4 (constantI S_ 32 2147483648#32),
    TRef.unary main_call2.c_4 main_call2.v14 (broadcastInDim S8192x1 ![] bcast_S_S8192x1),
    TRef.ternary main_call2.v12 main_call2.v13 main_call2.v14 main_call2.v15 select,
    reshape main_v5 main_v6 rfl shapeCasts_S8192x1_S8192,
    nullary main_c_0 (constantI S_ 32 1280#32),
    unary main_c_0 main_v7 (broadcastInDim S8192 ![] bcast_S_S8192 : (⟨S_, .i32⟩ : BufTy).Contents (Elt F) → (⟨S8192, .i32⟩ : BufTy).Contents (Elt F)),
    binary main_v6 main_v7 main_v8 (cmpi .slt : (⟨S8192, .i32⟩ : BufTy).Contents (Elt F) → (⟨S8192, .i32⟩ : BufTy).Contents (Elt F) → (⟨S8192, .i1⟩ : BufTy).Contents (Elt F)),
    nullary main_c_1 (constantI S_ 32 1280#32),
    unary main_c_1 main_v9 (broadcastInDim S8192 ![] bcast_S_S8192 : (⟨S_, .i32⟩ : BufTy).Contents (Elt F) → (⟨S8192, .i32⟩ : BufTy).Contents (Elt F)),
    binary main_arg1 main_v9 main_v10 (muli : (⟨S8192, .i32⟩ : BufTy).Contents (Elt F) → (⟨S8192, .i32⟩ : BufTy).Contents (Elt F) → (⟨S8192, .i32⟩ : BufTy).Contents (Elt F)),
    binary main_v10 main_v6 main_v11 (addi : (⟨S8192, .i32⟩ : BufTy).Contents (Elt F) → (⟨S8192, .i32⟩ : BufTy).Contents (Elt F) → (⟨S8192, .i32⟩ : BufTy).Contents (Elt F)),
    nullary main_c_2 (constantI S_ 32 10240#32),
    TRef.unary (.of main_c_2 : TRef sig ⟨S_, .i32⟩) main_call3.v0 id,
    TRef.unary main_call3.v0 main_call3.v1 (broadcastInDim S8192 ![] bcast_S_S8192),
    TRef.ternary (.of main_v8 : TRef sig ⟨S8192, .i1⟩) (.of main_v11 : TRef sig ⟨S8192, .i32⟩) main_call3.v1 main_call3.v2 select,
    nullary main_cst (constant S_ .f32 0x00000000#32),
    unary main_cst main_v13 (broadcastInDim S10241x2048 ![] bcast_S_S10241x2048 : (⟨S_, .f32⟩ : BufTy).Contents (Elt F) → (⟨S10241x2048, .f32⟩ : BufTy).Contents (Elt F)),
    unary main_v8 main_v14 (broadcastInDim S8192x1 ![0] bcast_S8192_S8192x1_0 : (⟨S8192, .i1⟩ : BufTy).Contents (Elt F) → (⟨S8192x1, .i1⟩ : BufTy).Contents (Elt F)),
    nullary main_cst_3 (constant S_ .f32 0x00000000#32),
    unary main_cst_3 main_v15 (broadcastInDim S8192x2048 ![] bcast_S_S8192x2048 : (⟨S_, .f32⟩ : BufTy).Contents (Elt F) → (⟨S8192x2048, .f32⟩ : BufTy).Contents (Elt F)),
    TRef.unary (.of main_v14 : TRef sig ⟨S8192x1, .i1⟩) main_call4.v0 (broadcastInDim S8192x2048 ![0, 1] bcast_S8192x1_S8192x2048_0_1),
    TRef.ternary main_call4.v0 (.of main_arg0 : TRef sig ⟨S8192x2048, .f32⟩) (.of main_v15 : TRef sig ⟨S8192x2048, .f32⟩) main_call4.v1 select,
    nullary main_c_4 (constantI S_ 32 0#32),
    unary main_c_4 main_v17 (broadcastInDim S8192 ![] bcast_S_S8192 : (⟨S_, .i32⟩ : BufTy).Contents (Elt F) → (⟨S8192, .i32⟩ : BufTy).Contents (Elt F)),
    binary main_v12 main_v17 main_v18 (cmpi .slt : (⟨S8192, .i32⟩ : BufTy).Contents (Elt F) → (⟨S8192, .i32⟩ : BufTy).Contents (Elt F) → (⟨S8192, .i1⟩ : BufTy).Contents (Elt F)),
    nullary main_c_5 (constantI S_ 32 10241#32),
    unary main_c_5 main_v19 (broadcastInDim S8192 ![] bcast_S_S8192 : (⟨S_, .i32⟩ : BufTy).Contents (Elt F) → (⟨S8192, .i32⟩ : BufTy).Contents (Elt F)),
    binary main_v12 main_v19 main_v20 (addi : (⟨S8192, .i32⟩ : BufTy).Contents (Elt F) → (⟨S8192, .i32⟩ : BufTy).Contents (Elt F) → (⟨S8192, .i32⟩ : BufTy).Contents (Elt F)),
    ternary main_v18 main_v20 main_v12 main_v21 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v21 main_v22 (broadcastInDim S8192x1 ![0] bcast_S8192_S8192x1_0 : (⟨S8192, .i32⟩ : BufTy).Contents (Elt F) → (⟨S8192x1, .i32⟩ : BufTy).Contents (Elt F)),
    ternary main_v13 main_v22 main_v16 main_v23 ((fun x i u => Host.scatter scatter_S10241x2048_S8192x1_S8192x2048_1_0_0_1 (fun _ b => b) x i u) : (⟨S10241x2048, .f32⟩ : BufTy).Contents (Elt F) → (⟨S8192x1, .i32⟩ : BufTy).Contents (Elt F) → (⟨S8192x2048, .f32⟩ : BufTy).Contents (Elt F) → (⟨S10241x2048, .f32⟩ : BufTy).Contents (Elt F)),
    unary main_v23 main_v24 ((extractStridedSlice S10240x2048 ![0, 0] · slices_S10241x2048_S10240x2048_0_0) : (⟨S10241x2048, .f32⟩ : BufTy).Contents (Elt F) → (⟨S10240x2048, .f32⟩ : BufTy).Contents (Elt F)),
    reshape main_v24 main_v25 rfl shapeCasts_S10240x2048_S8x1280x2048,
    binary main_v25 main_arg3 main_v26 ((fun l r => Host.dotGeneral dot_S8x1280x2048_S8x2048x1376_S8x1280x1376_2_1_1_2_0_0 none l r) : (⟨S8x1280x2048, .f32⟩ : BufTy).Contents (Elt F) → (⟨S8x2048x1376, .f32⟩ : BufTy).Contents (Elt F) → (⟨S8x1280x1376, .f32⟩ : BufTy).Contents (Elt F)),
    TRef.unary (.of main_v26 : TRef sig ⟨S8x1280x1376, .f32⟩) main_call5.v0 Host.negf,
    TRef.unary main_call5.v0 main_call5.v1 Host.exp,
    TRef.nullary main_call5.cst (constant S_ .f32 0x3F800000#32),
    TRef.unary main_call5.cst main_call5.v2 (broadcastInDim S8x1280x1376 ![] bcast_S_S8x1280x1376),
    TRef.binary main_call5.v2 main_call5.v1 main_call5.v3 addf,
    TRef.nullary main_call5.cst_0 (constant S_ .f32 0x3F800000#32),
    TRef.unary main_call5.cst_0 main_call5.v4 (broadcastInDim S8x1280x1376 ![] bcast_S_S8x1280x1376),
    TRef.binary main_call5.v4 main_call5.v3 main_call5.v5 Host.divf,
    TRef.binary (.of main_v26 : TRef sig ⟨S8x1280x1376, .f32⟩) main_call5.v5 main_call5.v6 mulf,
    binary main_v25 main_arg4 main_v28 ((fun l r => Host.dotGeneral dot_S8x1280x2048_S8x2048x1376_S8x1280x1376_2_1_1_2_0_0 none l r) : (⟨S8x1280x2048, .f32⟩ : BufTy).Contents (Elt F) → (⟨S8x2048x1376, .f32⟩ : BufTy).Contents (Elt F) → (⟨S8x1280x1376, .f32⟩ : BufTy).Contents (Elt F)),
    binary main_v27 main_v28 main_v29 (mulf : (⟨S8x1280x1376, .f32⟩ : BufTy).Contents (Elt F) → (⟨S8x1280x1376, .f32⟩ : BufTy).Contents (Elt F) → (⟨S8x1280x1376, .f32⟩ : BufTy).Contents (Elt F)),
    binary main_v29 main_arg5 main_v30 ((fun l r => Host.dotGeneral dot_S8x1280x1376_S8x1376x2048_S8x1280x2048_2_1_1_2_0_0 none l r) : (⟨S8x1280x1376, .f32⟩ : BufTy).Contents (Elt F) → (⟨S8x1376x2048, .f32⟩ : BufTy).Contents (Elt F) → (⟨S8x1280x2048, .f32⟩ : BufTy).Contents (Elt F)),
    reshape main_v30 main_v31 rfl shapeCasts_S8x1280x2048_S10240x2048,
    nullary main_cst_6 (constant S_ .f32 0x00000000#32),
    unary main_cst_6 main_v32 (broadcastInDim S1x2048 ![] bcast_S_S1x2048 : (⟨S_, .f32⟩ : BufTy).Contents (Elt F) → (⟨S1x2048, .f32⟩ : BufTy).Contents (Elt F)),
    binary main_v31 main_v32 main_v33 ((fun a b => concatenate S10241x2048 0 [⟨S10240x2048, a⟩, ⟨S1x2048, b⟩] concatenates_S10240x2048_S1x2048_S10241x2048_d0) : (⟨S10240x2048, .f32⟩ : BufTy).Contents (Elt F) → (⟨S1x2048, .f32⟩ : BufTy).Contents (Elt F) → (⟨S10241x2048, .f32⟩ : BufTy).Contents (Elt F)),
    nullary main_c_7 (constantI S_ 32 0#32),
    unary main_c_7 main_v34 (broadcastInDim S8192 ![] bcast_S_S8192 : (⟨S_, .i32⟩ : BufTy).Contents (Elt F) → (⟨S8192, .i32⟩ : BufTy).Contents (Elt F)),
    binary main_v12 main_v34 main_v35 (cmpi .slt : (⟨S8192, .i32⟩ : BufTy).Contents (Elt F) → (⟨S8192, .i32⟩ : BufTy).Contents (Elt F) → (⟨S8192, .i1⟩ : BufTy).Contents (Elt F)),
    nullary main_c_8 (constantI S_ 32 10241#32),
    unary main_c_8 main_v36 (broadcastInDim S8192 ![] bcast_S_S8192 : (⟨S_, .i32⟩ : BufTy).Contents (Elt F) → (⟨S8192, .i32⟩ : BufTy).Contents (Elt F)),
    binary main_v12 main_v36 main_v37 (addi : (⟨S8192, .i32⟩ : BufTy).Contents (Elt F) → (⟨S8192, .i32⟩ : BufTy).Contents (Elt F) → (⟨S8192, .i32⟩ : BufTy).Contents (Elt F)),
    ternary main_v35 main_v37 main_v12 main_v38 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v38 main_v39 (broadcastInDim S8192x1 ![0] bcast_S8192_S8192x1_0 : (⟨S8192, .i32⟩ : BufTy).Contents (Elt F) → (⟨S8192x1, .i32⟩ : BufTy).Contents (Elt F)),
    binary main_v33 main_v39 main_v40 ((fun x i => Host.gather gather_S10241x2048_S8192x1_S8192x2048_1_0_n_n_0_1_12048 x i) : (⟨S10241x2048, .f32⟩ : BufTy).Contents (Elt F) → (⟨S8192x1, .i32⟩ : BufTy).Contents (Elt F) → (⟨S8192x2048, .f32⟩ : BufTy).Contents (Elt F)),
    unary main_v8 main_v41 (broadcastInDim S8192x1 ![0] bcast_S8192_S8192x1_0 : (⟨S8192, .i1⟩ : BufTy).Contents (Elt F) → (⟨S8192x1, .i1⟩ : BufTy).Contents (Elt F)),
    unary main_v41 main_v42 (uitofp .f32 : (⟨S8192x1, .i1⟩ : BufTy).Contents (Elt F) → (⟨S8192x1, .f32⟩ : BufTy).Contents (Elt F)),
    unary main_v42 main_v43 (broadcastInDim S8192x2048 ![0, 1] bcast_S8192x1_S8192x2048_0_1 : (⟨S8192x1, .f32⟩ : BufTy).Contents (Elt F) → (⟨S8192x2048, .f32⟩ : BufTy).Contents (Elt F)),
    binary main_v40 main_v43 main_v44 (mulf : (⟨S8192x2048, .f32⟩ : BufTy).Contents (Elt F) → (⟨S8192x2048, .f32⟩ : BufTy).Contents (Elt F) → (⟨S8192x2048, .f32⟩ : BufTy).Contents (Elt F)),
    unary main_arg2 main_v45 (broadcastInDim S8192x1 ![0] bcast_S8192_S8192x1_0 : (⟨S8192, .f32⟩ : BufTy).Contents (Elt F) → (⟨S8192x1, .f32⟩ : BufTy).Contents (Elt F)),
    nullary main_cst_9 (constant S_ .f32 0x3F800000#32),
    unary main_cst_9 main_v46 (broadcastInDim S8192x1 ![] bcast_S_S8192x1 : (⟨S_, .f32⟩ : BufTy).Contents (Elt F) → (⟨S8192x1, .f32⟩ : BufTy).Contents (Elt F)),
    binary main_v45 main_v46 main_v47 (mulf : (⟨S8192x1, .f32⟩ : BufTy).Contents (Elt F) → (⟨S8192x1, .f32⟩ : BufTy).Contents (Elt F) → (⟨S8192x1, .f32⟩ : BufTy).Contents (Elt F)),
    unary main_v47 main_v48 (broadcastInDim S8192x2048 ![0, 1] bcast_S8192x1_S8192x2048_0_1 : (⟨S8192x1, .f32⟩ : BufTy).Contents (Elt F) → (⟨S8192x2048, .f32⟩ : BufTy).Contents (Elt F)),
    binary main_v44 main_v48 main_v49 (mulf : (⟨S8192x2048, .f32⟩ : BufTy).Contents (Elt F) → (⟨S8192x2048, .f32⟩ : BufTy).Contents (Elt F) → (⟨S8192x2048, .f32⟩ : BufTy).Contents (Elt F)) ]

-- 101 binds re-associated: the rewrite under the chain recurses once per statement
set_option maxRecDepth 8192 in
set_option maxHeartbeats 1000000 in
/-- @main is that straight line: the functions' definitions unfolded at their calls and the records at their
    fields, both sides are one chain of steps once sequencing is reassociated. -/
theorem main_eq [Cert.ReferenceIdeal.Facts] (c : Dev nD) : main (F := F) c = seq ops := by
  simp only [main, main_part0, main_part1, fn_one_hot.body, fn_cumsum.body, fn_cumsum_0.body, fn_take_along_axis.body,
    fn_where.body, fn_where_1.body, fn_silu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation touches TensorCore buffers only. -/
theorem ops_sub [Cert.ReferenceIdeal.Facts] : (ops : List (HloOp τ sig (Elt F))).Forall fun op => op.bufs ⊆ tcRefs τ sig :=
  ⟨unary_bufs_sub .., nullary_bufs_sub .., unary_bufs_sub .., unary_bufs_sub .., binary_bufs_sub .., unary_bufs_sub ..,
    nullary_bufs_sub .., unary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., ternary_bufs_sub .., reshape_bufs_sub .., nullary_bufs_sub .., nullary_bufs_sub .., unary_bufs_sub ..,
    binary_bufs_sub .., unary_bufs_sub .., unary_bufs_sub .., binary_bufs_sub .., binary_bufs_sub .., nullary_bufs_sub ..,
    binary_bufs_sub .., binary_bufs_sub .., nullary_bufs_sub .., unary_bufs_sub .., ternary_bufs_sub .., reshape_bufs_sub ..,
    nullary_bufs_sub .., unary_bufs_sub .., binary_bufs_sub .., nullary_bufs_sub .., unary_bufs_sub .., binary_bufs_sub ..,
    binary_bufs_sub .., nullary_bufs_sub .., unary_bufs_sub .., unary_bufs_sub .., ternary_bufs_sub .., nullary_bufs_sub ..,
    unary_bufs_sub .., unary_bufs_sub .., nullary_bufs_sub .., unary_bufs_sub .., unary_bufs_sub .., ternary_bufs_sub ..,
    nullary_bufs_sub .., unary_bufs_sub .., binary_bufs_sub .., nullary_bufs_sub .., unary_bufs_sub .., binary_bufs_sub ..,
    ternary_bufs_sub .., unary_bufs_sub .., ternary_bufs_sub .., unary_bufs_sub .., reshape_bufs_sub .., binary_bufs_sub ..,
    unary_bufs_sub .., unary_bufs_sub .., nullary_bufs_sub .., unary_bufs_sub .., binary_bufs_sub .., nullary_bufs_sub ..,
    unary_bufs_sub .., binary_bufs_sub .., binary_bufs_sub .., binary_bufs_sub .., binary_bufs_sub .., binary_bufs_sub ..,
    reshape_bufs_sub .., nullary_bufs_sub .., unary_bufs_sub .., binary_bufs_sub .., nullary_bufs_sub .., unary_bufs_sub ..,
    binary_bufs_sub .., nullary_bufs_sub .., unary_bufs_sub .., binary_bufs_sub .., ternary_bufs_sub .., unary_bufs_sub ..,
    binary_bufs_sub .., unary_bufs_sub .., unary_bufs_sub .., unary_bufs_sub .., binary_bufs_sub .., unary_bufs_sub ..,
    nullary_bufs_sub .., unary_bufs_sub .., binary_bufs_sub .., unary_bufs_sub .., binary_bufs_sub ..⟩

/-! ## The line in five stretches

The same 101 operations, cut where the stage functions are cut; the fold over the whole line is the folds over
the stretches in turn, so each stage is read off a short list. -/

/-- The routing's first stretch (39 operations): the one-hot table, its running column sums minus one, the read of
    each token's own column, the place in the expert's queue and the capacity test. -/
def seg1 [Cert.ReferenceIdeal.Facts] : List (HloOp τ sig (Elt F)) :=
  [ TRef.unary (.of main_arg1 : TRef sig ⟨S8192, .i32⟩) main_call0.v0 (broadcastInDim S8192x1 ![0] bcast_S8192_S8192x1_0),
    TRef.nullary main_call0.v1 (iotaInDim S1x8 32 1),
    TRef.unary main_call0.v0 main_call0.v2 (broadcastInDim S8192x8 ![0, 1] bcast_S8192x1_S8192x8_0_1),
    TRef.unary main_call0.v1 main_call0.v3 (broadcastInDim S8192x8 ![0, 1] bcast_S1x8_S8192x8_0_1),
    TRef.binary main_call0.v2 main_call0.v3 main_call0.v4 (cmpi .eq),
    TRef.unary main_call0.v4 main_call0.v5 (extui 32 · natLt_1_32),
    TRef.nullary main_call1.call0.c (constantI S_ 32 0#32),
    TRef.unary main_call1.call0.c main_call1.call0.v0 (broadcastInDim S_ ![] bcast_S_S_),
    TRef.binary (.of main_v0 : TRef sig ⟨S8192x8, .i32⟩) main_call1.call0.v0 main_call1.call0.v1 (fun x v => Host.reduceWindow IntOp.addi ![8192, 1] ![1, 1] ![8191, 0] ![0, 0] x v reduceWindows_S8192x8_S8192x8_w8192s1p8191_0_w1s1p0_0 h_S_),
    nullary main_c (constantI S_ 32 1#32),
    unary main_c main_v2 (broadcastInDim S8192x8 ![] bcast_S_S8192x8 : (⟨S_, .i32⟩ : BufTy).Contents (Elt F) → (⟨S8192x8, .i32⟩ : BufTy).Contents (Elt F)),
    binary main_v1 main_v2 main_v3 (subi : (⟨S8192x8, .i32⟩ : BufTy).Contents (Elt F) → (⟨S8192x8, .i32⟩ : BufTy).Contents (Elt F) → (⟨S8192x8, .i32⟩ : BufTy).Contents (Elt F)),
    unary main_arg1 main_v4 (broadcastInDim S8192x1 ![0] bcast_S8192_S8192x1_0 : (⟨S8192, .i32⟩ : BufTy).Contents (Elt F) → (⟨S8192x1, .i32⟩ : BufTy).Contents (Elt F)),
    TRef.nullary main_call2.c (constantI S_ 32 0#32),
    TRef.unary main_call2.c main_call2.v0 (broadcastInDim S8192x1 ![] bcast_S_S8192x1),
    TRef.binary (.of main_v4 : TRef sig ⟨S8192x1, .i32⟩) main_call2.v0 main_call2.v1 (cmpi .slt),
    TRef.nullary main_call2.c_0 (constantI S_ 32 8#32),
    TRef.unary main_call2.c_0 main_call2.v2 (broadcastInDim S8192x1 ![] bcast_S_S8192x1),
    TRef.binary (.of main_v4 : TRef sig ⟨S8192x1, .i32⟩) main_call2.v2 main_call2.v3 addi,
    TRef.ternary main_call2.v1 main_call2.v3 (.of main_v4 : TRef sig ⟨S8192x1, .i32⟩) main_call2.v4 select,
    TRef.reshape main_call2.v4 main_call2.v5 rfl shapeCasts_S8192x1_S8192x1x1,
    TRef.nullary main_call2.c_1 (constantI S1 32 7#32),
    TRef.nullary main_call2.c_2 (constantI S_ 32 0#32),
    TRef.unary main_call2.c_2 main_call2.v6 (broadcastInDim S8192x1x1 ![] bcast_S_S8192x1x1),
    TRef.binary main_call2.v5 main_call2.v6 main_call2.v7 (cmpi .sge),
    TRef.unary main_call2.c_1 main_call2.v8 (broadcastInDim S1x1x1 ![2] bcast_S1_S1x1x1_2),
    TRef.unary main_call2.v8 main_call2.v9 (broadcastInDim S8192x1x1 ![0, 1, 2] bcast_S1x1x1_S8192x1x1_0_1_2),
    TRef.binary main_call2.v5 main_call2.v9 main_call2.v10 (cmpi .sle),
    TRef.binary main_call2.v7 main_call2.v10 main_call2.v11 andi,
    TRef.nullary main_call2.c_3 (constantI S_ 1 1#1),
    TRef.binary main_call2.v11 main_call2.c_3 main_call2.v12 (fun x v => Host.reduce IntOp.andi x v reducesTo_S8192x1x1_S8192x1_d2 h_S_),
    TRef.binary (.of main_v3 : TRef sig ⟨S8192x8, .i32⟩) main_call2.v5 main_call2.v13 (fun x i => Host.gather gather_S8192x8_S8192x1x1_S8192x1_n_1_0_0_1_2_11 x i),
    TRef.nullary main_call2.c_4 (constantI S_ 32 2147483648#32),
    TRef.unary main_call2.c_4 main_call2.v14 (broadcastInDim S8192x1 ![] bcast_S_S8192x1),
    TRef.ternary main_call2.v12 main_call2.v13 main_call2.v14 main_call2.v15 select,
    reshape main_v5 main_v6 rfl shapeCasts_S8192x1_S8192,
    nullary main_c_0 (constantI S_ 32 1280#32),
    unary main_c_0 main_v7 (broadcastInDim S8192 ![] bcast_S_S8192 : (⟨S_, .i32⟩ : BufTy).Contents (Elt F) → (⟨S8192, .i32⟩ : BufTy).Contents (Elt F)),
    binary main_v6 main_v7 main_v8 (cmpi .slt : (⟨S8192, .i32⟩ : BufTy).Contents (Elt F) → (⟨S8192, .i32⟩ : BufTy).Contents (Elt F) → (⟨S8192, .i1⟩ : BufTy).Contents (Elt F)) ]

/-- The row of a token (8 operations): expert times capacity plus the place, the spare row for a dropped token. -/
def seg2 [Cert.ReferenceIdeal.Facts] : List (HloOp τ sig (Elt F)) :=
  [ nullary main_c_1 (constantI S_ 32 1280#32),
    unary main_c_1 main_v9 (broadcastInDim S8192 ![] bcast_S_S8192 : (⟨S_, .i32⟩ : BufTy).Contents (Elt F) → (⟨S8192, .i32⟩ : BufTy).Contents (Elt F)),
    binary main_arg1 main_v9 main_v10 (muli : (⟨S8192, .i32⟩ : BufTy).Contents (Elt F) → (⟨S8192, .i32⟩ : BufTy).Contents (Elt F) → (⟨S8192, .i32⟩ : BufTy).Contents (Elt F)),
    binary main_v10 main_v6 main_v11 (addi : (⟨S8192, .i32⟩ : BufTy).Contents (Elt F) → (⟨S8192, .i32⟩ : BufTy).Contents (Elt F) → (⟨S8192, .i32⟩ : BufTy).Contents (Elt F)),
    nullary main_c_2 (constantI S_ 32 10240#32),
    TRef.unary (.of main_c_2 : TRef sig ⟨S_, .i32⟩) main_call3.v0 id,
    TRef.unary main_call3.v0 main_call3.v1 (broadcastInDim S8192 ![] bcast_S_S8192),
    TRef.ternary (.of main_v8 : TRef sig ⟨S8192, .i1⟩) (.of main_v11 : TRef sig ⟨S8192, .i32⟩) main_call3.v1 main_call3.v2 select ]

/-- Dispatch (18 operations): the rows of the kept tokens scattered at their (wrapped) rows into zeros, the first
    10240 rows cut into eight experts' blocks. -/
def seg3 [Cert.ReferenceIdeal.Facts] : List (HloOp τ sig (Elt F)) :=
  [ nullary main_cst (constant S_ .f32 0x00000000#32),
    unary main_cst main_v13 (broadcastInDim S10241x2048 ![] bcast_S_S10241x2048 : (⟨S_, .f32⟩ : BufTy).Contents (Elt F) → (⟨S10241x2048, .f32⟩ : BufTy).Contents (Elt F)),
    unary main_v8 main_v14 (broadcastInDim S8192x1 ![0] bcast_S8192_S8192x1_0 : (⟨S8192, .i1⟩ : BufTy).Contents (Elt F) → (⟨S8192x1, .i1⟩ : BufTy).Contents (Elt F)),
    nullary main_cst_3 (constant S_ .f32 0x00000000#32),
    unary main_cst_3 main_v15 (broadcastInDim S8192x2048 ![] bcast_S_S8192x2048 : (⟨S_, .f32⟩ : BufTy).Contents (Elt F) → (⟨S8192x2048, .f32⟩ : BufTy).Contents (Elt F)),
    TRef.unary (.of main_v14 : TRef sig ⟨S8192x1, .i1⟩) main_call4.v0 (broadcastInDim S8192x2048 ![0, 1] bcast_S8192x1_S8192x2048_0_1),
    TRef.ternary main_call4.v0 (.of main_arg0 : TRef sig ⟨S8192x2048, .f32⟩) (.of main_v15 : TRef sig ⟨S8192x2048, .f32⟩) main_call4.v1 select,
    nullary main_c_4 (constantI S_ 32 0#32),
    unary main_c_4 main_v17 (broadcastInDim S8192 ![] bcast_S_S8192 : (⟨S_, .i32⟩ : BufTy).Contents (Elt F) → (⟨S8192, .i32⟩ : BufTy).Contents (Elt F)),
    binary main_v12 main_v17 main_v18 (cmpi .slt : (⟨S8192, .i32⟩ : BufTy).Contents (Elt F) → (⟨S8192, .i32⟩ : BufTy).Contents (Elt F) → (⟨S8192, .i1⟩ : BufTy).Contents (Elt F)),
    nullary main_c_5 (constantI S_ 32 10241#32),
    unary main_c_5 main_v19 (broadcastInDim S8192 ![] bcast_S_S8192 : (⟨S_, .i32⟩ : BufTy).Contents (Elt F) → (⟨S8192, .i32⟩ : BufTy).Contents (Elt F)),
    binary main_v12 main_v19 main_v20 (addi : (⟨S8192, .i32⟩ : BufTy).Contents (Elt F) → (⟨S8192, .i32⟩ : BufTy).Contents (Elt F) → (⟨S8192, .i32⟩ : BufTy).Contents (Elt F)),
    ternary main_v18 main_v20 main_v12 main_v21 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v21 main_v22 (broadcastInDim S8192x1 ![0] bcast_S8192_S8192x1_0 : (⟨S8192, .i32⟩ : BufTy).Contents (Elt F) → (⟨S8192x1, .i32⟩ : BufTy).Contents (Elt F)),
    ternary main_v13 main_v22 main_v16 main_v23 ((fun x i u => Host.scatter scatter_S10241x2048_S8192x1_S8192x2048_1_0_0_1 (fun _ b => b) x i u) : (⟨S10241x2048, .f32⟩ : BufTy).Contents (Elt F) → (⟨S8192x1, .i32⟩ : BufTy).Contents (Elt F) → (⟨S8192x2048, .f32⟩ : BufTy).Contents (Elt F) → (⟨S10241x2048, .f32⟩ : BufTy).Contents (Elt F)),
    unary main_v23 main_v24 ((extractStridedSlice S10240x2048 ![0, 0] · slices_S10241x2048_S10240x2048_0_0) : (⟨S10241x2048, .f32⟩ : BufTy).Contents (Elt F) → (⟨S10240x2048, .f32⟩ : BufTy).Contents (Elt F)),
    reshape main_v24 main_v25 rfl shapeCasts_S10240x2048_S8x1280x2048 ]

/-- The expert layer (13 operations): the gate product, its sigmoid-weighted unit, the up product, the product of
    the two and the down product. -/
def seg4 [Cert.ReferenceIdeal.Facts] : List (HloOp τ sig (Elt F)) :=
  [ binary main_v25 main_arg3 main_v26 ((fun l r => Host.dotGeneral dot_S8x1280x2048_S8x2048x1376_S8x1280x1376_2_1_1_2_0_0 none l r) : (⟨S8x1280x2048, .f32⟩ : BufTy).Contents (Elt F) → (⟨S8x2048x1376, .f32⟩ : BufTy).Contents (Elt F) → (⟨S8x1280x1376, .f32⟩ : BufTy).Contents (Elt F)),
    TRef.unary (.of main_v26 : TRef sig ⟨S8x1280x1376, .f32⟩) main_call5.v0 Host.negf,
    TRef.unary main_call5.v0 main_call5.v1 Host.exp,
    TRef.nullary main_call5.cst (constant S_ .f32 0x3F800000#32),
    TRef.unary main_call5.cst main_call5.v2 (broadcastInDim S8x1280x1376 ![] bcast_S_S8x1280x1376),
    TRef.binary main_call5.v2 main_call5.v1 main_call5.v3 addf,
    TRef.nullary main_call5.cst_0 (constant S_ .f32 0x3F800000#32),
    TRef.unary main_call5.cst_0 main_call5.v4 (broadcastInDim S8x1280x1376 ![] bcast_S_S8x1280x1376),
    TRef.binary main_call5.v4 main_call5.v3 main_call5.v5 Host.divf,
    TRef.binary (.of main_v26 : TRef sig ⟨S8x1280x1376, .f32⟩) main_call5.v5 main_call5.v6 mulf,
    binary main_v25 main_arg4 main_v28 ((fun l r => Host.dotGeneral dot_S8x1280x2048_S8x2048x1376_S8x1280x1376_2_1_1_2_0_0 none l r) : (⟨S8x1280x2048, .f32⟩ : BufTy).Contents (Elt F) → (⟨S8x2048x1376, .f32⟩ : BufTy).Contents (Elt F) → (⟨S8x1280x1376, .f32⟩ : BufTy).Contents (Elt F)),
    binary main_v27 main_v28 main_v29 (mulf : (⟨S8x1280x1376, .f32⟩ : BufTy).Contents (Elt F) → (⟨S8x1280x1376, .f32⟩ : BufTy).Contents (Elt F) → (⟨S8x1280x1376, .f32⟩ : BufTy).Contents (Elt F)),
    binary main_v29 main_arg5 main_v30 ((fun l r => Host.dotGeneral dot_S8x1280x1376_S8x1376x2048_S8x1280x2048_2_1_1_2_0_0 none l r) : (⟨S8x1280x1376, .f32⟩ : BufTy).Contents (Elt F) → (⟨S8x1376x2048, .f32⟩ : BufTy).Contents (Elt F) → (⟨S8x1280x2048, .f32⟩ : BufTy).Contents (Elt F)) ]

/-- Combine (23 operations): the rows flattened, a zero row appended, each token's (wrapped) row read back, times
    the capacity test as 0 or 1, times the score. -/
def seg5 [Cert.ReferenceIdeal.Facts] : List (HloOp τ sig (Elt F)) :=
  [ reshape main_v30 main_v31 rfl shapeCasts_S8x1280x2048_S10240x2048,
    nullary main_cst_6 (constant S_ .f32 0x00000000#32),
    unary main_cst_6 main_v32 (broadcastInDim S1x2048 ![] bcast_S_S1x2048 : (⟨S_, .f32⟩ : BufTy).Contents (Elt F) → (⟨S1x2048, .f32⟩ : BufTy).Contents (Elt F)),
    binary main_v31 main_v32 main_v33 ((fun a b => concatenate S10241x2048 0 [⟨S10240x2048, a⟩, ⟨S1x2048, b⟩] concatenates_S10240x2048_S1x2048_S10241x2048_d0) : (⟨S10240x2048, .f32⟩ : BufTy).Contents (Elt F) → (⟨S1x2048, .f32⟩ : BufTy).Contents (Elt F) → (⟨S10241x2048, .f32⟩ : BufTy).Contents (Elt F)),
    nullary main_c_7 (constantI S_ 32 0#32),
    unary main_c_7 main_v34 (broadcastInDim S8192 ![] bcast_S_S8192 : (⟨S_, .i32⟩ : BufTy).Contents (Elt F) → (⟨S8192, .i32⟩ : BufTy).Contents (Elt F)),
    binary main_v12 main_v34 main_v35 (cmpi .slt : (⟨S8192, .i32⟩ : BufTy).Contents (Elt F) → (⟨S8192, .i32⟩ : BufTy).Contents (Elt F) → (⟨S8192, .i1⟩ : BufTy).Contents (Elt F)),
    nullary main_c_8 (constantI S_ 32 10241#32),
    unary main_c_8 main_v36 (broadcastInDim S8192 ![] bcast_S_S8192 : (⟨S_, .i32⟩ : BufTy).Contents (Elt F) → (⟨S8192, .i32⟩ : BufTy).Contents (Elt F)),
    binary main_v12 main_v36 main_v37 (addi : (⟨S8192, .i32⟩ : BufTy).Contents (Elt F) → (⟨S8192, .i32⟩ : BufTy).Contents (Elt F) → (⟨S8192, .i32⟩ : BufTy).Contents (Elt F)),
    ternary main_v35 main_v37 main_v12 main_v38 (select : (⟨S8192, .i1⟩ : BufTy).Contents (Elt F) → (⟨S8192, .i32⟩ : BufTy).Contents (Elt F) → (⟨S8192, .i32⟩ : BufTy).Contents (Elt F) → (⟨S8192, .i32⟩ : BufTy).Contents (Elt F)),
    unary main_v38 main_v39 (broadcastInDim S8192x1 ![0] bcast_S8192_S8192x1_0 : (⟨S8192, .i32⟩ : BufTy).Contents (Elt F) → (⟨S8192x1, .i32⟩ : BufTy).Contents (Elt F)),
    binary main_v33 main_v39 main_v40 ((fun x i => Host.gather gather_S10241x2048_S8192x1_S8192x2048_1_0_n_n_0_1_12048 x i) : (⟨S10241x2048, .f32⟩ : BufTy).Contents (Elt F) → (⟨S8192x1, .i32⟩ : BufTy).Contents (Elt F) → (⟨S8192x2048, .f32⟩ : BufTy).Contents (Elt F)),
    unary main_v8 main_v41 (broadcastInDim S8192x1 ![0] bcast_S8192_S8192x1_0 : (⟨S8192, .i1⟩ : BufTy).Contents (Elt F) → (⟨S8192x1, .i1⟩ : BufTy).Contents (Elt F)),
    unary main_v41 main_v42 (uitofp .f32 : (⟨S8192x1, .i1⟩ : BufTy).Contents (Elt F) → (⟨S8192x1, .f32⟩ : BufTy).Contents (Elt F)),
    unary main_v42 main_v43 (broadcastInDim S8192x2048 ![0, 1] bcast_S8192x1_S8192x2048_0_1 : (⟨S8192x1, .f32⟩ : BufTy).Contents (Elt F) → (⟨S8192x2048, .f32⟩ : BufTy).Contents (Elt F)),
    binary main_v40 main_v43 main_v44 (mulf : (⟨S8192x2048, .f32⟩ : BufTy).Contents (Elt F) → (⟨S8192x2048, .f32⟩ : BufTy).Contents (Elt F) → (⟨S8192x2048, .f32⟩ : BufTy).Contents (Elt F)),
    unary main_arg2 main_v45 (broadcastInDim S8192x1 ![0] bcast_S8192_S8192x1_0 : (⟨S8192, .f32⟩ : BufTy).Contents (Elt F) → (⟨S8192x1, .f32⟩ : BufTy).Contents (Elt F)),
    nullary main_cst_9 (constant S_ .f32 0x3F800000#32),
    unary main_cst_9 main_v46 (broadcastInDim S8192x1 ![] bcast_S_S8192x1 : (⟨S_, .f32⟩ : BufTy).Contents (Elt F) → (⟨S8192x1, .f32⟩ : BufTy).Contents (Elt F)),
    binary main_v45 main_v46 main_v47 (mulf : (⟨S8192x1, .f32⟩ : BufTy).Contents (Elt F) → (⟨S8192x1, .f32⟩ : BufTy).Contents (Elt F) → (⟨S8192x1, .f32⟩ : BufTy).Contents (Elt F)),
    unary main_v47 main_v48 (broadcastInDim S8192x2048 ![0, 1] bcast_S8192x1_S8192x2048_0_1 : (⟨S8192x1, .f32⟩ : BufTy).Contents (Elt F) → (⟨S8192x2048, .f32⟩ : BufTy).Contents (Elt F)),
    binary main_v44 main_v48 main_v49 (mulf : (⟨S8192x2048, .f32⟩ : BufTy).Contents (Elt F) → (⟨S8192x2048, .f32⟩ : BufTy).Contents (Elt F) → (⟨S8192x2048, .f32⟩ : BufTy).Contents (Elt F)) ]

/-- The fold over two lists run one after the other is the second's over the first's. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

attribute [local irreducible] Host.reduce Host.reduceWindow Host.gather Host.scatter concatenate

/-! ### What each stretch computes, from any contents `W` -/

set_option maxRecDepth 8192 in
set_option maxHeartbeats 1000000 in
theorem seg1_rank [Cert.KernelIdeal.Facts] [Cert.ReferenceIdeal.Facts] (W : Valuation τ sig (Elt F)) :
    after seg1 W (main_v6 : DevRef τ sig) = Cert.Moe.rank (W (main_arg1 : DevRef τ sig)) := by
  unfold seg1
  after_results_simp
  rfl

set_option maxRecDepth 8192 in
set_option maxHeartbeats 1000000 in
theorem seg1_keep [Cert.KernelIdeal.Facts] [Cert.ReferenceIdeal.Facts] (W : Valuation τ sig (Elt F)) :
    after seg1 W (main_v8 : DevRef τ sig) = Cert.Moe.keep (W (main_arg1 : DevRef τ sig)) := by
  unfold seg1
  after_results_simp
  rfl

/-- The row from the capacity test, the expert and the place: `slot` with its two inner stages named. -/
def slotOf (kp : IVec S8192 1) (idx rk : IVec S8192 32) : IVec S8192 32 :=
  select kp (addi (muli idx (broadcastInDim S8192 ![] bcast_S_S8192 (constantI S_ 32 1280#32))) rk)
    (broadcastInDim S8192 ![] bcast_S_S8192 (id (constantI S_ 32 10240#32)))

theorem slot_eq [Cert.KernelIdeal.Facts] (idx : IVec S8192 32) :
    Cert.Moe.slot idx = slotOf (Cert.Moe.keep idx) idx (Cert.Moe.rank idx) := rfl

set_option maxRecDepth 8192 in
theorem seg2_slot [Cert.ReferenceIdeal.Facts] (W : Valuation τ sig (Elt F)) :
    after seg2 W (main_v12 : DevRef τ sig) = slotOf (W (main_v8 : DevRef τ sig)) (W (main_arg1 : DevRef τ sig)) (W (main_v6 : DevRef τ sig)) := by
  unfold seg2
  after_results_simp
  rfl

set_option maxRecDepth 8192 in
set_option maxHeartbeats 1000000 in
theorem seg3_dispatch [Cert.KernelIdeal.Facts] [Cert.ReferenceIdeal.Facts] (W : Valuation τ sig (Elt F)) :
    after seg3 W (main_v25 : DevRef τ sig) = Cert.Moe.dispatchR (W (main_arg0 : DevRef τ sig)) (W (main_v8 : DevRef τ sig)) (W (main_v12 : DevRef τ sig)) := by
  unfold seg3
  after_results_simp
  rfl

set_option maxRecDepth 8192 in
set_option maxHeartbeats 1000000 in
theorem seg4_mlp [Cert.KernelIdeal.Facts] [Cert.ReferenceIdeal.Facts] (W : Valuation τ sig (Elt F)) :
    after seg4 W (main_v30 : DevRef τ sig)
      = Cert.Moe.mlp (W (main_v25 : DevRef τ sig)) (W (main_arg3 : DevRef τ sig)) (W (main_arg4 : DevRef τ sig)) (W (main_arg5 : DevRef τ sig)) := by
  unfold seg4
  after_results_simp
  rfl

set_option maxRecDepth 8192 in
set_option maxHeartbeats 1000000 in
theorem seg5_combine [Cert.KernelIdeal.Facts] [Cert.ReferenceIdeal.Facts] (W : Valuation τ sig (Elt F)) :
    after seg5 W (main_v49 : DevRef τ sig)
      = Cert.Moe.combineR (W (main_v30 : DevRef τ sig)) (W (main_v8 : DevRef τ sig)) (W (main_v12 : DevRef τ sig)) (W (main_arg2 : DevRef τ sig)) := by
  unfold seg5
  after_results_simp
  rfl

/-! ### What each stretch leaves alone -/

theorem seg1_main_arg0 [Cert.ReferenceIdeal.Facts] (W : Valuation τ sig (Elt F)) :
    after seg1 W (main_arg0 : DevRef τ sig) = W (main_arg0 : DevRef τ sig) := by
  unfold seg1
  after_results_simp

theorem seg1_main_arg1 [Cert.ReferenceIdeal.Facts] (W : Valuation τ sig (Elt F)) :
    after seg1 W (main_arg1 : DevRef τ sig) = W (main_arg1 : DevRef τ sig) := by
  unfold seg1
  after_results_simp

theorem seg1_main_arg2 [Cert.ReferenceIdeal.Facts] (W : Valuation τ sig (Elt F)) :
    after seg1 W (main_arg2 : DevRef τ sig) = W (main_arg2 : DevRef τ sig) := by
  unfold seg1
  after_results_simp

theorem seg1_main_arg3 [Cert.ReferenceIdeal.Facts] (W : Valuation τ sig (Elt F)) :
    after seg1 W (main_arg3 : DevRef τ sig) = W (main_arg3 : DevRef τ sig) := by
  unfold seg1
  after_results_simp

theorem seg1_main_arg4 [Cert.ReferenceIdeal.Facts] (W : Valuation τ sig (Elt F)) :
    after seg1 W (main_arg4 : DevRef τ sig) = W (main_arg4 : DevRef τ sig) := by
  unfold seg1
  after_results_simp

theorem seg1_main_arg5 [Cert.ReferenceIdeal.Facts] (W : Valuation τ sig (Elt F)) :
    after seg1 W (main_arg5 : DevRef τ sig) = W (main_arg5 : DevRef τ sig) := by
  unfold seg1
  after_results_simp

theorem seg2_main_v8 [Cert.ReferenceIdeal.Facts] (W : Valuation τ sig (Elt F)) :
    after seg2 W (main_v8 : DevRef τ sig) = W (main_v8 : DevRef τ sig) := by
  unfold seg2
  after_results_simp

theorem seg2_main_arg0 [Cert.ReferenceIdeal.Facts] (W : Valuation τ sig (Elt F)) :
    after seg2 W (main_arg0 : DevRef τ sig) = W (main_arg0 : DevRef τ sig) := by
  unfold seg2
  after_results_simp

theorem seg2_main_arg2 [Cert.ReferenceIdeal.Facts] (W : Valuation τ sig (Elt F)) :
    after seg2 W (main_arg2 : DevRef τ sig) = W (main_arg2 : DevRef τ sig) := by
  unfold seg2
  after_results_simp

theorem seg2_main_arg3 [Cert.ReferenceIdeal.Facts] (W : Valuation τ sig (Elt F)) :
    after seg2 W (main_arg3 : DevRef τ sig) = W (main_arg3 : DevRef τ sig) := by
  unfold seg2
  after_results_simp

theorem seg2_main_arg4 [Cert.ReferenceIdeal.Facts] (W : Valuation τ sig (Elt F)) :
    after seg2 W (main_arg4 : DevRef τ sig) = W (main_arg4 : DevRef τ sig) := by
  unfold seg2
  after_results_simp

theorem seg2_main_arg5 [Cert.ReferenceIdeal.Facts] (W : Valuation τ sig (Elt F)) :
    after seg2 W (main_arg5 : DevRef τ sig) = W (main_arg5 : DevRef τ sig) := by
  unfold seg2
  after_results_simp

theorem seg3_main_v8 [Cert.ReferenceIdeal.Facts] (W : Valuation τ sig (Elt F)) :
    after seg3 W (main_v8 : DevRef τ sig) = W (main_v8 : DevRef τ sig) := by
  unfold seg3
  after_results_simp

theorem seg3_main_v12 [Cert.ReferenceIdeal.Facts] (W : Valuation τ sig (Elt F)) :
    after seg3 W (main_v12 : DevRef τ sig) = W (main_v12 : DevRef τ sig) := by
  unfold seg3
  after_results_simp

theorem seg3_main_arg2 [Cert.ReferenceIdeal.Facts] (W : Valuation τ sig (Elt F)) :
    after seg3 W (main_arg2 : DevRef τ sig) = W (main_arg2 : DevRef τ sig) := by
  unfold seg3
  after_results_simp

theorem seg3_main_arg3 [Cert.ReferenceIdeal.Facts] (W : Valuation τ sig (Elt F)) :
    after seg3 W (main_arg3 : DevRef τ sig) = W (main_arg3 : DevRef τ sig) := by
  unfold seg3
  after_results_simp

theorem seg3_main_arg4 [Cert.ReferenceIdeal.Facts] (W : Valuation τ sig (Elt F)) :
    after seg3 W (main_arg4 : DevRef τ sig) = W (main_arg4 : DevRef τ sig) := by
  unfold seg3
  after_results_simp

theorem seg3_main_arg5 [Cert.ReferenceIdeal.Facts] (W : Valuation τ sig (Elt F)) :
    after seg3 W (main_arg5 : DevRef τ sig) = W (main_arg5 : DevRef τ sig) := by
  unfold seg3
  after_results_simp

theorem seg4_main_v8 [Cert.ReferenceIdeal.Facts] (W : Valuation τ sig (Elt F)) :
    after seg4 W (main_v8 : DevRef τ sig) = W (main_v8 : DevRef τ sig) := by
  unfold seg4
  after_results_simp

theorem seg4_main_v12 [Cert.ReferenceIdeal.Facts] (W : Valuation τ sig (Elt F)) :
    after seg4 W (main_v12 : DevRef τ sig) = W (main_v12 : DevRef τ sig) := by
  unfold seg4
  after_results_simp

theorem seg4_main_arg2 [Cert.ReferenceIdeal.Facts] (W : Valuation τ sig (Elt F)) :
    after seg4 W (main_arg2 : DevRef τ sig) = W (main_arg2 : DevRef τ sig) := by
  unfold seg4
  after_results_simp

/-! ## The whole line -/

/-- The line is its five stretches in order. -/
theorem ops_split [Cert.ReferenceIdeal.Facts] :
    (ops : List (HloOp τ sig (Elt F))) = seg1 ++ (seg2 ++ (seg3 ++ (seg4 ++ seg5))) := rfl

/-- The result buffer after the line is the stage functions composed: the folds over the stretches in turn, each
    stretch's result and the buffers it leaves alone read through the lemmas above; `slot` is `slotOf` at
    `keep` and `rank` by unfolding. -/
theorem out_eq [Cert.KernelIdeal.Facts] [Cert.ReferenceIdeal.Facts] (V : Valuation τ sig (Elt F)) :
    after ops V (main_v49 : DevRef τ sig)
      = Cert.Moe.refOut (V (main_arg0 : DevRef τ sig)) (V (main_arg1 : DevRef τ sig)) (V (main_arg2 : DevRef τ sig)) (V (main_arg3 : DevRef τ sig)) (V (main_arg4 : DevRef τ sig)) (V (main_arg5 : DevRef τ sig)) := by
  rw [ops_split, after_append, after_append, after_append, after_append,
    seg5_combine,
    seg4_mlp, seg4_main_v8, seg4_main_v12, seg4_main_arg2,
    seg3_dispatch, seg3_main_v8, seg3_main_v12, seg3_main_arg2, seg3_main_arg3, seg3_main_arg4, seg3_main_arg5,
    seg2_slot, seg2_main_v8, seg2_main_arg0, seg2_main_arg2, seg2_main_arg3, seg2_main_arg4, seg2_main_arg5,
    seg1_keep, seg1_rank, seg1_main_arg0, seg1_main_arg1, seg1_main_arg2, seg1_main_arg3, seg1_main_arg4, seg1_main_arg5,
    ← slot_eq]
  rfl

set_option maxRecDepth 8192 in
/-- No operation of the line writes argument 0. -/
theorem arg0_eq [Cert.ReferenceIdeal.Facts] (V : Valuation τ sig (Elt F)) :
    after ops V (main_arg0 : DevRef τ sig) = V (main_arg0 : DevRef τ sig) := by after_results_simp

set_option maxRecDepth 8192 in
/-- No operation of the line writes argument 1. -/
theorem arg1_eq [Cert.ReferenceIdeal.Facts] (V : Valuation τ sig (Elt F)) :
    after ops V (main_arg1 : DevRef τ sig) = V (main_arg1 : DevRef τ sig) := by after_results_simp

set_option maxRecDepth 8192 in
/-- No operation of the line writes argument 2. -/
theorem arg2_eq [Cert.ReferenceIdeal.Facts] (V : Valuation τ sig (Elt F)) :
    after ops V (main_arg2 : DevRef τ sig) = V (main_arg2 : DevRef τ sig) := by after_results_simp

set_option maxRecDepth 8192 in
/-- No operation of the line writes argument 3. -/
theorem arg3_eq [Cert.ReferenceIdeal.Facts] (V : Valuation τ sig (Elt F)) :
    after ops V (main_arg3 : DevRef τ sig) = V (main_arg3 : DevRef τ sig) := by after_results_simp

set_option maxRecDepth 8192 in
/-- No operation of the line writes argument 4. -/
theorem arg4_eq [Cert.ReferenceIdeal.Facts] (V : Valuation τ sig (Elt F)) :
    after ops V (main_arg4 : DevRef τ sig) = V (main_arg4 : DevRef τ sig) := by after_results_simp

set_option maxRecDepth 8192 in
/-- No operation of the line writes argument 5. -/
theorem arg5_eq [Cert.ReferenceIdeal.Facts] (V : Valuation τ sig (Elt F)) :
    after ops V (main_arg5 : DevRef τ sig) = V (main_arg5 : DevRef τ sig) := by after_results_simp

/-- On every device, for any float values, from any memory with zero counters: every weakly fair execution of
    @main terminates with the result buffer at the stage functions' composition over the arguments' launch
    contents, the arguments unchanged. -/
theorem run [Cert.KernelIdeal.Facts] [Cert.ReferenceIdeal.Facts] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v49) = Cert.Moe.refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v49).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefRun

end
-- ==== Proof.PreRange.lean ====
/-
  The expert indices are in range where the precondition holds.

  The precondition is a conjunction of one-bit words whose last conjunct is "every token's expert index `e` has
  `0 ≤ e` and `e < 8`, signed", spelt as the conjunction over all tokens (a reduction by `and` from `1`) of the
  two compares' conjunction.  A conjunction that is `1` has every conjunct `1`; a reduction by `and` that is `1`
  met only `1`s; and a signed compare that is `1` is the order of the signed values.
-/
import proofs.«105716_j74380243632186_2_alg».proof.Pre_finite_inputs
import Idealize.ShloMosaic.Lib.ReduceAll
import Idealize.ShloMosaic.Lib.ValueIdx

noncomputable section

namespace Cert.Moe

open Idealize.ShloMosaic

section PreRange
open Cert.Pre_finite_inputs Cert.Pre_finite_inputs.Facts
variable {F : FTy → Type} [FloatOps F] [Cert.Pre_finite_inputs.Facts]

/-- The last conjunct: over all tokens, `0 ≤ idx t` and `idx t < 8` as signed words. -/
def rangeAll (idx : IVec S8192 32) : IVec S_ 1 :=
  Host.reduce IntOp.andi
    (andi (cmpi .sge idx (broadcastInDim S8192 ![] bcast_S_S8192 (constantI S_ 32 0#32)))
      (cmpi .slt idx (broadcastInDim S8192 ![] bcast_S_S8192 (constantI S_ 32 8#32))))
    (constantI S_ 1 1#1) reducesTo_S8192_S_d0 h_S_

/-- The second half of the precondition's text is the conjunction of what came before with the range conjunct. -/
theorem part1_last (idx : IVec S8192 32) (wd : FVec F S8x1376x2048 .f32) (v13 : IVec S_ 1) (v16 : IVec S8x2048x1376 1)
    (j : S_.Idx) (h : fn_part1 (F := F) idx wd v13 v16 j = 1#1) : rangeAll idx j = 1#1 := by
  have h' : IntOp.andi _ (rangeAll idx j) = 1#1 := h
  exact (IntOp.andi_eq_one.1 h').2

/-- The range conjunct, token by token. -/
theorem range_of_rangeAll (idx : IVec S8192 32) (j : S_.Idx) (h : rangeAll idx j = 1#1) (t : S8192.Idx) :
    0 ≤ (idx t).toInt ∧ (idx t).toInt < 8 := by
  -- the scalar shape has one index
  haveI : Subsingleton S_.Idx := ⟨fun _ _ => funext fun d => d.elim0⟩
  have ht := Host.reduce_andi_all _ _ reducesTo_S8192_S_d0 h_S_ j h t
  have ht' : IntOp.andi (IntOp.cmpi .sge (idx t) 0#32) (IntOp.cmpi .slt (idx t) 8#32) = 1#1 := ht
  obtain ⟨hge, hlt⟩ := IntOp.andi_eq_one.1 ht'
  have e0 : (0#32 : BitVec 32).toInt = 0 := by decide
  have e8 : (8#32 : BitVec 32).toInt = 8 := by decide
  have hge' := IntOp.cmpi_sge.1 hge
  have hlt' := IntOp.cmpi_slt.1 hlt
  rw [e0] at hge'
  rw [e8] at hlt'
  exact ⟨hge', hlt'⟩

end PreRange

/-- where the precondition holds, every expert index is one of 0 … 7 -/
theorem idx_range_of_pre {F : FTy → Type} [FloatOps F] [Cert.Pre_finite_inputs.Facts]
    (x : FVec F Cert.Pre_finite_inputs.S8192x2048 .f32) (idx : IVec Cert.Pre_finite_inputs.S8192 32) (s : FVec F Cert.Pre_finite_inputs.S8192 .f32)
    (wg wu : FVec F Cert.Pre_finite_inputs.S8x2048x1376 .f32) (wd : FVec F Cert.Pre_finite_inputs.S8x1376x2048 .f32)
    (h : Cert.Pre_finite_inputs.fn (F := F) x idx s wg wu wd = fun _ => 1#1) :
    ∀ t : Cert.Pre_finite_inputs.S8192.Idx, 0 ≤ (idx t).toInt ∧ (idx t).toInt < 8 := by
  intro t
  have h0 : Cert.Pre_finite_inputs.fn (F := F) x idx s wg wu wd ValueIdx.ix0 = 1#1 := congrFun h ValueIdx.ix0
  have h1 : Cert.Pre_finite_inputs.fn_part1 (F := F) idx wd _ _ ValueIdx.ix0 = 1#1 := h0
  exact range_of_rangeAll idx ValueIdx.ix0 (part1_last idx wd _ _ ValueIdx.ix0 h1) t

end Cert.Moe

end
-- ==== Proof.Combine.lean ====
/-
  Combine, at the extended reals: the kernel's program and the reference agree entry by entry.

  Entry `(t, d)` of either result is (row read for token `t`, column `d`) · keep `t` (as 0 or 1) · score `t`.
  For a kept token the slot lies in `0 … 10239`: it is not negative, so neither program counts it from the end,
  and it is below both clamps' upper ends (`10239` and `10240`), so both read row `slot t`; that row of the
  `10240` rows followed by one zero row is the same row of the `10240` rows.  For a dropped token the keep
  factor is `0`, and in the extended reals `a · 0 = 0` for every `a` (the infinities included), so both
  products are `0` whichever rows were read.
-/
import proofs.«105716_j74380243632186_2_alg».proof.Proof.Stages
import Idealize.ShloMosaic.Lib.ValueIdx
import Idealize.ShloMosaic.Lib.ValueLayout
import Idealize.ShloMosaic.Lib.Pipeline.Value
import Idealize.ShloMosaic.Lib.IdealHost

noncomputable section

namespace Cert.Moe

open Idealize.ShloMosaic Idealize.ShloMosaic.ValueIdx

/-! ## Reading a row gather at an index -/

section Rows
variable {α : Type}

/-- The dimension numbers of "take whole rows": operand `[N, C]`, one start index per result row (`[R, 1]`, the index
    vector along axis 1), the row axis collapsed, the column axis an offset axis of the full width. -/
abbrev rowDims (N R C : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result element `(t, c)` of a row gather is the operand at row `idx[t, 0]`, read signed and clamped into
    `[0, N − 1]`, and column `c`. -/
theorem gather_rows_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (t : Fin R) (c : Fin C) :
    Host.gather (rowDims N R C wf) x idx (ix2 t c)
      = x (ix2 ⟨min (idx (ix2 t (0 : Fin 1))).toInt.toNat (N - 1), by omega⟩ c) := by
  unfold Host.gather
  congr 1
  funext a
  refine Fin.ext ?_
  match a with
  | ⟨0, _⟩ =>
    show (rowDims N R C wf).start (ix2 t c) idx 0 + (rowDims N R C wf).batchCoord (ix2 t c) 0
      + (rowDims N R C wf).offCoord (ix2 t c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowDims N R C wf).startIndexMap from List.mem_singleton.mpr rfl)]
    have hsi : (rowDims N R C wf).siIdx (ix2 t c) ⟨List.idxOf (0 : Fin 2) (rowDims N R C wf).startIndexMap,
        List.idxOf_lt_length_iff.2 (List.mem_singleton.mpr rfl)⟩ = ix2 t (0 : Fin 1) := by
      funext b; refine Fin.ext ?_
      match b with
      | ⟨0, _⟩ => rfl
      | ⟨1, _⟩ => rfl
    rw [hsi]
    rfl
  | ⟨1, _⟩ =>
    show (rowDims N R C wf).start (ix2 t c) idx 1 + (rowDims N R C wf).batchCoord (ix2 t c) 1
      + (rowDims N R C wf).offCoord (ix2 t c) 1 = _
    rw [GatherDims.batchCoord_eq_zero _ _ _ List.not_mem_nil]
    have hst : (rowDims N R C wf).start (ix2 t c) idx 1 = 0 := by
      unfold GatherDims.start
      rw [dif_neg (show ¬ (1 : Fin 2) ∈ (rowDims N R C wf).startIndexMap from
        (by decide : ¬ (1 : Fin 2) ∈ ([0] : List (Fin 2))))]
    rw [hst]
    simp only [Nat.add_zero, Nat.zero_add]
    unfold GatherDims.offCoord
    rw [dif_pos (show (1 : Fin 2) ∈ (rowDims N R C wf).sKept from
      (GatherDims.mem_sKept _ _).mpr ⟨(by decide : ¬ (1 : Fin 2) ∈ ([0] : List (Fin 2))), List.not_mem_nil⟩)]
    rfl

end Rows

/-! ## The factors and the index column at an index -/

section Factors
open Cert.KernelIdeal Cert.KernelIdeal.Facts₀
variable [Cert.KernelIdeal.Facts]

/-- The keep factor on entry `(t, d)` is the token's keep bit read as a number. -/
theorem keepFactor_apply (kp : IVec S8192 1) (t : Fin 8192) (d : Fin 2048) :
    keepFactor (F := Ideal) kp (ix2 t d) = (((kp (ix1 t)).toNat : ℝ) : EReal) := by
  unfold keepFactor
  rw [broadcastInDim_apply _ _ _ (ix2 t d) (ix2 t (0 : Fin 1)) (fun a => match a with | ⟨0, _⟩ => rfl | ⟨1, _⟩ => rfl)]
  show FloatOps.uitofp .f32 (broadcastInDim S8192x1 ![0] bcast_S8192_S8192x1_0 kp (ix2 t (0 : Fin 1))) = _
  rw [broadcastInDim_apply _ _ _ (ix2 t (0 : Fin 1)) (ix1 t) (fun a => match a with | ⟨0, _⟩ => rfl)]
  rfl

/-- The wrapped index column at row `t`: `sl t + n` where `sl t` is negative, else `sl t`. -/
theorem wrapRows_apply (n : BitVec 32) (sl : IVec S8192 32) (t : Fin 8192) :
    wrapRows n sl (ix2 t (0 : Fin 1))
      = Scalar.select (IntOp.cmpi .slt (sl (ix1 t)) 0#32) (IntOp.addi (sl (ix1 t)) n) (sl (ix1 t)) := by
  unfold wrapRows
  rw [broadcastInDim_apply _ _ _ (ix2 t (0 : Fin 1)) (ix1 t) (fun a => match a with | ⟨0, _⟩ => rfl)]
  rfl

/-- A word that is not negative is not wrapped. -/
theorem wrap_of_nonneg (v n : BitVec 32) (h : 0 ≤ v.toInt) :
    Scalar.select (IntOp.cmpi .slt v 0#32) (IntOp.addi v n) v = v := by
  have h0 : IntOp.cmpi .slt v 0#32 = 0#1 := by
    unfold IntOp.cmpi
    have : v.slt 0#32 = false := by
      unfold BitVec.slt
      simp only [BitVec.toInt_zero, decide_eq_false_iff_not, not_lt]
      exact h
    simp only [this]
    rfl
  rw [h0]
  exact select_zero _ _

end Factors

/-! ## The two gathers at an index -/

section Gathers
variable {α : Type}

/-- The kernel's program's gather at `(t, d)`: row `idx[t, 0]` clamped into `[0, 10239]`, column `d`. -/
theorem gatherK_apply [Cert.KernelIdeal.Facts] {w : Nat} (O : (⟨2, ![10240, 2048]⟩ : Shape).Idx → α)
    (idx : IVec ⟨2, ![8192, 1]⟩ w) (t : Fin 8192) (d : Fin 2048) :
    Host.gather Cert.KernelIdeal.gather_S10240x2048_S8192x1_S8192x2048_1_0_n_n_0_1_12048 O idx (ix2 t d)
      = O (ix2 ⟨min (idx (ix2 t (0 : Fin 1))).toInt.toNat (10240 - 1), by omega⟩ d) :=
  gather_rows_apply (by decide) Cert.KernelIdeal.Facts₀.gather_S10240x2048_S8192x1_S8192x2048_1_0_n_n_0_1_12048_wf O idx t d

/-- The reference's gather at `(t, d)`: row `idx[t, 0]` clamped into `[0, 10240]`, column `d`. -/
theorem gatherR_apply [Cert.ReferenceIdeal.Facts] {w : Nat} (X : (⟨2, ![10241, 2048]⟩ : Shape).Idx → α)
    (idx : IVec ⟨2, ![8192, 1]⟩ w) (t : Fin 8192) (d : Fin 2048) :
    Host.gather Cert.ReferenceIdeal.gather_S10241x2048_S8192x1_S8192x2048_1_0_n_n_0_1_12048 X idx (ix2 t d)
      = X (ix2 ⟨min (idx (ix2 t (0 : Fin 1))).toInt.toNat (10241 - 1), by omega⟩ d) :=
  gather_rows_apply (by decide) Cert.ReferenceIdeal.Facts₀.gather_S10241x2048_S8192x1_S8192x2048_1_0_n_n_0_1_12048_wf X idx t d

/-- A row below `10240` of the `10240` rows followed by one more row is that row of the `10240`. -/
theorem concat_row_apply [Cert.ReferenceIdeal.Facts] (O : (⟨2, ![10240, 2048]⟩ : Shape).Idx → α)
    (Z : (⟨2, ![1, 2048]⟩ : Shape).Idx → α) (r : Fin 10241) (hr : r.val < 10240) (d : Fin 2048) :
    concatenate Cert.ReferenceIdeal.S10241x2048 0 [⟨Cert.ReferenceIdeal.S10240x2048, O⟩, ⟨Cert.ReferenceIdeal.S1x2048, Z⟩]
        Cert.ReferenceIdeal.Facts₀.concatenates_S10240x2048_S1x2048_S10241x2048_d0 (ix2 r d)
      = O (ix2 ⟨r.val, hr⟩ d) :=
  concatenate_pair_apply_left 0 O Z _ (ix2 r d) rfl (ix2 ⟨r.val, hr⟩ d)
    (fun b => match b with | ⟨0, _⟩ => rfl | ⟨1, _⟩ => rfl)

end Gathers

/-! ## Combine -/

/-- a kept token's row lies among the 10240 result rows, where both programs read the same row; a dropped token's row is multiplied by zero in both -/
theorem combine_eq [Cert.KernelIdeal.Facts] [Cert.ReferenceIdeal.Facts]
    (oe : FVec Ideal Cert.KernelIdeal.S8x1280x2048 .f32) (kp : IVec Cert.KernelIdeal.S8192 1) (sl : IVec Cert.KernelIdeal.S8192 32)
    (s : FVec Ideal Cert.KernelIdeal.S8192 .f32)
    (hkept : ∀ t : Cert.KernelIdeal.S8192.Idx, kp t = 1#1 → 0 ≤ (sl t).toInt ∧ (sl t).toInt < 10240)
    (hdrop : ∀ t : Cert.KernelIdeal.S8192.Idx, ¬ kp t = 1#1 → sl t = 10240#32) :
    combineK (F := Ideal) oe kp sl s = combineR (F := Ideal) oe kp sl s := by
  funext j
  obtain ⟨t, d, rfl⟩ : ∃ (t : Fin 8192) (d : Fin 2048), j = ix2 t d := ⟨j 0, j 1, eq_ix2 j⟩
  unfold combineK combineR
  rw [mulf_apply, mulf_apply, mulf_apply, mulf_apply]
  refine congrArg (· * _) ?_
  rw [keepFactor_apply]
  by_cases hk : kp (ix1 t) = 1#1
  · -- a kept token: neither wrap fires, neither clamp binds, and the row is one of the first 10240
    obtain ⟨h0, h1⟩ := hkept (ix1 t) hk
    refine congrArg (· * _) ?_
    have hK : wrapRows 10240#32 (select kp sl (broadcastInDim Cert.KernelIdeal.S8192 ![] Cert.KernelIdeal.Facts₀.bcast_S_S8192
        (id (constantI Cert.KernelIdeal.S_ 32 0#32)))) (ix2 t (0 : Fin 1)) = sl (ix1 t) := by
      rw [wrapRows_apply, select_apply, hk, select_one, wrap_of_nonneg _ _ h0]
    have hR : wrapRows 10241#32 sl (ix2 t (0 : Fin 1)) = sl (ix1 t) := by
      rw [wrapRows_apply, wrap_of_nonneg _ _ h0]
    rw [gatherK_apply, gatherR_apply]
    rw [concat_row_apply _ _ _ (show min (wrapRows 10241#32 sl (ix2 t (0 : Fin 1))).toInt.toNat (10241 - 1) < 10240 by
      rw [hR]; omega) d]
    exact congrArg (fun r : Fin 10240 => shapeCast Cert.KernelIdeal.S10240x2048 oe
      Cert.KernelIdeal.Facts₀.shapeCasts_S8x1280x2048_S10240x2048 (ix2 r d)) (Fin.ext (by
        show min _ (10240 - 1) = min _ (10241 - 1)
        rw [hK, hR]
        omega))
  · -- a dropped token: the keep factor is zero, and in the extended reals anything times zero is zero
    have hz : kp (ix1 t) = 0#1 := eq_zero_of_ne_one hk
    have h0 : ((((0#1 : BitVec 1).toNat : ℕ) : ℝ) : EReal) = 0 := by
      show (((0 : ℕ) : ℝ) : EReal) = 0
      rw [Nat.cast_zero, EReal.coe_zero]
    rw [hz, h0, mul_zero, mul_zero]

end Cert.Moe

end
-- ==== Proof.RouteRange.lean ====
/-
  The range of a token's row.

  With every expert `idx t` in `0 … 7`: the one-hot table `(t, e) ↦ [idx t = e]` holds only `0` and `1` and has a
  `1` at `(t, idx t)`. Its running column sum at `(t, e)` is a left fold, from `0`, over the 8192 positions of a
  window ending at row `t`; each position adds a table entry or, above the table, the initial `0`. A fold of at most
  8192 words each `0` or `1` cannot wrap around in 32 bits, so the sum, as a natural number, is at most 8192, and it
  is at least `1` at column `idx t`, because the window's last position adds the entry `(t, idx t)` itself. Hence
  `rankTable (t, idx t)` = that sum − 1 is one of `0 … 8191`. A column in `0 … 7` is neither moved from the end nor
  clamped and passes the range test, so `rank t` is that table entry. For a kept token `rank t < 1280` (signed, and
  `rank t` is non-negative), so `slot t = idx t · 1280 + rank t` is at most `7 · 1280 + 1279 = 10239` with no wrap
  around. A dropped token's row is the constant `10240`.
-/
import proofs.«105716_j74380243632186_2_alg».proof.Proof.Stages
import Idealize.ShloMosaic.Lib.ValueIdx
import Idealize.ShloMosaic.Lib.ValueLayout
import Idealize.ShloMosaic.Lib.Pipeline.Value
import Idealize.ShloMosaic.Lib.ReduceAll

noncomputable section

namespace Cert.Moe

open Idealize.ShloMosaic Idealize.ShloMosaic.ValueIdx
open Cert.KernelIdeal Cert.KernelIdeal.Facts₀

/-! ## Counting with 32-bit words -/

/-- A left fold that adds words each `0` or `1`, over a list too short to wrap around: the result is at least the
    start, at most the start plus the length, and at least the start plus one when some member adds `1`. -/
theorem foldl_addi_bits {ι : Type} (g : ι → BitVec 32) (hg : ∀ n, g n = 0#32 ∨ g n = 1#32) :
    ∀ (L : List ι) (acc : BitVec 32), acc.toNat + L.length < 4294967296 →
      acc.toNat ≤ (L.foldl (fun r n => IntOp.addi r (g n)) acc).toNat ∧
      (L.foldl (fun r n => IntOp.addi r (g n)) acc).toNat ≤ acc.toNat + L.length ∧
      ((∃ n ∈ L, g n = 1#32) → acc.toNat + 1 ≤ (L.foldl (fun r n => IntOp.addi r (g n)) acc).toNat)
  | [], acc, _ => ⟨Nat.le_refl _, Nat.le_refl _, fun ⟨_, hn, _⟩ => nomatch hn⟩
  | a :: L, acc, h => by
    have hlen : (a :: L).length = L.length + 1 := rfl
    rw [hlen] at h
    have hga : (g a).toNat ≤ 1 := by
      rcases hg a with h0 | h1
      · rw [h0]; decide
      · rw [h1]; decide
    have hstep : (IntOp.addi acc (g a)).toNat = acc.toNat + (g a).toNat := by
      show (acc + g a).toNat = _
      rw [BitVec.toNat_add, Nat.mod_eq_of_lt (by omega)]
    obtain ⟨h1, h2, h3⟩ := foldl_addi_bits g hg L (IntOp.addi acc (g a)) (by rw [hstep]; omega)
    rw [List.foldl_cons, hlen]
    refine ⟨by omega, by omega, ?_⟩
    rintro ⟨n, hn, hn1⟩
    rcases List.mem_cons.1 hn with rfl | hn'
    · have : (g n).toNat = 1 := by rw [hn1]; rfl
      omega
    · have := h3 ⟨n, hn', hn1⟩; omega

/-- A left fold by `and` from `1` over words that are all `1` is `1`. -/
theorem foldl_andi_ones {ι : Type} (f : ι → BitVec 1) :
    ∀ l : List ι, (∀ n ∈ l, f n = 1#1) → l.foldl (fun r n => IntOp.andi r (f n)) 1#1 = 1#1
  | [], _ => rfl
  | a :: l, h => by
    rw [List.foldl_cons, h a (List.mem_cons_self ..)]
    exact foldl_andi_ones f l (fun n hn => h n (List.mem_cons_of_mem _ hn))

/-! ## Words and integers -/

/-- A word whose signed value is in `[0, 8)` has that unsigned value. -/
theorem toNat_of_range (v : BitVec 32) (h0 : 0 ≤ v.toInt) (h1 : v.toInt < 8) : v.toNat < 8 ∧ v.toInt = (v.toNat : Int) := by
  have hc := BitVec.toInt_eq_toNat_cond v
  have hlt := v.isLt
  by_cases hh : 2 * v.toNat < 2 ^ 32
  · rw [if_pos hh] at hc; omega
  · rw [if_neg hh] at hc; omega

/-! ## A window sum of bits -/

section Window
variable {s t u : Shape}

/-- What window position `w` contributes to the window fold at `j`: the operand at `j · stride + w − lo`, or the
    initial value `v` where that position is padding. -/
def windowTerm {α : Type} (window strides lo hi : Fin s.rank → Nat) (x : s.Idx → α) (v : α)
    (h : s.ReduceWindows window strides lo hi t) (j : t.Idx) (w : (⟨s.rank, window⟩ : Shape).Idx) : α :=
  @dite α (∀ a : Fin s.rank, lo a ≤ (j (a.cast h.1.symm)).val * strides a + (w a).val ∧
      (j (a.cast h.1.symm)).val * strides a + (w a).val - lo a < s.size a) (Nat.decidableForallFin _)
    (fun hin => x (fun a => ⟨(j (a.cast h.1.symm)).val * strides a + (w a).val - lo a, (hin a).2⟩))
    (fun _ => v)

/-- A window reduction at `j` is the left fold of the window's contributions, in row-major order of the window. -/
theorem reduceWindow_eq_foldl {α : Type} (f : α → α → α) (window strides lo hi : Fin s.rank → Nat) (x : s.Idx → α)
    (init : u.Idx → α) (h : s.ReduceWindows window strides lo hi t) (hu : 0 < u.numel) (j : t.Idx) :
    Host.reduceWindow f window strides lo hi x init h hu j =
      (List.finRange (⟨s.rank, window⟩ : Shape).numel).foldl
        (fun r n => f r (windowTerm window strides lo hi x (init (Shape.Idx.first hu)) h j
          ((⟨s.rank, window⟩ : Shape).rowMajor.symm n))) (init (Shape.Idx.first hu)) := rfl

/-- A window sum, from `0`, of words each `0` or `1`, over a window too small to wrap around: at most the window's
    size, and at least `1` when some window position contributes a `1`. -/
theorem reduceWindow_addi_bits (window strides lo hi : Fin s.rank → Nat) (x : s.Idx → BitVec 32)
    (init : u.Idx → BitVec 32) (h : s.ReduceWindows window strides lo hi t) (hu : 0 < u.numel)
    (hx : ∀ i, x i = 0#32 ∨ x i = 1#32) (hinit : init (Shape.Idx.first hu) = 0#32)
    (hW : (⟨s.rank, window⟩ : Shape).numel < 4294967296) (j : t.Idx) :
    (Host.reduceWindow IntOp.addi window strides lo hi x init h hu j).toNat ≤ (⟨s.rank, window⟩ : Shape).numel ∧
    ∀ w : (⟨s.rank, window⟩ : Shape).Idx, windowTerm window strides lo hi x 0#32 h j w = 1#32 →
      1 ≤ (Host.reduceWindow IntOp.addi window strides lo hi x init h hu j).toNat := by
  rw [reduceWindow_eq_foldl, hinit]
  have hbit : ∀ n, windowTerm window strides lo hi x 0#32 h j ((⟨s.rank, window⟩ : Shape).rowMajor.symm n) = 0#32 ∨
      windowTerm window strides lo hi x 0#32 h j ((⟨s.rank, window⟩ : Shape).rowMajor.symm n) = 1#32 := by
    intro n
    unfold windowTerm
    split
    · exact hx _
    · exact Or.inl rfl
  obtain ⟨-, h2, h3⟩ := foldl_addi_bits _ hbit (List.finRange (⟨s.rank, window⟩ : Shape).numel) 0#32
    (by rw [List.length_finRange]; show 0 + _ < _; omega)
  rw [List.length_finRange] at h2
  refine ⟨by have : (0#32 : BitVec 32).toNat = 0 := rfl; omega, fun w hw => ?_⟩
  have := h3 ⟨(⟨s.rank, window⟩ : Shape).rowMajor w, List.mem_finRange _, by rw [Equiv.symm_apply_apply]; exact hw⟩
  have h0 : (0#32 : BitVec 32).toNat = 0 := rfl
  omega

end Window

variable [Cert.KernelIdeal.Facts]

/-! ## The running column sum -/

/-- The running sum of a table of bits: at most 8192, and at least 1 where the table has a 1. -/
theorem cumsum_bounds (x : IVec S8192x8 32) (hx : ∀ i, x i = 0#32 ∨ x i = 1#32) (t : Fin 8192) (e : Fin 8) :
    (cumsum x (ix2 t e)).toNat ≤ 8192 ∧ (x (ix2 t e) = 1#32 → 1 ≤ (cumsum x (ix2 t e)).toNat) := by
  have hnum : (⟨2, ![8192, 1]⟩ : Shape).numel = 8192 := by simp [Shape.numel, Fin.prod_univ_two]
  obtain ⟨h1, h2⟩ := reduceWindow_addi_bits (s := S8192x8) (t := S8192x8) (u := S_) ![8192, 1] ![1, 1] ![8191, 0] ![0, 0] x
    (broadcastInDim S_ ![] bcast_S_S_ (constantI S_ 32 0#32)) reduceWindows_S8192x8_S8192x8_w8192s1p8191_0_w1s1p0_0 h_S_ hx rfl
    (by rw [hnum]; decide) (ix2 t e)
  rw [hnum] at h1
  refine ⟨h1, fun hone => h2 (ix2 (⟨8191, by omega⟩ : Fin 8192) (⟨0, by omega⟩ : Fin 1)) ?_⟩
  rw [← hone]
  unfold windowTerm
  split
  · refine congrArg x (funext fun a => Fin.ext ?_)
    match a with
    | ⟨0, _⟩ => show t.val * 1 + 8191 - 8191 = t.val; omega
    | ⟨1, _⟩ => show e.val * 1 + 0 - 0 = e.val; omega
  · rename_i hneg
    refine absurd (fun a => ?_) hneg
    match a with
    | ⟨0, _⟩ => exact ⟨by show 8191 ≤ t.val * 1 + 8191; omega, by show t.val * 1 + 8191 - 8191 < 8192; omega⟩
    | ⟨1, _⟩ => exact ⟨by show 0 ≤ e.val * 1 + 0; omega, by show e.val * 1 + 0 - 0 < 8; omega⟩

/-! ## The one-hot table -/

/-- A column of per-token words reads the token's word. -/
theorem col_apply {w : Nat} (v : IVec S8192 w) (t : Fin 8192) (b : Fin 1) :
    broadcastInDim S8192x1 ![0] bcast_S8192_S8192x1_0 v (ix2 t b) = v (ix1 t) :=
  broadcastInDim_apply _ _ v (ix2 t b) (ix1 t) (fun a => by match a with | ⟨0, _⟩ => rfl)

/-- An entry of the one-hot table: the token's expert compared with the column, as a 32-bit word. -/
theorem oneHot_apply (idx : IVec S8192 32) (t : Fin 8192) (e : Fin 8) :
    oneHot idx (ix2 t e) = (IntOp.cmpi .eq (idx (ix1 t)) (BitVec.ofNat 32 e.val)).setWidth 32 := by
  have e1 : broadcastInDim S8192x8 ![0, 1] bcast_S8192x1_S8192x8_0_1
      (broadcastInDim S8192x1 ![0] bcast_S8192_S8192x1_0 idx) (ix2 t e) = idx (ix1 t) :=
    (broadcastInDim_apply _ _ _ (ix2 t e) (ix2 t (0 : Fin 1))
      (fun a => by match a with | ⟨0, _⟩ => rfl | ⟨1, _⟩ => rfl)).trans (col_apply idx t 0)
  have e2 : broadcastInDim S8192x8 ![0, 1] bcast_S1x8_S8192x8_0_1 (iotaInDim S1x8 32 1) (ix2 t e)
      = BitVec.ofNat 32 e.val :=
    broadcastInDim_apply _ _ _ (ix2 t e) (ix2 (0 : Fin 1) e) (fun a => by match a with | ⟨0, _⟩ => rfl | ⟨1, _⟩ => rfl)
  show (IntOp.cmpi .eq _ _).setWidth 32 = _
  rw [e1, e2]

/-- Every entry of the one-hot table is `0` or `1`. -/
theorem oneHot_bit (idx : IVec S8192 32) (i : S8192x8.Idx) : oneHot idx i = 0#32 ∨ oneHot idx i = 1#32 := by
  unfold oneHot
  rw [extui_apply]
  generalize cmpi .eq _ _ i = c
  revert c; decide

/-- The one-hot row of a token with an expert in `0 … 7` has its `1` in that expert's column. -/
theorem oneHot_self (idx : IVec S8192 32) (t : Fin 8192) (hlt : (idx (ix1 t)).toNat < 8) :
    oneHot idx (ix2 t ⟨(idx (ix1 t)).toNat, hlt⟩) = 1#32 := by
  rw [oneHot_apply]
  have hv : BitVec.ofNat 32 (idx (ix1 t)).toNat = idx (ix1 t) := by
    apply BitVec.eq_of_toNat_eq
    rw [BitVec.toNat_ofNat]
    exact Nat.mod_eq_of_lt (idx (ix1 t)).isLt
  show (IntOp.cmpi .eq (idx (ix1 t)) (BitVec.ofNat 32 (idx (ix1 t)).toNat)).setWidth 32 = 1#32
  rw [hv, IntOp.cmpi_eq.2 rfl]
  rfl

/-! ## Reading the table at the token's column -/

/-- The column a token reads, for a non-negative expert: the expert itself. -/
theorem takeCol_apply (idx : IVec S8192 32) (t : Fin 8192) (b c : Fin 1) (h0 : 0 ≤ (idx (ix1 t)).toInt) :
    takeCol (broadcastInDim S8192x1 ![0] bcast_S8192_S8192x1_0 idx) (ix3 t b c) = idx (ix1 t) := by
  unfold takeCol
  rw [shapeCast_apply _ _ (ix3 t b c) (ix2 t (0 : Fin 1)) (by
    rw [Shape.rowMajor_val_two, Shape.rowMajor_val_three]
    show t.val * 1 + 0 = (t.val * 1 + b.val) * 1 + c.val
    have := b.isLt; have := c.isLt; omega)]
  show Scalar.select (IntOp.cmpi .slt (broadcastInDim S8192x1 ![0] bcast_S8192_S8192x1_0 idx (ix2 t 0)) 0#32)
    (IntOp.addi (broadcastInDim S8192x1 ![0] bcast_S8192_S8192x1_0 idx (ix2 t 0)) 8#32)
    (broadcastInDim S8192x1 ![0] bcast_S8192_S8192x1_0 idx (ix2 t 0)) = _
  rw [col_apply]
  have hz : IntOp.cmpi .slt (idx (ix1 t)) 0#32 = 0#1 := eq_zero_of_ne_one (fun h => by
    have h1 := IntOp.cmpi_slt.1 h
    have h00 : (0#32 : BitVec 32).toInt = 0 := by decide
    omega)
  rw [hz, select_zero]

/-- With every expert in `0 … 7` every token's column is in range. -/
theorem takeOk_eq_one (idx : IVec S8192 32)
    (hidx : ∀ t : Fin 8192, 0 ≤ (idx (ix1 t)).toInt ∧ (idx (ix1 t)).toInt < 8) (j : S8192x1.Idx) :
    takeOk (takeCol (broadcastInDim S8192x1 ![0] bcast_S8192_S8192x1_0 idx)) j = 1#1 := by
  unfold takeOk
  rw [Host.reduce_eq_foldl]
  show List.foldl _ 1#1 _ = 1#1
  apply foldl_andi_ones
  intro i _
  rw [eq_ix3 i]
  show IntOp.andi (IntOp.cmpi .sge (takeCol _ (ix3 (i 0) (i 1) (i 2))) 0#32)
    (IntOp.cmpi .sle (takeCol _ (ix3 (i 0) (i 1) (i 2))) 7#32) = 1#1
  rw [takeCol_apply idx (i 0) (i 1) (i 2) (hidx (i 0)).1, IntOp.andi_eq_one]
  have h00 : (0#32 : BitVec 32).toInt = 0 := by decide
  have h07 : (7#32 : BitVec 32).toInt = 7 := by decide
  have := hidx (i 0)
  exact ⟨IntOp.cmpi_sge.2 (by omega), IntOp.cmpi_sle.2 (by omega)⟩

/-- The gather reads row `t` of the table at the token's column, read signed and clamped into `0 … 7`. -/
theorem gather_apply (tbl : IVec S8192x8 32) (c3 : IVec S8192x1x1 32) (t : Fin 8192) (b : Fin 1) :
    Host.gather gather_S8192x8_S8192x1x1_S8192x1_n_1_0_0_1_2_11 tbl c3 (ix2 t b)
      = tbl (ix2 t ⟨min (c3 (ix3 t (0 : Fin 1) (0 : Fin 1))).toInt.toNat 7, by omega⟩) := by
  unfold Host.gather
  congr 1
  funext a
  refine Fin.ext ?_
  match a with
  | ⟨0, _⟩ =>
    show gather_S8192x8_S8192x1x1_S8192x1_n_1_0_0_1_2_11.start (ix2 t b) c3 0
      + gather_S8192x8_S8192x1x1_S8192x1_n_1_0_0_1_2_11.batchCoord (ix2 t b) 0
      + gather_S8192x8_S8192x1x1_S8192x1_n_1_0_0_1_2_11.offCoord (ix2 t b) 0 = t.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S8192x8_S8192x1x1_S8192x1_n_1_0_0_1_2_11.operandBatchingDims from List.mem_singleton.mpr rfl)]
    rfl
  | ⟨1, _⟩ =>
    show gather_S8192x8_S8192x1x1_S8192x1_n_1_0_0_1_2_11.start (ix2 t b) c3 1
      + gather_S8192x8_S8192x1x1_S8192x1_n_1_0_0_1_2_11.batchCoord (ix2 t b) 1
      + gather_S8192x8_S8192x1x1_S8192x1_n_1_0_0_1_2_11.offCoord (ix2 t b) 1 = _
    rw [GatherDims.batchCoord_eq_zero _ _ _ (fun h => absurd (List.mem_singleton.1 h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S8192x8_S8192x1x1_S8192x1_n_1_0_0_1_2_11.startIndexMap from List.mem_singleton.mpr rfl)]
    have hsi : gather_S8192x8_S8192x1x1_S8192x1_n_1_0_0_1_2_11.siIdx (ix2 t b)
        ⟨List.idxOf (1 : Fin 2) gather_S8192x8_S8192x1x1_S8192x1_n_1_0_0_1_2_11.startIndexMap,
          List.idxOf_lt_length_iff.2 (List.mem_singleton.mpr rfl)⟩ = ix3 t (0 : Fin 1) (0 : Fin 1) := by
      funext c; refine Fin.ext ?_
      match c with
      | ⟨0, _⟩ => rfl
      | ⟨1, _⟩ => have := b.isLt; show b.val = 0; omega
      | ⟨2, _⟩ => rfl
    rw [hsi]
    rfl

/-- A token's place in its expert's queue is the table's entry at the token's row and expert. -/
theorem rank_apply (idx : IVec S8192 32)
    (hidx : ∀ t : Fin 8192, 0 ≤ (idx (ix1 t)).toInt ∧ (idx (ix1 t)).toInt < 8) (t : Fin 8192)
    (hlt : (idx (ix1 t)).toNat < 8) :
    rank idx (ix1 t) = rankTable idx (ix2 t ⟨(idx (ix1 t)).toNat, hlt⟩) := by
  unfold rank
  rw [shapeCast_apply _ _ (ix1 t) (ix2 t (0 : Fin 1)) (by
    rw [Shape.rowMajor_val_two, Shape.rowMajor_val_one]
    show t.val * 1 + 0 = t.val; omega)]
  unfold takeAlong
  rw [select_apply, takeOk_eq_one idx hidx, select_one, gather_apply]
  refine congrArg (rankTable idx) (funext fun a => Fin.ext ?_)
  match a with
  | ⟨0, _⟩ => rfl
  | ⟨1, _⟩ =>
    show min (takeCol (broadcastInDim S8192x1 ![0] bcast_S8192_S8192x1_0 idx) (ix3 t 0 0)).toInt.toNat 7
      = (idx (ix1 t)).toNat
    rw [takeCol_apply idx t 0 0 (hidx t).1]
    have := toNat_of_range _ (hidx t).1 (hidx t).2
    omega

/-- With every expert in `0 … 7` a token's place in its queue is one of `0 … 8191`. -/
theorem rank_le (idx : IVec S8192 32)
    (hidx : ∀ t : Fin 8192, 0 ≤ (idx (ix1 t)).toInt ∧ (idx (ix1 t)).toInt < 8) (t : Fin 8192) :
    (rank idx (ix1 t)).toNat ≤ 8191 := by
  obtain ⟨hlt, -⟩ := toNat_of_range _ (hidx t).1 (hidx t).2
  rw [rank_apply idx hidx t hlt]
  obtain ⟨hle, hge⟩ := cumsum_bounds (oneHot idx) (oneHot_bit idx) t ⟨_, hlt⟩
  have h1 := hge (oneHot_self idx t hlt)
  show (cumsum (oneHot idx) (ix2 t ⟨_, hlt⟩) - 1#32).toNat ≤ 8191
  rw [BitVec.toNat_sub]
  have h11 : (1#32 : BitVec 32).toNat = 1 := rfl
  omega

/-! ## The token's row -/

/-- a kept token's row is one of the 8·1280 places -/
theorem slot_range (idx : IVec S8192 32) (hidx : ∀ t : S8192.Idx, 0 ≤ (idx t).toInt ∧ (idx t).toInt < 8)
    (t : S8192.Idx) (hk : keep idx t = 1#1) :
    0 ≤ (slot idx t).toInt ∧ (slot idx t).toInt < 10240 := by
  obtain ⟨t0, rfl⟩ : ∃ t0 : Fin 8192, t = ix1 t0 := ⟨t 0, eq_ix1 t⟩
  have hidx' : ∀ t : Fin 8192, 0 ≤ (idx (ix1 t)).toInt ∧ (idx (ix1 t)).toInt < 8 := fun t => hidx (ix1 t)
  obtain ⟨hlt, -⟩ := toNat_of_range _ (hidx' t0).1 (hidx' t0).2
  have hr := rank_le idx hidx' t0
  have hs : (rank idx (ix1 t0)).toInt < (1280#32 : BitVec 32).toInt := IntOp.cmpi_slt.1 hk
  show 0 ≤ (Scalar.select (keep idx (ix1 t0))
      (IntOp.addi (IntOp.muli (idx (ix1 t0)) 1280#32) (rank idx (ix1 t0))) 10240#32).toInt ∧
    (Scalar.select (keep idx (ix1 t0))
      (IntOp.addi (IntOp.muli (idx (ix1 t0)) 1280#32) (rank idx (ix1 t0))) 10240#32).toInt < 10240
  rw [hk, select_one]
  show 0 ≤ (idx (ix1 t0) * 1280#32 + rank idx (ix1 t0)).toInt ∧
    (idx (ix1 t0) * 1280#32 + rank idx (ix1 t0)).toInt < 10240
  generalize rank idx (ix1 t0) = r at hr hs ⊢
  generalize idx (ix1 t0) = v at hlt ⊢
  have h1280 : (1280#32 : BitVec 32).toInt = 1280 := by decide
  have h1280' : (1280#32 : BitVec 32).toNat = 1280 := rfl
  have hrc := BitVec.toInt_eq_toNat_cond r
  have hrn : r.toNat < 1280 := by
    by_cases hh : 2 * r.toNat < 2 ^ 32
    · rw [if_pos hh] at hrc; omega
    · rw [if_neg hh] at hrc; omega
  have hn : (v * 1280#32 + r).toNat = v.toNat * 1280 + r.toNat := by
    rw [BitVec.toNat_add, BitVec.toNat_mul, h1280']
    omega
  have hc := BitVec.toInt_eq_toNat_cond (v * 1280#32 + r)
  rw [hn] at hc
  rw [if_pos (by omega)] at hc
  omega

/-- a dropped token's row is the spare row -/
theorem slot_dropped (idx : IVec S8192 32) (t : S8192.Idx) (hk : ¬ keep idx t = 1#1) : slot idx t = 10240#32 := by
  show Scalar.select (keep idx t) _ 10240#32 = 10240#32
  rw [eq_zero_of_ne_one hk, select_zero]

end Cert.Moe

end
-- ==== Proof.Bridge.lean ====
/-
  Dispatch, at the extended reals: the kernel's program and the reference scatter one array.

  The kernel's program narrows each row to bf16 before it is scattered and starts from bf16 zeros; the reference
  scatters the rows as they are and starts from f32 zeros.  On extended reals a format change is the identity and
  the zero word of either format is `0`, so the updates agree entry by entry and so do the two zero arrays; the
  scatter (one record, spelt once per program), the cut of the spare row and the reshape are the same operations.
-/
import proofs.«105716_j74380243632186_2_alg».proof.Proof.Stages
import Idealize.ShloMosaic.Lib.ValueIdx
import Idealize.ShloMosaic.Lib.IdealHost
import Idealize.ShloMosaic.PureOps.Ideal.Laws

noncomputable section

namespace Cert.Moe

open Idealize.ShloMosaic Idealize.ShloMosaic.ValueIdx

attribute [local irreducible] Host.scatter

/-- The bf16 zero word is the extended real `0`. -/
theorem ofBits_zero_bf16 : Ideal.ofBits .bf16 0x0000#16 = 0 := by simp [Ideal.ofBits, Ideal.ieee]

/-- The two programs state one scatter record. -/
theorem scatterDims_eq [Cert.KernelIdeal.Facts] [Cert.ReferenceIdeal.Facts] :
    Cert.KernelIdeal.scatter_S10241x2048_S8192x1_S8192x2048_1_0_0_1
      = Cert.ReferenceIdeal.scatter_S10241x2048_S8192x1_S8192x2048_1_0_0_1 := rfl

/-- A scatter of equal records, equal operands and equal updates at one index array is one array. -/
theorem scatter_congr {s si u : Shape} {α : Type} {w : Nat} (d d' : ScatterDims s si u) (hd : d = d') (f : α → α → α)
    (z z' : s.Idx → α) (hz : z = z') (idx : IVec si w) (upd upd' : u.Idx → α) (hu : upd = upd') :
    Host.scatter d f z idx upd = Host.scatter d' f z' idx upd' := by
  subst hd hz hu; rfl

section Dispatch
open Cert.KernelIdeal Cert.KernelIdeal.Facts₀
variable [Cert.KernelIdeal.Facts] [Cert.ReferenceIdeal.Facts]

/-- The rows scattered, entry by entry: a kept token's row as it is, zero for a dropped token, in both programs. -/
theorem updates_eq (x : FVec Ideal S8192x2048 .f32) (c : IVec S8192x2048 1) :
    (select c (truncf .bf16 x bitsLt_bf16_f32)
        (broadcastInDim S8192x2048 ![] bcast_S_S8192x2048 (constant (F := Ideal) S_ .bf16 0x0000#16)) : S8192x2048.Idx → EReal)
      = select c x (broadcastInDim S8192x2048 ![] bcast_S_S8192x2048 (constant (F := Ideal) S_ .f32 0x00000000#32)) := by
  funext i
  rw [select_apply, select_apply, truncf_apply, broadcastInDim_scalar_apply, broadcastInDim_scalar_apply,
    constant_apply, constant_apply, ofBits_zero_bf16, Ideal.ofBits_zero_f32]

/-- The two zero arrays. -/
theorem zeros_eq :
    (broadcastInDim S10241x2048 ![] bcast_S_S10241x2048 (constant (F := Ideal) S_ .bf16 0x0000#16) : S10241x2048.Idx → EReal)
      = broadcastInDim S10241x2048 ![] bcast_S_S10241x2048 (constant (F := Ideal) S_ .f32 0x00000000#32) := by
  funext i
  rw [broadcastInDim_scalar_apply, broadcastInDim_scalar_apply, constant_apply, constant_apply, ofBits_zero_bf16,
    Ideal.ofBits_zero_f32]

end Dispatch

/-- at the extended reals the two dispatch spellings are one array -/
theorem dispatch_eq [Cert.KernelIdeal.Facts] [Cert.ReferenceIdeal.Facts] (x : FVec Ideal Cert.KernelIdeal.S8192x2048 .f32)
    (kp : IVec Cert.KernelIdeal.S8192 1) (sl : IVec Cert.KernelIdeal.S8192 32) :
    (dispatchK (F := Ideal) x kp sl : Cert.KernelIdeal.S8x1280x2048.Idx → EReal) = dispatchR (F := Ideal) x kp sl := by
  unfold dispatchK dispatchR
  exact congrArg (fun A : Cert.KernelIdeal.S10241x2048.Idx → EReal =>
      shapeCast Cert.KernelIdeal.S8x1280x2048
        (extractStridedSlice Cert.KernelIdeal.S10240x2048 ![0, 0] A Cert.KernelIdeal.Facts₀.slices_S10241x2048_S10240x2048_0_0)
        Cert.KernelIdeal.Facts₀.shapeCasts_S10240x2048_S8x1280x2048)
    (scatter_congr _ _ scatterDims_eq _ _ _ zeros_eq _ _ _ (updates_eq x _))

end Cert.Moe

end
-- ==== Proof.Value.lean ====
/-
  The two programs' results are one function of the arguments, where every expert index is one of 0 … 7.

  Both route the same way (the same `keep` and `slot`).  The dispatched tokens agree (narrowing to bf16 is the identity
  on extended reals and both scatter into zeros); the expert layer of the same tokens and weights agrees entry by entry
  (`expertOut`); and the combine agrees because a kept token's row lies among the 8 · 1280 places, where both read the same
  row, while a dropped token's row is multiplied by zero in both.
-/
import proofs.«105716_j74380243632186_2_alg».proof.Proof.Stages
import proofs.«105716_j74380243632186_2_alg».proof.Proof.Expert
import proofs.«105716_j74380243632186_2_alg».proof.Proof.Combine
import proofs.«105716_j74380243632186_2_alg».proof.Proof.RouteRange
import proofs.«105716_j74380243632186_2_alg».proof.Proof.Bridge

noncomputable section

namespace Cert.Moe

open Idealize.ShloMosaic Idealize.ShloMosaic.ValueIdx

variable [Cert.KernelIdeal.Facts] [Cert.ReferenceIdeal.Facts]

/-- The reference's three batched products are the expert layer, as arrays. -/
theorem mlp_eq (xe : FVec Ideal Cert.ReferenceIdeal.S8x1280x2048 .f32) (wg wu : FVec Ideal Cert.ReferenceIdeal.S8x2048x1376 .f32)
    (wd : FVec Ideal Cert.ReferenceIdeal.S8x1376x2048 .f32) :
    mlp (F := Ideal) xe wg wu wd = expertOut xe wg wu wd := by
  funext i
  obtain ⟨e, c, d, rfl⟩ : ∃ (e : Fin 8) (c : Fin 1280) (d : Fin 2048), i = ix3 e c d := ⟨i 0, i 1, i 2, eq_ix3 i⟩
  rw [mlp_apply, expertOut_apply]

/-- The kernel's program and the reference compute one function of the arguments. -/
theorem value_eq (x : FVec Ideal Cert.KernelIdeal.S8192x2048 .f32) (idx : IVec Cert.KernelIdeal.S8192 32)
    (s : FVec Ideal Cert.KernelIdeal.S8192 .f32) (wg wu : FVec Ideal Cert.KernelIdeal.S8x2048x1376 .f32)
    (wd : FVec Ideal Cert.KernelIdeal.S8x1376x2048 .f32)
    (hidx : ∀ t : Cert.KernelIdeal.S8192.Idx, 0 ≤ (idx t).toInt ∧ (idx t).toInt < 8) :
    combineK (F := Ideal)
        (expertOut (dispatchK (F := Ideal) x (keep idx) (slot idx))
          (truncf .bf16 wg Cert.KernelIdeal.Facts₀.bitsLt_bf16_f32) (truncf .bf16 wu Cert.KernelIdeal.Facts₀.bitsLt_bf16_f32)
          (truncf .bf16 wd Cert.KernelIdeal.Facts₀.bitsLt_bf16_f32))
        (keep idx) (slot idx) s
      = refOut (F := Ideal) x idx s wg wu wd := by
  unfold refOut
  rw [← combine_eq _ _ _ _ (fun t hk => slot_range idx hidx t hk) (fun t hk => slot_dropped idx t hk)]
  refine congrArg (fun oe => combineK (F := Ideal) oe (keep idx) (slot idx) s) ?_
  rw [mlp_eq, ← dispatch_eq]
  rfl

end Cert.Moe

end
-- ==== Proof.lean ====
/-
  The certificate's five claims.

  The two frames of the kernel's program (at the word level and at the ideal instance) are the generated frame runs; the
  reference's frame is its run with the result dropped; the idealization rewrote no operation, so `preserves` is trivial.
  The value claim: run from memories that agree on the six arguments, where the precondition holds (so every expert index
  is one of 0 … 7), the kernel's program ends at the combine of the expert layer of the dispatched tokens, the reference at
  its composed stage functions, and the two are one function of the arguments.
-/
import proofs.«105716_j74380243632186_2_alg».proof.Defs
import proofs.«105716_j74380243632186_2_alg».proof.Proof.Gen.Kernel
import proofs.«105716_j74380243632186_2_alg».proof.Proof.Gen.Kernel.Frame
import proofs.«105716_j74380243632186_2_alg».proof.Proof.Gen.KernelIdeal
import proofs.«105716_j74380243632186_2_alg».proof.Proof.Gen.KernelIdeal.Frame
import proofs.«105716_j74380243632186_2_alg».proof.Proof.Gen.ReferenceIdeal
import proofs.«105716_j74380243632186_2_alg».proof.Proof.Gen.Pre_finite_inputs
import proofs.«105716_j74380243632186_2_alg».proof.Proof.Stages
import proofs.«105716_j74380243632186_2_alg».proof.Proof.KerRun
import proofs.«105716_j74380243632186_2_alg».proof.Proof.RefRun
import proofs.«105716_j74380243632186_2_alg».proof.Proof.PreRange
import proofs.«105716_j74380243632186_2_alg».proof.Proof.Value
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both programs end at the reference's function of the arguments. -/
theorem algebraic : Cert.algebraic_KernelIdeal_ReferenceIdeal := by
  intro m ρ m' ρ' hpre hagree
  refine ⟨fun c => Cert.Moe.refOut (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · refine (θ_run Cert.KernelIdeal.defs _ _).mono (fun _ h c => ⟨(h c).1.trans ?_, (h c).2⟩)
      (Cert.KernelIdeal.KerValue.run m ρ)
    exact Cert.Moe.value_eq _ _ _ _ _ _ (Cert.Moe.idx_range_of_pre _ _ _ _ _ _ (hpre c))
  · refine (θ_run Cert.ReferenceIdeal.defs _ _).mono (fun _ h c => ⟨(h c).1.trans ?_, (h c).2⟩)
      (Cert.ReferenceIdeal.RefRun.run (F := Ideal) m' ρ')
    rw [(hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
